-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000x4 : Shape := ⟨2, ![100000, 4]⟩
abbrev S500000 : Shape := ⟨1, ![500000]⟩
abbrev S128x128 : Shape := ⟨2, ![128, 128]⟩
abbrev S4x128 : Shape := ⟨2, ![4, 128]⟩
abbrev S128 : Shape := ⟨1, ![128]⟩
abbrev S256x128 : Shape := ⟨2, ![256, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x4 : S_.BroadcastsInDim S100000x4 (![] : Fin 0 → Fin S100000x4.rank)
  reducesTo_S100000x4_S_d0_1 : S100000x4.ReducesTo [0, 1] S_
  bcast_S_S128x128 : S_.BroadcastsInDim S128x128 (![] : Fin 0 → Fin S128x128.rank)
  reducesTo_S128x128_S_d0_1 : S128x128.ReducesTo [0, 1] S_
  bcast_S_S4x128 : S_.BroadcastsInDim S4x128 (![] : Fin 0 → Fin S4x128.rank)
  reducesTo_S4x128_S_d0_1 : S4x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_

variable [Facts]

def fn_part5 {F : FTy → Type} [FloatOps F] (main_arg20 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  main_v93

def fn_part4 {F : FTy → Type} [FloatOps F] (main_arg16 : FVec F S128 .f32) (main_arg17 : FVec F S128 .f32) (main_arg18 : FVec F S128x128 .f32) (main_arg19 : FVec F S128 .f32) (main_arg20 : FVec F S128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg18
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg20 main_v83 main_v84 main_cst_32

def fn_part3 {F : FTy → Type} [FloatOps F] (main_arg13 : FVec F S128 .f32) (main_arg14 : FVec F S128 .f32) (main_arg15 : FVec F S128x128 .f32) (main_arg16 : FVec F S128 .f32) (main_arg17 : FVec F S128 .f32) (main_arg18 : FVec F S128x128 .f32) (main_arg19 : FVec F S128 .f32) (main_arg20 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg15
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg16 main_arg17 main_arg18 main_arg19 main_arg20 main_v63 main_v67

def fn_part2 {F : FTy → Type} [FloatOps F] (main_arg9 : FVec F S256x128 .f32) (main_arg10 : FVec F S128 .f32) (main_arg11 : FVec F S128 .f32) (main_arg12 : FVec F S128x128 .f32) (main_arg13 : FVec F S128 .f32) (main_arg14 : FVec F S128 .f32) (main_arg15 : FVec F S128x128 .f32) (main_arg16 : FVec F S128 .f32) (main_arg17 : FVec F S128 .f32) (main_arg18 : FVec F S128x128 .f32) (main_arg19 : FVec F S128 .f32) (main_arg20 : FVec F S128 .f32) (main_v33 : IVec S_ 1) : IVec S_ 1 :=
  let main_v34 : FVec F S256x128 .f32 := Host.absf main_arg9
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_arg16 main_arg17 main_arg18 main_arg19 main_arg20 main_v48 main_v49 main_v50

def fn_part1 {F : FTy → Type} [FloatOps F] (main_arg6 : FVec F S128x128 .f32) (main_arg7 : FVec F S4x128 .f32) (main_arg8 : FVec F S128 .f32) (main_arg9 : FVec F S256x128 .f32) (main_arg10 : FVec F S128 .f32) (main_arg11 : FVec F S128 .f32) (main_arg12 : FVec F S128x128 .f32) (main_arg13 : FVec F S128 .f32) (main_arg14 : FVec F S128 .f32) (main_arg15 : FVec F S128x128 .f32) (main_arg16 : FVec F S128 .f32) (main_arg17 : FVec F S128 .f32) (main_arg18 : FVec F S128x128 .f32) (main_arg19 : FVec F S128 .f32) (main_arg20 : FVec F S128 .f32) (main_v13 : IVec S_ 1) (main_v16 : IVec S100000x4 1) : IVec S_ 1 :=
  let main_c_5 : IVec S_ 1 := constantI S_ 1 1#1
  let main_v17 : IVec S_ 1 := (fun x v => Host.reduce IntOp.andi x v reducesTo_S100000x4_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S4x128 .f32 := Host.absf main_arg7
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_v33

def fn {F : FTy → Type} [FloatOps F] (main_arg0 : FVec F S100000x128 .f32) (main_arg1 : FVec F S100000x128 .f32) (main_arg2 : FVec F S100000x4 .f32) (main_arg3 : FVec F S100000x4 .f32) (main_arg4 : IVec S500000 32) (main_arg5 : IVec S500000 32) (main_arg6 : FVec F S128x128 .f32) (main_arg7 : FVec F S4x128 .f32) (main_arg8 : FVec F S128 .f32) (main_arg9 : FVec F S256x128 .f32) (main_arg10 : FVec F S128 .f32) (main_arg11 : FVec F S128 .f32) (main_arg12 : FVec F S128x128 .f32) (main_arg13 : FVec F S128 .f32) (main_arg14 : FVec F S128 .f32) (main_arg15 : FVec F S128x128 .f32) (main_arg16 : FVec F S128 .f32) (main_arg17 : FVec F S128 .f32) (main_arg18 : FVec F S128x128 .f32) (main_arg19 : FVec F S128 .f32) (main_arg20 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S100000x4 .f32 := Host.absf main_arg2
  let main_cst_2 : FVec F S_ .f32 := constant S_ .f32 0x7F800000#32
  let main_v10 : FVec F S100000x4 .f32 := broadcastInDim S100000x4 ![] bcast_S_S100000x4 main_cst_2
  let main_v11 : IVec S100000x4 1 := cmpf .olt main_v9 main_v10
  let main_c_3 : IVec S_ 1 := constantI S_ 1 1#1
  let main_v12 : IVec S_ 1 := (fun x v => Host.reduce IntOp.andi x v reducesTo_S100000x4_S_d0_1 h_S_) main_v11 main_c_3
  let main_v13 : IVec S_ 1 := andi main_v8 main_v12
  let main_v14 : FVec F S100000x4 .f32 := Host.absf main_arg3
  let main_cst_4 : FVec F S_ .f32 := constant S_ .f32 0x7F800000#32
  let main_v15 : FVec F S100000x4 .f32 := broadcastInDim S100000x4 ![] bcast_S_S100000x4 main_cst_4
  let main_v16 : IVec S100000x4 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_v13 main_v16
-- ==== Kernel.lean ====
abbrev S100000x128 : Shape := ⟨2, ![100000, 128]⟩
abbrev S100000x4 : Shape := ⟨2, ![100000, 4]⟩
abbrev S500000 : Shape := ⟨1, ![500000]⟩
abbrev S128x128 : Shape := ⟨2, ![128, 128]⟩
abbrev S4x128 : Shape := ⟨2, ![4, 128]⟩
abbrev S128 : Shape := ⟨1, ![128]⟩
abbrev S256x128 : Shape := ⟨2, ![256, 128]⟩
abbrev S_ : Shape := ⟨0, ![]⟩
abbrev S500000x1 : Shape := ⟨2, ![500000, 1]⟩
abbrev S500000x128 : Shape := ⟨2, ![500000, 128]⟩
abbrev S500000x4 : Shape := ⟨2, ![500000, 4]⟩
abbrev S1x128 : Shape := ⟨2, ![1, 128]⟩
abbrev S10000x128 : Shape := ⟨2, ![10000, 128]⟩
abbrev S10000x4 : Shape := ⟨2, ![10000, 4]⟩
abbrev S10000 : Shape := ⟨1, ![10000]⟩
abbrev S10000x1 : Shape := ⟨2, ![10000, 1]⟩

abbrev nBuf : Space → Nat
  | .hbm => 72
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S100000x4, .f32⟩
  | .hbm, ⟨3, _⟩ => ⟨S100000x4, .f32⟩
  | .hbm, ⟨4, _⟩ => ⟨S500000, .i32⟩
  | .hbm, ⟨5, _⟩ => ⟨S500000, .i32⟩
  | .hbm, ⟨6, _⟩ => ⟨S128x128, .f32⟩
  | .hbm, ⟨7, _⟩ => ⟨S4x128, .f32⟩
  | .hbm, ⟨8, _⟩ => ⟨S128, .f32⟩
  | .hbm, ⟨9, _⟩ => ⟨S256x128, .f32⟩
  | .hbm, ⟨10, _⟩ => ⟨S128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128, .f32⟩
  | .hbm, ⟨18, _⟩ => ⟨S128x128, .f32⟩
  | .hbm, ⟨19, _⟩ => ⟨S128, .f32⟩
  | .hbm, ⟨20, _⟩ => ⟨S128, .f32⟩
  | .hbm, ⟨21, _⟩ => ⟨S_, .i32⟩
  | .hbm, ⟨22, _⟩ => ⟨S500000, .i32⟩
  | .hbm, ⟨23, _⟩ => ⟨S500000, .i1⟩
  | .hbm, ⟨24, _⟩ => ⟨S_, .i32⟩
  | .hbm, ⟨25, _⟩ => ⟨S500000, .i32⟩
  | .hbm, ⟨26, _⟩ => ⟨S500000, .i32⟩
  | .hbm, ⟨27, _⟩ => ⟨S500000, .i32⟩
  | .hbm, ⟨28, _⟩ => ⟨S500000x1, .i32⟩
  | .hbm, ⟨29, _⟩ => ⟨S500000x128, .f32⟩
  | .hbm, ⟨30, _⟩ => ⟨S_, .i32⟩
  | .hbm, ⟨31, _⟩ => ⟨S500000, .i32⟩
  | .hbm, ⟨32, _⟩ => ⟨S500000, .i1⟩
  | .hbm, ⟨33, _⟩ => ⟨S_, .i32⟩
  | .hbm, ⟨34, _⟩ => ⟨S500000, .i32⟩
  | .hbm, ⟨35, _⟩ => ⟨S500000, .i32⟩
  | .hbm, ⟨36, _⟩ => ⟨S500000, .i32⟩
  | .hbm, ⟨37, _⟩ => ⟨S500000x1, .i32⟩
  | .hbm, ⟨38, _⟩ => ⟨S500000x4, .f32⟩
  | .hbm, ⟨39, _⟩ => ⟨S_, .i32⟩
  | .hbm, ⟨40, _⟩ => ⟨S500000, .i32⟩
  | .hbm, ⟨41, _⟩ => ⟨S500000, .i1⟩
  | .hbm, ⟨42, _⟩ => ⟨S_, .i32⟩
  | .hbm, ⟨43, _⟩ => ⟨S500000, .i32⟩
  | .hbm, ⟨44, _⟩ => ⟨S500000, .i32⟩
  | .hbm, ⟨45, _⟩ => ⟨S500000, .i32⟩
  | .hbm, ⟨46, _⟩ => ⟨S500000x1, .i32⟩
  | .hbm, ⟨47, _⟩ => ⟨S500000x4, .f32⟩
  | .hbm, ⟨48, _⟩ => ⟨S500000x4, .f32⟩
  | .hbm, ⟨49, _⟩ => ⟨S128x128, .f32⟩
  | .hbm, ⟨50, _⟩ => ⟨S128x128, .f32⟩
  | .hbm, ⟨51, _⟩ => ⟨S1x128, .f32⟩
  | .hbm, ⟨52, _⟩ => ⟨S1x128, .f32⟩
  | .hbm, ⟨53, _⟩ => ⟨S1x128, .f32⟩
  | .hbm, ⟨54, _⟩ => ⟨S500000x128, .f32⟩
  | .hbm, ⟨55, _⟩ => ⟨S100000x128, .f32⟩
  | .hbm, ⟨56, _⟩ => ⟨S_, .i32⟩
  | .hbm, ⟨57, _⟩ => ⟨S500000, .i32⟩
  | .hbm, ⟨58, _⟩ => ⟨S500000, .i1⟩
  | .hbm, ⟨59, _⟩ => ⟨S_, .i32⟩
  | .hbm, ⟨60, _⟩ => ⟨S500000, .i32⟩
  | .hbm, ⟨61, _⟩ => ⟨S500000, .i32⟩
  | .hbm, ⟨62, _⟩ => ⟨S500000, .i32⟩
  | .hbm, ⟨63, _⟩ => ⟨S500000x1, .i32⟩
  | .hbm, ⟨64, _⟩ => ⟨S100000x128, .f32⟩
  | .hbm, ⟨65, _⟩ => ⟨S1x128, .f32⟩
  | .hbm, ⟨66, _⟩ => ⟨S1x128, .f32⟩
  | .hbm, ⟨67, _⟩ => ⟨S1x128, .f32⟩
  | .hbm, ⟨68, _⟩ => ⟨S1x128, .f32⟩
  | .hbm, ⟨69, _⟩ => ⟨S1x128, .f32⟩
  | .hbm, ⟨70, _⟩ => ⟨S1x128, .f32⟩
  | .hbm, ⟨71, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S10000x4, .f32⟩
  | .local _ .vmem, ⟨3, _⟩ => ⟨S10000x4, .f32⟩
  | .local _ .vmem, ⟨4, _⟩ => ⟨S4x128, .f32⟩
  | .local _ .vmem, ⟨5, _⟩ => ⟨S1x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S1x128, .f32⟩
  | .local _ .vmem, ⟨10, _⟩ => ⟨S128x128, .f32⟩
  | .local _ .vmem, ⟨11, _⟩ => ⟨S10000x128, .f32⟩
  | .local _ .vmem, ⟨12, _⟩ => ⟨S10000x128, .f32⟩
  | .local _ .vmem, ⟨13, _⟩ => ⟨S10000x128, .f32⟩
  | .local _ .vmem, ⟨14, _⟩ => ⟨S10000x128, .f32⟩
  | .local _ .vmem, ⟨15, _⟩ => ⟨S128x128, .f32⟩
  | .local _ .vmem, ⟨16, _⟩ => ⟨S10000x128, .f32⟩
  | .local _ .vmem, ⟨17, _⟩ => ⟨S10000x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S1x128, .f32⟩
  | .local _ .vmem, ⟨23, _⟩ => ⟨S1x128, .f32⟩
  | .local _ .vmem, ⟨24, _⟩ => ⟨S128x128, .f32⟩
  | .local _ .vmem, ⟨25, _⟩ => ⟨S1x128, .f32⟩
  | .local _ .vmem, ⟨26, _⟩ => ⟨S1x128, .f32⟩
  | .local _ .vmem, ⟨27, _⟩ => ⟨S128x128, .f32⟩
  | .local _ .vmem, ⟨28, _⟩ => ⟨S1x128, .f32⟩
  | .local _ .vmem, ⟨29, _⟩ => ⟨S1x128, .f32⟩
  | .local _ .vmem, ⟨30, _⟩ => ⟨S10000x128, .f32⟩
  | .local _ .vmem, ⟨31, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_c_1 : Ref sig .tc := ⟨.hbm, 30, rfl⟩
abbrev main_v7 : Ref sig .tc := ⟨.hbm, 31, rfl⟩
abbrev main_v8 : Ref sig .tc := ⟨.hbm, 32, rfl⟩
abbrev main_c_2 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_c_3 : Ref sig .tc := ⟨.hbm, 39, rfl⟩
abbrev main_v14 : Ref sig .tc := ⟨.hbm, 40, rfl⟩
abbrev main_v15 : Ref sig .tc := ⟨.hbm, 41, rfl⟩
abbrev main_c_4 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_c_5 : Ref sig .tc := ⟨.hbm, 56, rfl⟩
abbrev main_v29 : Ref sig .tc := ⟨.hbm, 57, rfl⟩
abbrev main_v30 : Ref sig .tc := ⟨.hbm, 58, rfl⟩
abbrev main_c_6 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg2_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg8_0 : Ref sig .tc := ⟨.vmem, 28, rfl⟩
abbrev cc2_stg9_0 : Ref sig .tc := ⟨.vmem, 29, rfl⟩
abbrev cc2_stg10_0 : Ref sig .tc := ⟨.vmem, 30, rfl⟩
abbrev cc2_stg10_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem2_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem8_0 : DmaSem sig := 28
abbrev cc2_sem9_0 : DmaSem sig := 29
abbrev cc2_sem10_0 : DmaSem sig := 30
abbrev cc2_sem10_1 : DmaSem sig := 31

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S10000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S10000x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  slices_S256x128_S128x128_0_0 : S256x128.Slices ![0, 0] S128x128
  slices_S256x128_S128x128_128_0 : S256x128.Slices ![128, 0] S128x128
  shapeCasts_S128_S1x128 : S128.ShapeCasts S1x128
  inb_S10000x4_S10000x4_0_0 : ∀ a, (![0, 0] : Fin 2 → Nat) a + S10000x4.size a ≤ S10000x4.size a
  h_S10000x4 : 0 < S10000x4.numel
  shapeCasts_S10000x4_S10000x4 : S10000x4.ShapeCasts S10000x4
  inb_S4x128_S4x128_0_0 : ∀ a, (![0, 0] : Fin 2 → Nat) a + S4x128.size a ≤ S4x128.size a
  h_S4x128 : 0 < S4x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reduces_S10000x128_S10000 : S10000x128.Reduces [1] S10000
  shapeCasts_S10000_S10000x1 : S10000.ShapeCasts S10000x1
  broadcasts_S10000x1_S10000x128 : S10000x1.Broadcasts S10000x128
  gather_S100000x128_S500000x1_S500000x128_1_0_n_n_0_1_1128_wf : GatherDims.WF S100000x128 S500000x1 S500000x128 [1] [0] [] [0] [] 1 ![1, 128]
  gather_S100000x4_S500000x1_S500000x4_1_0_n_n_0_1_14_wf : GatherDims.WF S100000x4 S500000x1 S500000x4 [1] [0] [] [0] [] 1 ![1, 4]
  dot_S10000x4_S4x128_S10000x128_1_0_0_1_n_n_wf : DotDims.WF S10000x4 S4x128 S10000x128 [1] [0] [0] [1] [] []
  dot_S10000x128_S128x128_S10000x128_1_0_0_1_n_n_wf : DotDims.WF S10000x128 S128x128 S10000x128 [1] [0] [0] [1] [] []
  scatter_S100000x128_S500000x1_S500000x128_1_0_0_1_wf : ScatterDims.WF S100000x128 S500000x1 S500000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S500000x128.size a
  hwx0_0 : ∀ i : grid0.Coords, EltTy.bits .f32 = 32 ∨ (Rect.block (s := S500000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x4.size a ≤ S500000x4.size a
  hwx0_1 : ∀ i : grid0.Coords, EltTy.bits .f32 = 32 ∨ (Rect.block (s := S500000x4) S10000x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x128.size a ≤ S4x128.size a
  hwx0_2 : ∀ i : grid0.Coords, EltTy.bits .f32 = 32 ∨ (Rect.block (s := S4x128) S4x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S10000x128.size a ≤ S500000x128.size a
  hwx0_9 : ∀ i : grid0.Coords, EltTy.bits .f32 = 32 ∨ (Rect.block (s := S500000x128) S10000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S100000x128.size a
  hwx2_1 : ∀ i : grid2.Coords, EltTy.bits .f32 = 32 ∨ (Rect.block (s := S100000x128) S10000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S10000x128.size a ≤ S100000x128.size a
  hwx2_10 : ∀ i : grid2.Coords, EltTy.bits .f32 = 32 ∨ (Rect.block (s := S100000x128) S10000x128.size (cc2_transform_10 i) (hinb2_10 i)).WholeWords (EltTy.packing .f32)

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def gather_S100000x4_S500000x1_S500000x4_1_0_n_n_0_1_14 : GatherDims S100000x4 S500000x1 S500000x4 where
  offsetDims := [1]
  collapsedSliceDims := [0]
  operandBatchingDims := []
  startIndicesBatchingDims := []
  startIndexMap := [0]
  indexVectorDim := 1
  sliceSizes := ![1, 4]
  wf := gather_S100000x4_S500000x1_S500000x4_1_0_n_n_0_1_14_wf
def dot_S10000x4_S4x128_S10000x128_1_0_0_1_n_n : DotDims S10000x4 S4x128 S10000x128 where
  lhsContracting := [1]
  rhsContracting := [0]
  lhsNonContracting := [0]
  rhsNonContracting := [1]
  lhsBatch := []
  rhsBatch := []
  wf := dot_S10000x4_S4x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf

abbrev win0_0 : Pipeline.Window sig grid0 :=
  Pipeline.Window.ofSpec (Memref.whole main_v6) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S10000x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S4x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg12) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v27) S10000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg1) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v28) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v35) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S10000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v36) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v37) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg15) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v38) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v39) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg18) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v40) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v41) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v42) S10000x128.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S100000x128 : Shape := ⟨2, ![100000, 128]⟩
abbrev S100000x4 : Shape := ⟨2, ![100000, 4]⟩
abbrev S500000 : Shape := ⟨1, ![500000]⟩
abbrev S128x128 : Shape := ⟨2, ![128, 128]⟩
abbrev S4x128 : Shape := ⟨2, ![4, 128]⟩
abbrev S128 : Shape := ⟨1, ![128]⟩
abbrev S256x128 : Shape := ⟨2, ![256, 128]⟩
abbrev S_ : Shape := ⟨0, ![]⟩
abbrev S500000x1 : Shape := ⟨2, ![500000, 1]⟩
abbrev S500000x4 : Shape := ⟨2, ![500000, 4]⟩
abbrev S500000x128 : Shape := ⟨2, ![500000, 128]⟩
abbrev S1x128 : Shape := ⟨2, ![1, 128]⟩
abbrev S500000x256 : Shape := ⟨2, ![500000, 256]⟩
abbrev S100000 : Shape := ⟨1, ![100000]⟩
abbrev S100000x1 : Shape := ⟨2, ![100000, 1]⟩

abbrev nBuf : Space → Nat
  | .hbm => 200
  | .vmem => 0
  | .smem => 0
  | _ => 0

abbrev hbmTy0_0 (i : Nat) : BufTy := match i % 128 with
  | 0 => ⟨S100000x128, .f32⟩
  | 1 => ⟨S100000x128, .f32⟩
  | 2 => ⟨S100000x4, .f32⟩
  | 3 => ⟨S100000x4, .f32⟩
  | 4 => ⟨S500000, .i32⟩
  | 5 => ⟨S500000, .i32⟩
  | 6 => ⟨S128x128, .f32⟩
  | 7 => ⟨S4x128, .f32⟩
  | 8 => ⟨S128, .f32⟩
  | 9 => ⟨S256x128, .f32⟩
  | 10 => ⟨S128, .f32⟩
  | 11 => ⟨S128, .f32⟩
  | 12 => ⟨S128x128, .f32⟩
  | 13 => ⟨S128, .f32⟩
  | 14 => ⟨S128, .f32⟩
  | 15 => ⟨S128x128, .f32⟩
  | 16 => ⟨S128, .f32⟩
  | 17 => ⟨S128, .f32⟩
  | 18 => ⟨S128x128, .f32⟩
  | 19 => ⟨S128, .f32⟩
  | 20 => ⟨S128, .f32⟩
  | 21 => ⟨S_, .i32⟩
  | 22 => ⟨S500000, .i32⟩
  | 23 => ⟨S500000, .i1⟩
  | 24 => ⟨S_, .i32⟩
  | 25 => ⟨S500000, .i32⟩
  | 26 => ⟨S500000, .i32⟩
  | 27 => ⟨S500000, .i32⟩
  | 28 => ⟨S500000x1, .i32⟩
  | 29 => ⟨S500000x4, .f32⟩
  | 30 => ⟨S_, .i32⟩
  | 31 => ⟨S500000, .i32⟩
  | 32 => ⟨S500000, .i1⟩
  | 33 => ⟨S_, .i32⟩
  | 34 => ⟨S500000, .i32⟩
  | 35 => ⟨S500000, .i32⟩
  | 36 => ⟨S500000, .i32⟩
  | 37 => ⟨S500000x1, .i32⟩
  | 38 => ⟨S500000x4, .f32⟩
  | 39 => ⟨S500000x4, .f32⟩
  | 40 => ⟨S500000x128, .f32⟩
  | 41 => ⟨S1x128, .f32⟩
  | 42 => ⟨S500000x128, .f32⟩
  | 43 => ⟨S500000x128, .f32⟩
  | 44 => ⟨S_, .f32⟩
  | 45 => ⟨S500000x128, .f32⟩
  | 46 => ⟨S500000x128, .f32⟩
  | 47 => ⟨S_, .i32⟩
  | 48 => ⟨S500000, .i32⟩
  | 49 => ⟨S500000, .i1⟩
  | 50 => ⟨S_, .i32⟩
  | 51 => ⟨S500000, .i32⟩
  | 52 => ⟨S500000, .i32⟩
  | 53 => ⟨S500000, .i32⟩
  | 54 => ⟨S500000x1, .i32⟩
  | 55 => ⟨S500000x128, .f32⟩
  | 56 => ⟨S500000x256, .f32⟩
  | 57 => ⟨S500000x128, .f32⟩
  | 58 => ⟨S_, .f32⟩
  | 59 => ⟨S500000, .f32⟩
  | 60 => ⟨S500000x1, .f32⟩
  | 61 => ⟨S_, .f32⟩
  | 62 => ⟨S500000x1, .f32⟩
  | 63 => ⟨S500000x1, .f32⟩
  | 64 => ⟨S500000x128, .f32⟩
  | 65 => ⟨S500000x128, .f32⟩
  | 66 => ⟨S500000x128, .f32⟩
  | 67 => ⟨S_, .f32⟩
  | 68 => ⟨S500000, .f32⟩
  | 69 => ⟨S500000x1, .f32⟩
  | 70 => ⟨S_, .f32⟩
  | 71 => ⟨S500000x1, .f32⟩
  | 72 => ⟨S500000x1, .f32⟩
  | 73 => ⟨S500000x128, .f32⟩
  | 74 => ⟨S500000x128, .f32⟩
  | 75 => ⟨S_, .f32⟩
  | 76 => ⟨S500000x1, .f32⟩
  | 77 => ⟨S500000x1, .f32⟩
  | 78 => ⟨S500000x1, .f32⟩
  | 79 => ⟨S500000x128, .f32⟩
  | 80 => ⟨S500000x128, .f32⟩
  | 81 => ⟨S1x128, .f32⟩
  | 82 => ⟨S500000x128, .f32⟩
  | 83 => ⟨S500000x128, .f32⟩
  | 84 => ⟨S1x128, .f32⟩
  | 85 => ⟨S500000x128, .f32⟩
  | 86 => ⟨S500000x128, .f32⟩
  | 87 => ⟨S_, .f32⟩
  | 88 => ⟨S500000x128, .f32⟩
  | 89 => ⟨S500000x128, .f32⟩
  | 90 => ⟨S500000x128, .f32⟩
  | 91 => ⟨S100000x128, .f32⟩
  | 92 => ⟨S_, .i32⟩
  | 93 => ⟨S500000, .i32⟩
  | 94 => ⟨S500000, .i1⟩
  | 95 => ⟨S_, .i32⟩
  | 96 => ⟨S500000, .i32⟩
  | 97 => ⟨S500000, .i32⟩
  | 98 => ⟨S500000, .i32⟩
  | 99 => ⟨S500000x1, .i32⟩
  | 100 => ⟨S100000x128, .f32⟩
  | 101 => ⟨S_, .f32⟩
  | 102 => ⟨S100000, .f32⟩
  | 103 => ⟨S100000x1, .f32⟩
  | 104 => ⟨S_, .f32⟩
  | 105 => ⟨S100000x1, .f32⟩
  | 106 => ⟨S100000x1, .f32⟩
  | 107 => ⟨S100000x128, .f32⟩
  | 108 => ⟨S100000x128, .f32⟩
  | 109 => ⟨S100000x128, .f32⟩
  | 110 => ⟨S_, .f32⟩
  | 111 => ⟨S100000, .f32⟩
  | 112 => ⟨S100000x1, .f32⟩
  | 113 => ⟨S_, .f32⟩
  | 114 => ⟨S100000x1, .f32⟩
  | 115 => ⟨S100000x1, .f32⟩
  | 116 => ⟨S100000x128, .f32⟩
  | 117 => ⟨S100000x128, .f32⟩
  | 118 => ⟨S_, .f32⟩
  | 119 => ⟨S100000x1, .f32⟩
  | 120 => ⟨S100000x1, .f32⟩
  | 121 => ⟨S100000x1, .f32⟩
  | 122 => ⟨S100000x128, .f32⟩
  | 123 => ⟨S100000x128, .f32⟩
  | 124 => ⟨S1x128, .f32⟩
  | 125 => ⟨S100000x128, .f32⟩
  | 126 => ⟨S100000x128, .f32⟩
  | 127 => ⟨S1x128, .f32⟩
  | _ => ⟨S100000x128, .f32⟩

abbrev hbmTy0_1 (i : Nat) : BufTy := match i % 128 with
  | 0 => ⟨S100000x128, .f32⟩
  | 1 => ⟨S100000x128, .f32⟩
  | 2 => ⟨S_, .f32⟩
  | 3 => ⟨S100000x128, .f32⟩
  | 4 => ⟨S100000x128, .f32⟩
  | 5 => ⟨S100000x128, .f32⟩
  | 6 => ⟨S_, .f32⟩
  | 7 => ⟨S100000, .f32⟩
  | 8 => ⟨S100000x1, .f32⟩
  | 9 => ⟨S_, .f32⟩
  | 10 => ⟨S100000x1, .f32⟩
  | 11 => ⟨S100000x1, .f32⟩
  | 12 => ⟨S100000x128, .f32⟩
  | 13 => ⟨S100000x128, .f32⟩
  | 14 => ⟨S100000x128, .f32⟩
  | 15 => ⟨S_, .f32⟩
  | 16 => ⟨S100000, .f32⟩
  | 17 => ⟨S100000x1, .f32⟩
  | 18 => ⟨S_, .f32⟩
  | 19 => ⟨S100000x1, .f32⟩
  | 20 => ⟨S100000x1, .f32⟩
  | 21 => ⟨S100000x128, .f32⟩
  | 22 => ⟨S100000x128, .f32⟩
  | 23 => ⟨S_, .f32⟩
  | 24 => ⟨S100000x1, .f32⟩
  | 25 => ⟨S100000x1, .f32⟩
  | 26 => ⟨S100000x1, .f32⟩
  | 27 => ⟨S100000x128, .f32⟩
  | 28 => ⟨S100000x128, .f32⟩
  | 29 => ⟨S1x128, .f32⟩
  | 30 => ⟨S100000x128, .f32⟩
  | 31 => ⟨S100000x128, .f32⟩
  | 32 => ⟨S1x128, .f32⟩
  | 33 => ⟨S100000x128, .f32⟩
  | 34 => ⟨S100000x128, .f32⟩
  | 35 => ⟨S_, .f32⟩
  | 36 => ⟨S100000x128, .f32⟩
  | 37 => ⟨S100000x128, .f32⟩
  | 38 => ⟨S100000x128, .f32⟩
  | 39 => ⟨S_, .f32⟩
  | 40 => ⟨S100000, .f32⟩
  | 41 => ⟨S100000x1, .f32⟩
  | 42 => ⟨S_, .f32⟩
  | 43 => ⟨S100000x1, .f32⟩
  | 44 => ⟨S100000x1, .f32⟩
  | 45 => ⟨S100000x128, .f32⟩
  | 46 => ⟨S100000x128, .f32⟩
  | 47 => ⟨S100000x128, .f32⟩
  | 48 => ⟨S_, .f32⟩
  | 49 => ⟨S100000, .f32⟩
  | 50 => ⟨S100000x1, .f32⟩
  | 51 => ⟨S_, .f32⟩
  | 52 => ⟨S100000x1, .f32⟩
  | 53 => ⟨S100000x1, .f32⟩
  | 54 => ⟨S100000x128, .f32⟩
  | 55 => ⟨S100000x128, .f32⟩
  | 56 => ⟨S_, .f32⟩
  | 57 => ⟨S100000x1, .f32⟩
  | 58 => ⟨S100000x1, .f32⟩
  | 59 => ⟨S100000x1, .f32⟩
  | 60 => ⟨S100000x128, .f32⟩
  | 61 => ⟨S100000x128, .f32⟩
  | 62 => ⟨S1x128, .f32⟩
  | 63 => ⟨S100000x128, .f32⟩
  | 64 => ⟨S100000x128, .f32⟩
  | 65 => ⟨S1x128, .f32⟩
  | 66 => ⟨S100000x128, .f32⟩
  | 67 => ⟨S100000x128, .f32⟩
  | 68 => ⟨S100000x128, .f32⟩
  | 69 => ⟨S_, .f32⟩
  | 70 => ⟨S100000x128, .f32⟩
  | 71 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_c_1 : Ref sig .tc := ⟨.hbm, 30, rfl⟩
abbrev main_v7 : Ref sig .tc := ⟨.hbm, 31, rfl⟩
abbrev main_v8 : Ref sig .tc := ⟨.hbm, 32, rfl⟩
abbrev main_c_2 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_call0_cst : Ref sig .tc := ⟨.hbm, 44, rfl⟩
abbrev main_call0_v0 : Ref sig .tc := ⟨.hbm, 45, rfl⟩
abbrev main_v19 : Ref sig .tc := ⟨.hbm, 46, rfl⟩
abbrev main_c_3 : Ref sig .tc := ⟨.hbm, 47, rfl⟩
abbrev main_v20 : Ref sig .tc := ⟨.hbm, 48, rfl⟩
abbrev main_v21 : Ref sig .tc := ⟨.hbm, 49, rfl⟩
abbrev main_c_4 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_cst : Ref sig .tc := ⟨.hbm, 58, rfl⟩
abbrev main_v29 : Ref sig .tc := ⟨.hbm, 59, rfl⟩
abbrev main_v30 : Ref sig .tc := ⟨.hbm, 60, rfl⟩
abbrev main_cst_5 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_cst_6 : Ref sig .tc := ⟨.hbm, 67, rfl⟩
abbrev main_v36 : Ref sig .tc := ⟨.hbm, 68, rfl⟩
abbrev main_v37 : Ref sig .tc := ⟨.hbm, 69, rfl⟩
abbrev main_cst_7 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_cst_8 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_call1_cst : Ref sig .tc := ⟨.hbm, 87, rfl⟩
abbrev main_call1_v0 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_c_9 : Ref sig .tc := ⟨.hbm, 92, rfl⟩
abbrev main_v56 : Ref sig .tc := ⟨.hbm, 93, rfl⟩
abbrev main_v57 : Ref sig .tc := ⟨.hbm, 94, rfl⟩
abbrev main_c_10 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_cst_11 : Ref sig .tc := ⟨.hbm, 101, rfl⟩
abbrev main_v63 : Ref sig .tc := ⟨.hbm, 102, rfl⟩
abbrev main_v64 : Ref sig .tc := ⟨.hbm, 103, rfl⟩
abbrev main_cst_12 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_cst_13 : Ref sig .tc := ⟨.hbm, 110, rfl⟩
abbrev main_v70 : Ref sig .tc := ⟨.hbm, 111, rfl⟩
abbrev main_v71 : Ref sig .tc := ⟨.hbm, 112, rfl⟩
abbrev main_cst_14 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_cst_15 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_call2_cst : Ref sig .tc := ⟨.hbm, 130, rfl⟩
abbrev main_call2_v0 : Ref sig .tc := ⟨.hbm, 131, rfl⟩
abbrev main_v87 : Ref sig .tc := ⟨.hbm, 132, rfl⟩
abbrev main_v88 : Ref sig .tc := ⟨.hbm, 133, rfl⟩
abbrev main_cst_16 : Ref sig .tc := ⟨.hbm, 134, rfl⟩
abbrev main_v89 : Ref sig .tc := ⟨.hbm, 135, rfl⟩
abbrev main_v90 : Ref sig .tc := ⟨.hbm, 136, rfl⟩
abbrev main_cst_17 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_cst_18 : Ref sig .tc := ⟨.hbm, 143, rfl⟩
abbrev main_v96 : Ref sig .tc := ⟨.hbm, 144, rfl⟩
abbrev main_v97 : Ref sig .tc := ⟨.hbm, 145, rfl⟩
abbrev main_cst_19 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_cst_20 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_call3_cst : Ref sig .tc := ⟨.hbm, 163, rfl⟩
abbrev main_call3_v0 : Ref sig .tc := ⟨.hbm, 164, rfl⟩
abbrev main_v113 : Ref sig .tc := ⟨.hbm, 165, rfl⟩
abbrev main_v114 : Ref sig .tc := ⟨.hbm, 166, rfl⟩
abbrev main_cst_21 : Ref sig .tc := ⟨.hbm, 167, rfl⟩
abbrev main_v115 : Ref sig .tc := ⟨.hbm, 168, rfl⟩
abbrev main_v116 : Ref sig .tc := ⟨.hbm, 169, rfl⟩
abbrev main_cst_22 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_cst_23 : Ref sig .tc := ⟨.hbm, 176, rfl⟩
abbrev main_v122 : Ref sig .tc := ⟨.hbm, 177, rfl⟩
abbrev main_v123 : Ref sig .tc := ⟨.hbm, 178, rfl⟩
abbrev main_cst_24 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_cst_25 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_call4_cst : Ref sig .tc := ⟨.hbm, 197, rfl⟩
abbrev main_call4_v0 : Ref sig .tc := ⟨.hbm, 198, rfl⟩
abbrev main_v140 : Ref sig .tc := ⟨.hbm, 199, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  concatenates_S500000x128_S500000x128_S500000x256_d1 : Shape.Concatenates [S500000x128, S500000x128] S500000x256 1
  reducesTo_S500000x128_S500000_d1 : S500000x128.ReducesTo [1] S500000
  h_S_ : 0 < S_.numel
  bcast_S_S500000x1 : S_.BroadcastsInDim S500000x1 (![] : Fin 0 → Fin S500000x1.rank)
  bcast_S500000x1_S500000x128_0_1 : S500000x1.BroadcastsInDim S500000x128 (![0, 1] : Fin 2 → Fin S500000x128.rank)
  reducesTo_S100000x128_S100000_d1 : S100000x128.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  gather_S100000x4_S500000x1_S500000x4_1_0_n_n_0_1_14_wf : GatherDims.WF S100000x4 S500000x1 S500000x4 [1] [0] [] [0] [] 1 ![1, 4]
  dot_S500000x4_S4x128_S500000x128_1_0_0_1_n_n_wf : DotDims.WF S500000x4 S4x128 S500000x128 [1] [0] [0] [1] [] []
  gather_S100000x128_S500000x1_S500000x128_1_0_n_n_0_1_1128_wf : GatherDims.WF S100000x128 S500000x1 S500000x128 [1] [0] [] [0] [] 1 ![1, 128]
  dot_S500000x256_S256x128_S500000x128_1_0_0_1_n_n_wf : DotDims.WF S500000x256 S256x128 S500000x128 [1] [0] [0] [1] [] []
  dot_S500000x128_S128x128_S500000x128_1_0_0_1_n_n_wf : DotDims.WF S500000x128 S128x128 S500000x128 [1] [0] [0] [1] [] []
  dot_S100000x128_S128x128_S100000x128_1_0_0_1_n_n_wf : DotDims.WF S100000x128 S128x128 S100000x128 [1] [0] [0] [1] [] []
  scatter_S100000x128_S500000x1_S500000x128_1_0_0_1_wf : ScatterDims.WF S100000x128 S500000x1 S500000x128 [1] [0] [0] 1

variable [Facts₀]

def gather_S100000x4_S500000x1_S500000x4_1_0_n_n_0_1_14 : GatherDims S100000x4 S500000x1 S500000x4 where
  offsetDims := [1]
  collapsedSliceDims := [0]
  operandBatchingDims := []
  startIndicesBatchingDims := []
  startIndexMap := [0]
  indexVectorDim := 1
  sliceSizes := ![1, 4]
  wf := gather_S100000x4_S500000x1_S500000x4_1_0_n_n_0_1_14_wf
def dot_S500000x4_S4x128_S500000x128_1_0_0_1_n_n : DotDims S500000x4 S4x128 S500000x128 where
  lhsContracting := [1]
  rhsContracting := [0]
  lhsNonContracting := [0]
  rhsNonContracting := [1]
  lhsBatch := []
  rhsBatch := []
  wf := dot_S500000x4_S4x128_S500000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S500000x256_S256x128_S500000x128_1_0_0_1_n_n : DotDims S500000x256 S256x128 S500000x128 where
  lhsContracting := [1]
  rhsContracting := [0]
  lhsNonContracting := [0]
  rhsNonContracting := [1]
  lhsBatch := []
  rhsBatch := []
  wf := dot_S500000x256_S256x128_S500000x128_1_0_0_1_n_n_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf

class Facts : Prop extends Facts₀ where

variable [Facts]
-- ==== Proof.KernelRun.lean ====
/-
  The run of the three regions, with the result array named.

  Every weakly fair execution of the program from a memory `m` terminates without a fault; at the end each
  argument array holds what it held at the start, and the result array holds the last boundary's contents
  `W5` at the result buffer: the fold of the two host stretches and the three regions' write-backs from `m`.
  Which function of the arguments that is, is the subject of the modules that follow.
-/
import proofs.«119794_j32323923870244_1_alg».proof.Proof.Gen.KernelIdeal.Frame

set_option maxRecDepth 16384

noncomputable section

namespace Cert.KernelIdeal.RunNamed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program runs; the result buffer ends at the last boundary's contents, the arguments as launched. -/
theorem run : θ_run defs (onTc (τ := τ) (main (F := F))) ⟨m, fun _ => 0, ρ⟩ (fun r => ∀ c : Dev nD,
      r.2.mem ((c.tc : Thread nD τ).loc main_v42) = W5 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v42 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c),
       (h c _ (mem_uc main_arg14 (by decide))).trans (W5_main_arg14 m ρ c),
       (h c _ (mem_uc main_arg15 (by decide))).trans (W5_main_arg15 m ρ c),
       (h c _ (mem_uc main_arg16 (by decide))).trans (W5_main_arg16 m ρ c),
       (h c _ (mem_uc main_arg17 (by decide))).trans (W5_main_arg17 m ρ c),
       (h c _ (mem_uc main_arg18 (by decide))).trans (W5_main_arg18 m ρ c),
       (h c _ (mem_uc main_arg19 (by decide))).trans (W5_main_arg19 m ρ c),
       (h c _ (mem_uc main_arg20 (by decide))).trans (W5_main_arg20 m ρ c)⟩)

end Cert.KernelIdeal.RunNamed

end
-- ==== Proof.Walk.lean ====
/-
  Buffers that reach a later boundary untouched.

  Between the launch and the entry of the last region the program has two stretches of host operations and two
  regions. An argument array that no host operation writes and that no earlier region stages keeps its launch
  contents up to a boundary; an argument that a region only READS through an input window is left as found by
  that region. The two intermediate results (the edge stage's array and the projection's array) are, at the
  third boundary, what their regions' write-backs left.
-/
import proofs.«119794_j32323923870244_1_alg».proof.Proof.Gen.KernelIdeal.Frame

set_option maxRecDepth 16384

noncomputable section

namespace Cert.KernelIdeal.Walk

open Cert.KernelIdeal Cert.KernelIdeal.Gen
open Idealize.ShloMosaic Idealize.ShloMosaic.TcCoe Idealize.ShloMosaic.Tactic
open Idealize.SL.Sem
open Idealize.ShloMosaic.Pipeline (Dat Cfg Window)

variable {F : FTy → Type} [FloatOps F]
variable (m : (ℓ : Loc nD τ sig) → Buf (Elt F) ℓ) (ρ : Dev nD → PrngReg)

/-! ## At the second boundary (the projection region's entry) -/

theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W2_main_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-! ## At the third boundary (before the second host stretch) -/

/-- The node features are read by the projection region through an input window, which leaves them as found. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := (W3_arr m ρ c 0).trans (((dat1 (V2 m ρ) c).arrAt_in 0 rfl _).trans (A_eq1 (V2 m ρ) c 0))
    _ = m ((c : Thread nD τ).loc main_arg1) := W2_main_arg1 m ρ c

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W3_main_arg13 (c : Dev nD) : W3 m ρ c (Proc.devRef .tc main_arg13) = m ((c : Thread nD τ).loc main_arg13) :=
  calc W3 m ρ c (Proc.devRef .tc main_arg13)
    _ = W2 m ρ c (Proc.devRef .tc main_arg13) := W3_of_ne m ρ c main_arg13 (by decide)
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl

theorem W3_main_arg14 (c : Dev nD) : W3 m ρ c (Proc.devRef .tc main_arg14) = m ((c : Thread nD τ).loc main_arg14) :=
  calc W3 m ρ c (Proc.devRef .tc main_arg14)
    _ = W2 m ρ c (Proc.devRef .tc main_arg14) := W3_of_ne m ρ c main_arg14 (by decide)
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := rfl

theorem W3_main_arg15 (c : Dev nD) : W3 m ρ c (Proc.devRef .tc main_arg15) = m ((c : Thread nD τ).loc main_arg15) :=
  calc W3 m ρ c (Proc.devRef .tc main_arg15)
    _ = W2 m ρ c (Proc.devRef .tc main_arg15) := W3_of_ne m ρ c main_arg15 (by decide)
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg15) := rfl

theorem W3_main_arg16 (c : Dev nD) : W3 m ρ c (Proc.devRef .tc main_arg16) = m ((c : Thread nD τ).loc main_arg16) :=
  calc W3 m ρ c (Proc.devRef .tc main_arg16)
    _ = W2 m ρ c (Proc.devRef .tc main_arg16) := W3_of_ne m ρ c main_arg16 (by decide)
    _ = W1 m ρ c (Proc.devRef .tc main_arg16) := W2_of_ne m ρ c main_arg16 (by decide)
    _ = W0 m ρ c (Proc.devRef .tc main_arg16) := StableHlo.after_of_forall_not_mem (b := Proc.devRef .tc main_arg16) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg16) := rfl

theorem W3_main_arg17 (c : Dev nD) : W3 m ρ c (Proc.devRef .tc main_arg17) = m ((c : Thread nD τ).loc main_arg17) :=
  calc W3 m ρ c (Proc.devRef .tc main_arg17)
    _ = W2 m ρ c (Proc.devRef .tc main_arg17) := W3_of_ne m ρ c main_arg17 (by decide)
    _ = W1 m ρ c (Proc.devRef .tc main_arg17) := W2_of_ne m ρ c main_arg17 (by decide)
    _ = W0 m ρ c (Proc.devRef .tc main_arg17) := StableHlo.after_of_forall_not_mem (b := Proc.devRef .tc main_arg17) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg17) := rfl

theorem W3_main_arg18 (c : Dev nD) : W3 m ρ c (Proc.devRef .tc main_arg18) = m ((c : Thread nD τ).loc main_arg18) :=
  calc W3 m ρ c (Proc.devRef .tc main_arg18)
    _ = W2 m ρ c (Proc.devRef .tc main_arg18) := W3_of_ne m ρ c main_arg18 (by decide)
    _ = W1 m ρ c (Proc.devRef .tc main_arg18) := W2_of_ne m ρ c main_arg18 (by decide)
    _ = W0 m ρ c (Proc.devRef .tc main_arg18) := StableHlo.after_of_forall_not_mem (b := Proc.devRef .tc main_arg18) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg18) := rfl

theorem W3_main_arg19 (c : Dev nD) : W3 m ρ c (Proc.devRef .tc main_arg19) = m ((c : Thread nD τ).loc main_arg19) :=
  calc W3 m ρ c (Proc.devRef .tc main_arg19)
    _ = W2 m ρ c (Proc.devRef .tc main_arg19) := W3_of_ne m ρ c main_arg19 (by decide)
    _ = W1 m ρ c (Proc.devRef .tc main_arg19) := W2_of_ne m ρ c main_arg19 (by decide)
    _ = W0 m ρ c (Proc.devRef .tc main_arg19) := StableHlo.after_of_forall_not_mem (b := Proc.devRef .tc main_arg19) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg19) := rfl

theorem W3_main_arg20 (c : Dev nD) : W3 m ρ c (Proc.devRef .tc main_arg20) = m ((c : Thread nD τ).loc main_arg20) :=
  calc W3 m ρ c (Proc.devRef .tc main_arg20)
    _ = W2 m ρ c (Proc.devRef .tc main_arg20) := W3_of_ne m ρ c main_arg20 (by decide)
    _ = W1 m ρ c (Proc.devRef .tc main_arg20) := W2_of_ne m ρ c main_arg20 (by decide)
    _ = W0 m ρ c (Proc.devRef .tc main_arg20) := StableHlo.after_of_forall_not_mem (b := Proc.devRef .tc main_arg20) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg20) := rfl

/-- The edge stage's result array, untouched by the projection region. -/
theorem W3_main_v27 (c : Dev nD) : W3 m ρ c (Proc.devRef .tc main_v27) = (dat0 (V1 m ρ) c).arrAt 9 cfg0.N :=
  (W3_of_ne m ρ c main_v27 (by decide)).trans (W2_arr m ρ c 9)

/-- The projection's result array. -/
theorem W3_main_v28 (c : Dev nD) : W3 m ρ c (Proc.devRef .tc main_v28) = (dat1 (V2 m ρ) c).arrAt 2 cfg1.N :=
  W3_arr m ρ c 2

/-- The result buffer at the last boundary is what the last region's write-backs left. -/
theorem W5_main_v42 (c : Dev nD) : W5 m ρ c (Proc.devRef .tc main_v42) = (dat2 (V4 m ρ) c).arrAt 10 cfg2.N :=
  W5_arr m ρ c 10

end Cert.KernelIdeal.Walk

end
-- ==== Proof.RowSpec.lean ====
/-
  The mathematics of one row.

  Every stage of this network acts on rows independently: an edge's 128 output features depend only on that
  edge's gathered features and pose difference (and on the weights), a node's output only on that node's
  accumulated features and its own input row. So the whole computation is described by three functions of a
  row, over the extended reals:

  * `mm v W`     : the row vector `v` times the matrix `W`,            (v W)_j = Σ_k v_k · W_{k j};
  * `gn v g b`   : normalisation of a row to mean 0 and variance 1 over its 128 entries, then an affine map,
                    gn(v)_j = ((v_j − μ) · (σ² + ε)^(−1/2)) · g_j + b_j,   μ = (Σ_k v_k)/128,  σ² = (Σ_k (v_k − μ)²)/128;
  * `relu x`     : max(x, 0).

  The constants 128, ε and 0 are kept as the binary words both programs print (0x43000000, 0x3727C5AC, 0): the
  same word denotes the same extended real on both sides, so its value is never needed.
-/
import Idealize.ShloMosaic.PureOps.Ideal
import Idealize.ShloMosaic.PureOps.Ideal.Laws
import Idealize.ShloMosaic.Lib.ValueIdx

noncomputable section

namespace Cert.RowSpec

open Idealize.ShloMosaic

/-- The number of features, 128.0, as printed. -/
abbrev c128 : EReal := Ideal.ofBits .f32 0x43000000#32
/-- The variance offset ε = f32(1e-5), as printed. -/
abbrev ceps : EReal := Ideal.ofBits .f32 0x3727C5AC#32
/-- Zero, as printed. -/
abbrev czero : EReal := Ideal.ofBits .f32 0x00000000#32

/-- max(x, 0). -/
def relu (x : EReal) : EReal := max x czero

/-- A row vector times a matrix with 128 columns: (v W)_j = Σ_k v_k · W_{k j}. -/
def mm {K : Nat} (v : Fin K → EReal) (W : Fin K → Fin 128 → EReal) (j : Fin 128) : EReal := ∑ k : Fin K, v k * W k j

/-- The mean of a row of 128 entries. -/
def mean (v : Fin 128 → EReal) : EReal := Ideal.div (∑ k : Fin 128, v k) c128

/-- The variance of a row: the mean of the squared deviations from the row's mean. -/
def var (v : Fin 128 → EReal) : EReal := mean fun k => (v k - mean v) * (v k - mean v)

/-- Normalise a row to mean 0 and variance 1, then scale by `g` and shift by `b`, entry by entry. -/
def gn (v g b : Fin 128 → EReal) (j : Fin 128) : EReal :=
  (v j - mean v) * Ideal.rsqrt (var v + ceps) * g j + b j

/-- One edge: the pose difference goes through a linear layer with bias and a relu; that and the gathered
    context features each go through their half of the first context matrix and are added; then
    normalisation, relu, and the second context matrix. -/
def edgeRow (cf : Fin 128 → EReal) (pd : Fin 4 → EReal) (Wrp : Fin 4 → Fin 128 → EReal) (brp : Fin 128 → EReal)
    (W1a W1b : Fin 128 → Fin 128 → EReal) (g b : Fin 128 → EReal) (W2 : Fin 128 → Fin 128 → EReal) : Fin 128 → EReal :=
  mm (fun k => relu (gn (fun j => mm cf W1a j + mm (fun k' => relu (mm pd Wrp k' + brp k')) W1b j) g b k)) W2

/-- One node: normalise-relu, matrix, normalise-relu, matrix, normalise, add the node's own input row, relu. -/
def nodeRow (tf idn : Fin 128 → EReal) (g0 b0 : Fin 128 → EReal) (W1 : Fin 128 → Fin 128 → EReal) (g1 b1 : Fin 128 → EReal)
    (W2 : Fin 128 → Fin 128 → EReal) (g2 b2 : Fin 128 → EReal) : Fin 128 → EReal :=
  fun j => relu (gn (mm (fun k => relu (gn (mm (fun k' => relu (gn tf g0 b0 k')) W1) g1 b1 k)) W2) g2 b2 j + idn j)

/-- A sum over 256 = 128 + 128 terms is the sum of its two halves: only commutativity and associativity of
    addition, so it holds on the extended reals whatever infinities occur. -/
theorem sum_halves (f : Fin 256 → EReal) :
    ∑ k : Fin 256, f k = (∑ k : Fin 128, f ⟨k.val, by omega⟩) + ∑ k : Fin 128, f ⟨128 + k.val, by omega⟩ := by
  have h := Fin.sum_univ_add (M := EReal) (a := 128) (b := 128) (show Fin (128 + 128) → EReal from f)
  exact h

end Cert.RowSpec

end
-- ==== Proof.Cover0.lean ====
/-
  Region 0 (the edge stage): from blocks of 10000 rows to the whole array.

  Grid point t stages rows 10000·t … 10000·t + 9999 of every row-tiled operand and the whole of every weight, and
  writes back rows 10000·t … 10000·t + 9999 of the result. If the block the body leaves is, entry by entry, the
  stage's row function of the matching rows of its input blocks (`hpay`), then what point t writes back is the
  restriction to its rows of ONE function of the whole arrays; the 50 blocks cover all 500000 rows (row r lies in
  block r / 10000), so after the region the result array IS that function, at whatever contents `V` the region
  found its operands.
-/
import proofs.«119794_j32323923870244_1_alg».proof.Proof.Gen.KernelIdeal.Frame
import proofs.«119794_j32323923870244_1_alg».proof.Proof.RowSpec
import Idealize.ShloMosaic.Lib.Pipeline.Value

set_option maxRecDepth 16384

noncomputable section

namespace Cert.KernelIdeal.Cover0

open Cert.KernelIdeal Cert.KernelIdeal.Gen Cert.RowSpec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The printed index maps over the grid: a row-tiled window's block index is (t, 0), a weight's is (0, 0). -/
theorem idx : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- Every block of rows is some point's. -/
theorem onto : ∀ q : Fin 50, ∃ t : Fin cfg0.N, win0_9.index t = ![q.val, 0] :=
  (by decide +kernel : ∀ q : Fin 50, ∃ t : Fin grid0.N, win0_9.index t = ![q.val, 0])

set_option maxHeartbeats 4000000 in
/-- What point `t` writes back is block `t` of the stage's function of the whole arrays. -/
theorem flushed_eq
    (hpay : ∀ (x0 : Vec Ideal S10000x128 .f32) (x1 : Vec Ideal S10000x4 .f32) (x2 : Vec Ideal S4x128 .f32) (x3 : Vec Ideal S1x128 .f32) (x4 : Vec Ideal S128x128 .f32) (x5 : Vec Ideal S128x128 .f32) (x6 : Vec Ideal S1x128 .f32) (x7 : Vec Ideal S1x128 .f32) (x8 : Vec Ideal S128x128 .f32) (p : Fin 10000) (q : Fin 128),
      out0_9 (F := Ideal) x0 x1 x2 x3 x4 x5 x6 x7 x8 (ix2 p q) = edgeRow (fun k => x0 (ix2 p k)) (fun k => x1 (ix2 p k)) (fun k j => x2 (ix2 k j)) (fun j => x3 (ix2 (0 : Fin 1) j)) (fun k j => x4 (ix2 k j)) (fun k j => x5 (ix2 k j)) (fun j => x6 (ix2 (0 : Fin 1) j)) (fun j => x7 (ix2 (0 : Fin 1) j)) (fun k j => x8 (ix2 k j)) q)
    (c : Dev nD) (t : Fin cfg0.N) :
    (dat0 V c).flushed 9 t = ((cfg0.win 9).blk t).view.read (Elt Ideal)
      (fun i => edgeRow (fun k => V c main_v6 (ix2 (i 0) k)) (fun k => V c main_v21 (ix2 (i 0) k)) (fun k j => V c main_arg7 (ix2 k j)) (fun j => V c main_v24 (ix2 (0 : Fin 1) j)) (fun k j => V c main_v22 (ix2 k j)) (fun k j => V c main_v23 (ix2 k j)) (fun j => V c main_v25 (ix2 (0 : Fin 1) j)) (fun j => V c main_v26 (ix2 (0 : Fin 1) j)) (fun k j => V c main_arg12 (ix2 k j)) (i 1)) := by
  show (cfg0.win 9).cut (grid0.coords t) ((dat0 V c).after 9 t) = _
  rw [after0_9]
  obtain ⟨e0, e1, e2, e3, e4, e5, e6, e7, e8, e9, e10, e11, e12, e13, e14, e15, e16, e17, e18, e19⟩ := idx t
  funext j
  have key : ∀ (X0 : Vec Ideal S10000x128 .f32) (X1 : Vec Ideal S10000x4 .f32) (X2 : Vec Ideal S4x128 .f32) (X3 : Vec Ideal S1x128 .f32) (X4 : Vec Ideal S128x128 .f32) (X5 : Vec Ideal S128x128 .f32) (X6 : Vec Ideal S1x128 .f32) (X7 : Vec Ideal S1x128 .f32) (X8 : Vec Ideal S128x128 .f32) (y : S10000x128.Idx),
      out0_9 (F := Ideal) X0 X1 X2 X3 X4 X5 X6 X7 X8 y = edgeRow (fun k => X0 (ix2 (y 0) k)) (fun k => X1 (ix2 (y 0) k)) (fun k j => X2 (ix2 k j)) (fun j => X3 (ix2 (0 : Fin 1) j)) (fun k j => X4 (ix2 k j)) (fun k j => X5 (ix2 k j)) (fun j => X6 (ix2 (0 : Fin 1) j)) (fun j => X7 (ix2 (0 : Fin 1) j)) (fun k j => X8 (ix2 k j)) (y 1) := by
    intro X0 X1 X2 X3 X4 X5 X6 X7 X8 y
    obtain ⟨p, q, rfl⟩ : ∃ (p : Fin 10000) (q : Fin 128), y = ix2 p q := ⟨y 0, y 1, eq_ix2 y⟩
    exact hpay X0 X1 X2 X3 X4 X5 X6 X7 X8 p q
  refine (key (iblk0 V c 0 t) (iblk0 V c 1 t) (iblk0 V c 2 t) (iblk0 V c 3 t) (iblk0 V c 4 t) (iblk0 V c 5 t) (iblk0 V c 6 t) (iblk0 V c 7 t) (iblk0 V c 8 t) j).trans ?_
  show edgeRow
      (fun k => V c main_v6 (((cfg0.win 0).blk t).view.emb (ix2 (j 0) k)))
      (fun k => V c main_v21 (((cfg0.win 1).blk t).view.emb (ix2 (j 0) k)))
      (fun k j' => V c main_arg7 (((cfg0.win 2).blk t).view.emb (ix2 k j')))
      (fun j' => V c main_v24 (((cfg0.win 3).blk t).view.emb (ix2 (0 : Fin 1) j')))
      (fun k j' => V c main_v22 (((cfg0.win 4).blk t).view.emb (ix2 k j')))
      (fun k j' => V c main_v23 (((cfg0.win 5).blk t).view.emb (ix2 k j')))
      (fun j' => V c main_v25 (((cfg0.win 6).blk t).view.emb (ix2 (0 : Fin 1) j')))
      (fun j' => V c main_v26 (((cfg0.win 7).blk t).view.emb (ix2 (0 : Fin 1) j')))
      (fun k j' => V c main_arg12 (((cfg0.win 8).blk t).view.emb (ix2 k j')))
      (j 1)
    = edgeRow
      (fun k => V c main_v6 (ix2 ((((cfg0.win 9).blk t).view.emb j) 0) k))
      (fun k => V c main_v21 (ix2 ((((cfg0.win 9).blk t).view.emb j) 0) k))
      (fun k j' => V c main_arg7 (ix2 k j'))
      (fun j' => V c main_v24 (ix2 (0 : Fin 1) j'))
      (fun k j' => V c main_v22 (ix2 k j'))
      (fun k j' => V c main_v23 (ix2 k j'))
      (fun j' => V c main_v25 (ix2 (0 : Fin 1) j'))
      (fun j' => V c main_v26 (ix2 (0 : Fin 1) j'))
      (fun k j' => V c main_arg12 (ix2 k j'))
      ((((cfg0.win 9).blk t).view.emb j) 1)
  have h0 : ∀ k : Fin 128, ((cfg0.win 0).blk t).view.emb (ix2 (j 0) k) = ix2 ((((cfg0.win 9).blk t).view.emb j) 0) k := by
    intro k; funext a; apply Fin.ext
    match a with
    | ⟨0, _⟩ => show win0_0.index t (0 : Fin 2) * 10000 + 1 * (j 0).val = win0_9.index t (0 : Fin 2) * 10000 + 1 * (j 0).val; omega
    | ⟨1, _⟩ => show win0_0.index t (1 : Fin 2) * 128 + 1 * k.val = k.val; omega
  have h1 : ∀ k : Fin 4, ((cfg0.win 1).blk t).view.emb (ix2 (j 0) k) = ix2 ((((cfg0.win 9).blk t).view.emb j) 0) k := by
    intro k; funext a; apply Fin.ext
    match a with
    | ⟨0, _⟩ => show win0_1.index t (0 : Fin 2) * 10000 + 1 * (j 0).val = win0_9.index t (0 : Fin 2) * 10000 + 1 * (j 0).val; omega
    | ⟨1, _⟩ => show win0_1.index t (1 : Fin 2) * 4 + 1 * k.val = k.val; omega
  have h2 : ∀ (k : Fin 4) (j' : Fin 128), ((cfg0.win 2).blk t).view.emb (ix2 k j') = ix2 k j' := by
    intro k j'; funext a; apply Fin.ext
    match a with
    | ⟨0, _⟩ => show win0_2.index t (0 : Fin 2) * 4 + 1 * k.val = k.val; omega
    | ⟨1, _⟩ => show win0_2.index t (1 : Fin 2) * 128 + 1 * j'.val = j'.val; omega
  have h3 : ∀ j' : Fin 128, ((cfg0.win 3).blk t).view.emb (ix2 (0 : Fin 1) j') = ix2 (0 : Fin 1) j' := by
    intro j'; funext a; apply Fin.ext
    match a with
    | ⟨0, _⟩ => show win0_3.index t (0 : Fin 2) * 1 + 1 * 0 = 0; omega
    | ⟨1, _⟩ => show win0_3.index t (1 : Fin 2) * 128 + 1 * j'.val = j'.val; omega
  have h4 : ∀ (k : Fin 128) (j' : Fin 128), ((cfg0.win 4).blk t).view.emb (ix2 k j') = ix2 k j' := by
    intro k j'; funext a; apply Fin.ext
    match a with
    | ⟨0, _⟩ => show win0_4.index t (0 : Fin 2) * 128 + 1 * k.val = k.val; omega
    | ⟨1, _⟩ => show win0_4.index t (1 : Fin 2) * 128 + 1 * j'.val = j'.val; omega
  have h5 : ∀ (k : Fin 128) (j' : Fin 128), ((cfg0.win 5).blk t).view.emb (ix2 k j') = ix2 k j' := by
    intro k j'; funext a; apply Fin.ext
    match a with
    | ⟨0, _⟩ => show win0_5.index t (0 : Fin 2) * 128 + 1 * k.val = k.val; omega
    | ⟨1, _⟩ => show win0_5.index t (1 : Fin 2) * 128 + 1 * j'.val = j'.val; omega
  have h6 : ∀ j' : Fin 128, ((cfg0.win 6).blk t).view.emb (ix2 (0 : Fin 1) j') = ix2 (0 : Fin 1) j' := by
    intro j'; funext a; apply Fin.ext
    match a with
    | ⟨0, _⟩ => show win0_6.index t (0 : Fin 2) * 1 + 1 * 0 = 0; omega
    | ⟨1, _⟩ => show win0_6.index t (1 : Fin 2) * 128 + 1 * j'.val = j'.val; omega
  have h7 : ∀ j' : Fin 128, ((cfg0.win 7).blk t).view.emb (ix2 (0 : Fin 1) j') = ix2 (0 : Fin 1) j' := by
    intro j'; funext a; apply Fin.ext
    match a with
    | ⟨0, _⟩ => show win0_7.index t (0 : Fin 2) * 1 + 1 * 0 = 0; omega
    | ⟨1, _⟩ => show win0_7.index t (1 : Fin 2) * 128 + 1 * j'.val = j'.val; omega
  have h8 : ∀ (k : Fin 128) (j' : Fin 128), ((cfg0.win 8).blk t).view.emb (ix2 k j') = ix2 k j' := by
    intro k j'; funext a; apply Fin.ext
    match a with
    | ⟨0, _⟩ => show win0_8.index t (0 : Fin 2) * 128 + 1 * k.val = k.val; omega
    | ⟨1, _⟩ => show win0_8.index t (1 : Fin 2) * 128 + 1 * j'.val = j'.val; omega
  have hq : (((cfg0.win 9).blk t).view.emb j) 1 = j 1 := by
    apply Fin.ext; show win0_9.index t (1 : Fin 2) * 128 + 1 * (j 1).val = (j 1).val; omega
  simp only [h0, h1, h2, h3, h4, h5, h6, h7, h8, hq]
  rfl

/-- An index of the result array is in point `t`'s block iff each coordinate is in the block's range on its axis. -/
theorem mem_blk (t : Fin cfg0.N) (i : S500000x128.Idx) :
    i ∈ ((cfg0.win 9).blk t).view.set ↔ ∀ a : Fin 2, win0_9.index t a * S10000x128.size a ≤ (i a).val ∧ (i a).val < win0_9.index t a * S10000x128.size a + S10000x128.size a := by
  show i ∈ ((View.whole main_v27).slice (win0_9.rect t)).set ↔ _
  rw [View.set_slice_whole, Rect.mem_set_unit]
  exact Iff.rfl

/-- Every index of the result array lies in some flushing point's block: row r in block r / 10000. -/
theorem cover (i : S500000x128.Idx) : ∃ t : Fin cfg0.N, (cfg0.win 9).flush t = true ∧ i ∈ ((cfg0.win 9).blk t).view.set := by
  have hi0 : (i 0).val < 500000 := (i 0).isLt
  have hi1 : (i 1).val < 128 := (i 1).isLt
  obtain ⟨t, ht⟩ := onto ⟨(i 0).val / 10000, by omega⟩
  have q0 : win0_9.index t (0 : Fin 2) = (i 0).val / 10000 := congrFun ht 0
  have q1 : win0_9.index t (1 : Fin 2) = 0 := congrFun ht 1
  refine ⟨t, flush0_9 t, ?_⟩
  rw [mem_blk]
  intro a
  match a with
  | ⟨0, _⟩ => show win0_9.index t (0 : Fin 2) * 10000 ≤ (i 0).val ∧ (i 0).val < win0_9.index t (0 : Fin 2) * 10000 + 10000; omega
  | ⟨1, _⟩ => show win0_9.index t (1 : Fin 2) * 128 ≤ (i 1).val ∧ (i 1).val < win0_9.index t (1 : Fin 2) * 128 + 128; omega

/-- After the region the result array is the stage's function of the arrays the region found. -/
theorem final
    (hpay : ∀ (x0 : Vec Ideal S10000x128 .f32) (x1 : Vec Ideal S10000x4 .f32) (x2 : Vec Ideal S4x128 .f32) (x3 : Vec Ideal S1x128 .f32) (x4 : Vec Ideal S128x128 .f32) (x5 : Vec Ideal S128x128 .f32) (x6 : Vec Ideal S1x128 .f32) (x7 : Vec Ideal S1x128 .f32) (x8 : Vec Ideal S128x128 .f32) (p : Fin 10000) (q : Fin 128),
      out0_9 (F := Ideal) x0 x1 x2 x3 x4 x5 x6 x7 x8 (ix2 p q) = edgeRow (fun k => x0 (ix2 p k)) (fun k => x1 (ix2 p k)) (fun k j => x2 (ix2 k j)) (fun j => x3 (ix2 (0 : Fin 1) j)) (fun k j => x4 (ix2 k j)) (fun k j => x5 (ix2 k j)) (fun j => x6 (ix2 (0 : Fin 1) j)) (fun j => x7 (ix2 (0 : Fin 1) j)) (fun k j => x8 (ix2 k j)) q)
    (c : Dev nD) :
    (dat0 V c).arrAt 9 cfg0.N = (fun i => edgeRow (fun k => V c main_v6 (ix2 (i 0) k)) (fun k => V c main_v21 (ix2 (i 0) k)) (fun k j => V c main_arg7 (ix2 k j)) (fun j => V c main_v24 (ix2 (0 : Fin 1) j)) (fun k j => V c main_v22 (ix2 k j)) (fun k j => V c main_v23 (ix2 k j)) (fun j => V c main_v25 (ix2 (0 : Fin 1) j)) (fun j => V c main_v26 (ix2 (0 : Fin 1) j)) (fun k j => V c main_arg12 (ix2 k j)) (i 1)) :=
  (dat0 V c).arrAt_eq_of_cover 9 _ (fun t _ => flushed_eq V hpay c t) cover

end Cert.KernelIdeal.Cover0

end
-- ==== Proof.Cover1.lean ====
/-
  Region 1 (the projection stage): from blocks of 10000 rows to the whole array.

  Grid point t stages rows 10000·t … 10000·t + 9999 of every row-tiled operand and the whole of every weight, and
  writes back rows 10000·t … 10000·t + 9999 of the result. If the block the body leaves is, entry by entry, the
  stage's row function of the matching rows of its input blocks (`hpay`), then what point t writes back is the
  restriction to its rows of ONE function of the whole arrays; the 10 blocks cover all 100000 rows (row r lies in
  block r / 10000), so after the region the result array IS that function, at whatever contents `V` the region
  found its operands.
-/
import proofs.«119794_j32323923870244_1_alg».proof.Proof.Gen.KernelIdeal.Frame
import proofs.«119794_j32323923870244_1_alg».proof.Proof.RowSpec
import Idealize.ShloMosaic.Lib.Pipeline.Value

set_option maxRecDepth 16384

noncomputable section

namespace Cert.KernelIdeal.Cover1

open Cert.KernelIdeal Cert.KernelIdeal.Gen Cert.RowSpec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The printed index maps over the grid: a row-tiled window's block index is (t, 0), a weight's is (0, 0). -/
theorem idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Every block of rows is some point's. -/
theorem onto : ∀ q : Fin 10, ∃ t : Fin cfg1.N, win1_2.index t = ![q.val, 0] :=
  (by decide +kernel : ∀ q : Fin 10, ∃ t : Fin grid1.N, win1_2.index t = ![q.val, 0])

/-- What point `t` writes back is block `t` of the stage's function of the whole arrays. -/
theorem flushed_eq
    (hpay : ∀ (x0 : Vec Ideal S10000x128 .f32) (x1 : Vec Ideal S128x128 .f32) (p : Fin 10000) (q : Fin 128),
      out1_2 (F := Ideal) x0 x1 (ix2 p q) = mm (fun k => x0 (ix2 p k)) (fun k j => x1 (ix2 k j)) q)
    (c : Dev nD) (t : Fin cfg1.N) :
    (dat1 V c).flushed 2 t = ((cfg1.win 2).blk t).view.read (Elt Ideal)
      (fun i => mm (fun k => V c main_arg1 (ix2 (i 0) k)) (fun k j => V c main_arg6 (ix2 k j)) (i 1)) := by
  show (cfg1.win 2).cut (grid1.coords t) ((dat1 V c).after 2 t) = _
  rw [after1_2]
  obtain ⟨e0, e1, e2, e3, e4, e5⟩ := idx t
  funext j
  have key : ∀ (X0 : Vec Ideal S10000x128 .f32) (X1 : Vec Ideal S128x128 .f32) (y : S10000x128.Idx),
      out1_2 (F := Ideal) X0 X1 y = mm (fun k => X0 (ix2 (y 0) k)) (fun k j => X1 (ix2 k j)) (y 1) := by
    intro X0 X1 y
    obtain ⟨p, q, rfl⟩ : ∃ (p : Fin 10000) (q : Fin 128), y = ix2 p q := ⟨y 0, y 1, eq_ix2 y⟩
    exact hpay X0 X1 p q
  refine (key (iblk1 V c 0 t) (iblk1 V c 1 t) j).trans ?_
  show mm
      (fun k => V c main_arg1 (((cfg1.win 0).blk t).view.emb (ix2 (j 0) k)))
      (fun k j' => V c main_arg6 (((cfg1.win 1).blk t).view.emb (ix2 k j')))
      (j 1)
    = mm
      (fun k => V c main_arg1 (ix2 ((((cfg1.win 2).blk t).view.emb j) 0) k))
      (fun k j' => V c main_arg6 (ix2 k j'))
      ((((cfg1.win 2).blk t).view.emb j) 1)
  have h0 : ∀ k : Fin 128, ((cfg1.win 0).blk t).view.emb (ix2 (j 0) k) = ix2 ((((cfg1.win 2).blk t).view.emb j) 0) k := by
    intro k; funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * k.val = k.val; omega
  have h1 : ∀ (k : Fin 128) (j' : Fin 128), ((cfg1.win 1).blk t).view.emb (ix2 k j') = ix2 k j' := by
    intro k j'; funext a; apply Fin.ext
    match a with
    | ⟨0, _⟩ => show win1_1.index t (0 : Fin 2) * 128 + 1 * k.val = k.val; omega
    | ⟨1, _⟩ => show win1_1.index t (1 : Fin 2) * 128 + 1 * j'.val = j'.val; omega
  have hq : (((cfg1.win 2).blk t).view.emb j) 1 = j 1 := by
    apply Fin.ext; show win1_2.index t (1 : Fin 2) * 128 + 1 * (j 1).val = (j 1).val; omega
  simp only [h0, h1, hq]
  rfl

/-- An index of the result array is in point `t`'s block iff each coordinate is in the block's range on its axis. -/
theorem mem_blk (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v28).slice (win1_2.rect t)).set ↔ _
  rw [View.set_slice_whole, Rect.mem_set_unit]
  exact Iff.rfl

/-- Every index of the result array lies in some flushing point's block: row r in block r / 10000. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- After the region the result array is the stage's function of the arrays the region found. -/
theorem final
    (hpay : ∀ (x0 : Vec Ideal S10000x128 .f32) (x1 : Vec Ideal S128x128 .f32) (p : Fin 10000) (q : Fin 128),
      out1_2 (F := Ideal) x0 x1 (ix2 p q) = mm (fun k => x0 (ix2 p k)) (fun k j => x1 (ix2 k j)) q)
    (c : Dev nD) :
    (dat1 V c).arrAt 2 cfg1.N = (fun i => mm (fun k => V c main_arg1 (ix2 (i 0) k)) (fun k j => V c main_arg6 (ix2 k j)) (i 1)) :=
  (dat1 V c).arrAt_eq_of_cover 2 _ (fun t _ => flushed_eq V hpay c t) cover

end Cert.KernelIdeal.Cover1

end
-- ==== Proof.Cover2.lean ====
/-
  Region 2 (the node-update stage): from blocks of 10000 rows to the whole array.

  Grid point t stages rows 10000·t … 10000·t + 9999 of every row-tiled operand and the whole of every weight, and
  writes back rows 10000·t … 10000·t + 9999 of the result. If the block the body leaves is, entry by entry, the
  stage's row function of the matching rows of its input blocks (`hpay`), then what point t writes back is the
  restriction to its rows of ONE function of the whole arrays; the 10 blocks cover all 100000 rows (row r lies in
  block r / 10000), so after the region the result array IS that function, at whatever contents `V` the region
  found its operands.
-/
import proofs.«119794_j32323923870244_1_alg».proof.Proof.Gen.KernelIdeal.Frame
import proofs.«119794_j32323923870244_1_alg».proof.Proof.RowSpec
import Idealize.ShloMosaic.Lib.Pipeline.Value

set_option maxRecDepth 16384

noncomputable section

namespace Cert.KernelIdeal.Cover2

open Cert.KernelIdeal Cert.KernelIdeal.Gen Cert.RowSpec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The printed index maps over the grid: a row-tiled window's block index is (t, 0), a weight's is (0, 0). -/
theorem idx : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 2) = t.val ∧ win2_10.index t (1 : Fin 2) = 0 :=
  (by decide +kernel : ∀ t : Fin grid2.N, _)

/-- Every block of rows is some point's. -/
theorem onto : ∀ q : Fin 10, ∃ t : Fin cfg2.N, win2_10.index t = ![q.val, 0] :=
  (by decide +kernel : ∀ q : Fin 10, ∃ t : Fin grid2.N, win2_10.index t = ![q.val, 0])

set_option maxHeartbeats 4000000 in
/-- What point `t` writes back is block `t` of the stage's function of the whole arrays. -/
theorem flushed_eq
    (hpay : ∀ (x0 : Vec Ideal S10000x128 .f32) (x1 : Vec Ideal S10000x128 .f32) (x2 : Vec Ideal S1x128 .f32) (x3 : Vec Ideal S1x128 .f32) (x4 : Vec Ideal S128x128 .f32) (x5 : Vec Ideal S1x128 .f32) (x6 : Vec Ideal S1x128 .f32) (x7 : Vec Ideal S128x128 .f32) (x8 : Vec Ideal S1x128 .f32) (x9 : Vec Ideal S1x128 .f32) (p : Fin 10000) (q : Fin 128),
      out2_10 (F := Ideal) x0 x1 x2 x3 x4 x5 x6 x7 x8 x9 (ix2 p q) = nodeRow (fun k => x0 (ix2 p k)) (fun k => x1 (ix2 p k)) (fun j => x2 (ix2 (0 : Fin 1) j)) (fun j => x3 (ix2 (0 : Fin 1) j)) (fun k j => x4 (ix2 k j)) (fun j => x5 (ix2 (0 : Fin 1) j)) (fun j => x6 (ix2 (0 : Fin 1) j)) (fun k j => x7 (ix2 k j)) (fun j => x8 (ix2 (0 : Fin 1) j)) (fun j => x9 (ix2 (0 : Fin 1) j)) q)
    (c : Dev nD) (t : Fin cfg2.N) :
    (dat2 V c).flushed 10 t = ((cfg2.win 10).blk t).view.read (Elt Ideal)
      (fun i => nodeRow (fun k => V c main_v35 (ix2 (i 0) k)) (fun k => V c main_arg1 (ix2 (i 0) k)) (fun j => V c main_v36 (ix2 (0 : Fin 1) j)) (fun j => V c main_v37 (ix2 (0 : Fin 1) j)) (fun k j => V c main_arg15 (ix2 k j)) (fun j => V c main_v38 (ix2 (0 : Fin 1) j)) (fun j => V c main_v39 (ix2 (0 : Fin 1) j)) (fun k j => V c main_arg18 (ix2 k j)) (fun j => V c main_v40 (ix2 (0 : Fin 1) j)) (fun j => V c main_v41 (ix2 (0 : Fin 1) j)) (i 1)) := by
  show (cfg2.win 10).cut (grid2.coords t) ((dat2 V c).after 10 t) = _
  rw [after2_10]
  obtain ⟨e0, e1, e2, e3, e4, e5, e6, e7, e8, e9, e10, e11, e12, e13, e14, e15, e16, e17, e18, e19, e20, e21⟩ := idx t
  funext j
  have key : ∀ (X0 : Vec Ideal S10000x128 .f32) (X1 : Vec Ideal S10000x128 .f32) (X2 : Vec Ideal S1x128 .f32) (X3 : Vec Ideal S1x128 .f32) (X4 : Vec Ideal S128x128 .f32) (X5 : Vec Ideal S1x128 .f32) (X6 : Vec Ideal S1x128 .f32) (X7 : Vec Ideal S128x128 .f32) (X8 : Vec Ideal S1x128 .f32) (X9 : Vec Ideal S1x128 .f32) (y : S10000x128.Idx),
      out2_10 (F := Ideal) X0 X1 X2 X3 X4 X5 X6 X7 X8 X9 y = nodeRow (fun k => X0 (ix2 (y 0) k)) (fun k => X1 (ix2 (y 0) k)) (fun j => X2 (ix2 (0 : Fin 1) j)) (fun j => X3 (ix2 (0 : Fin 1) j)) (fun k j => X4 (ix2 k j)) (fun j => X5 (ix2 (0 : Fin 1) j)) (fun j => X6 (ix2 (0 : Fin 1) j)) (fun k j => X7 (ix2 k j)) (fun j => X8 (ix2 (0 : Fin 1) j)) (fun j => X9 (ix2 (0 : Fin 1) j)) (y 1) := by
    intro X0 X1 X2 X3 X4 X5 X6 X7 X8 X9 y
    obtain ⟨p, q, rfl⟩ : ∃ (p : Fin 10000) (q : Fin 128), y = ix2 p q := ⟨y 0, y 1, eq_ix2 y⟩
    exact hpay X0 X1 X2 X3 X4 X5 X6 X7 X8 X9 p q
  refine (key (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) j).trans ?_
  show nodeRow
      (fun k => V c main_v35 (((cfg2.win 0).blk t).view.emb (ix2 (j 0) k)))
      (fun k => V c main_arg1 (((cfg2.win 1).blk t).view.emb (ix2 (j 0) k)))
      (fun j' => V c main_v36 (((cfg2.win 2).blk t).view.emb (ix2 (0 : Fin 1) j')))
      (fun j' => V c main_v37 (((cfg2.win 3).blk t).view.emb (ix2 (0 : Fin 1) j')))
      (fun k j' => V c main_arg15 (((cfg2.win 4).blk t).view.emb (ix2 k j')))
      (fun j' => V c main_v38 (((cfg2.win 5).blk t).view.emb (ix2 (0 : Fin 1) j')))
      (fun j' => V c main_v39 (((cfg2.win 6).blk t).view.emb (ix2 (0 : Fin 1) j')))
      (fun k j' => V c main_arg18 (((cfg2.win 7).blk t).view.emb (ix2 k j')))
      (fun j' => V c main_v40 (((cfg2.win 8).blk t).view.emb (ix2 (0 : Fin 1) j')))
      (fun j' => V c main_v41 (((cfg2.win 9).blk t).view.emb (ix2 (0 : Fin 1) j')))
      (j 1)
    = nodeRow
      (fun k => V c main_v35 (ix2 ((((cfg2.win 10).blk t).view.emb j) 0) k))
      (fun k => V c main_arg1 (ix2 ((((cfg2.win 10).blk t).view.emb j) 0) k))
      (fun j' => V c main_v36 (ix2 (0 : Fin 1) j'))
      (fun j' => V c main_v37 (ix2 (0 : Fin 1) j'))
      (fun k j' => V c main_arg15 (ix2 k j'))
      (fun j' => V c main_v38 (ix2 (0 : Fin 1) j'))
      (fun j' => V c main_v39 (ix2 (0 : Fin 1) j'))
      (fun k j' => V c main_arg18 (ix2 k j'))
      (fun j' => V c main_v40 (ix2 (0 : Fin 1) j'))
      (fun j' => V c main_v41 (ix2 (0 : Fin 1) j'))
      ((((cfg2.win 10).blk t).view.emb j) 1)
  have h0 : ∀ k : Fin 128, ((cfg2.win 0).blk t).view.emb (ix2 (j 0) k) = ix2 ((((cfg2.win 10).blk t).view.emb j) 0) k := by
    intro k; funext a; apply Fin.ext
    match a with
    | ⟨0, _⟩ => show win2_0.index t (0 : Fin 2) * 10000 + 1 * (j 0).val = win2_10.index t (0 : Fin 2) * 10000 + 1 * (j 0).val; omega
    | ⟨1, _⟩ => show win2_0.index t (1 : Fin 2) * 128 + 1 * k.val = k.val; omega
  have h1 : ∀ k : Fin 128, ((cfg2.win 1).blk t).view.emb (ix2 (j 0) k) = ix2 ((((cfg2.win 10).blk t).view.emb j) 0) k := by
    intro k; funext a; apply Fin.ext
    match a with
    | ⟨0, _⟩ => show win2_1.index t (0 : Fin 2) * 10000 + 1 * (j 0).val = win2_10.index t (0 : Fin 2) * 10000 + 1 * (j 0).val; omega
    | ⟨1, _⟩ => show win2_1.index t (1 : Fin 2) * 128 + 1 * k.val = k.val; omega
  have h2 : ∀ j' : Fin 128, ((cfg2.win 2).blk t).view.emb (ix2 (0 : Fin 1) j') = ix2 (0 : Fin 1) j' := by
    intro j'; funext a; apply Fin.ext
    match a with
    | ⟨0, _⟩ => show win2_2.index t (0 : Fin 2) * 1 + 1 * 0 = 0; omega
    | ⟨1, _⟩ => show win2_2.index t (1 : Fin 2) * 128 + 1 * j'.val = j'.val; omega
  have h3 : ∀ j' : Fin 128, ((cfg2.win 3).blk t).view.emb (ix2 (0 : Fin 1) j') = ix2 (0 : Fin 1) j' := by
    intro j'; funext a; apply Fin.ext
    match a with
    | ⟨0, _⟩ => show win2_3.index t (0 : Fin 2) * 1 + 1 * 0 = 0; omega
    | ⟨1, _⟩ => show win2_3.index t (1 : Fin 2) * 128 + 1 * j'.val = j'.val; omega
  have h4 : ∀ (k : Fin 128) (j' : Fin 128), ((cfg2.win 4).blk t).view.emb (ix2 k j') = ix2 k j' := by
    intro k j'; funext a; apply Fin.ext
    match a with
    | ⟨0, _⟩ => show win2_4.index t (0 : Fin 2) * 128 + 1 * k.val = k.val; omega
    | ⟨1, _⟩ => show win2_4.index t (1 : Fin 2) * 128 + 1 * j'.val = j'.val; omega
  have h5 : ∀ j' : Fin 128, ((cfg2.win 5).blk t).view.emb (ix2 (0 : Fin 1) j') = ix2 (0 : Fin 1) j' := by
    intro j'; funext a; apply Fin.ext
    match a with
    | ⟨0, _⟩ => show win2_5.index t (0 : Fin 2) * 1 + 1 * 0 = 0; omega
    | ⟨1, _⟩ => show win2_5.index t (1 : Fin 2) * 128 + 1 * j'.val = j'.val; omega
  have h6 : ∀ j' : Fin 128, ((cfg2.win 6).blk t).view.emb (ix2 (0 : Fin 1) j') = ix2 (0 : Fin 1) j' := by
    intro j'; funext a; apply Fin.ext
    match a with
    | ⟨0, _⟩ => show win2_6.index t (0 : Fin 2) * 1 + 1 * 0 = 0; omega
    | ⟨1, _⟩ => show win2_6.index t (1 : Fin 2) * 128 + 1 * j'.val = j'.val; omega
  have h7 : ∀ (k : Fin 128) (j' : Fin 128), ((cfg2.win 7).blk t).view.emb (ix2 k j') = ix2 k j' := by
    intro k j'; funext a; apply Fin.ext
    match a with
    | ⟨0, _⟩ => show win2_7.index t (0 : Fin 2) * 128 + 1 * k.val = k.val; omega
    | ⟨1, _⟩ => show win2_7.index t (1 : Fin 2) * 128 + 1 * j'.val = j'.val; omega
  have h8 : ∀ j' : Fin 128, ((cfg2.win 8).blk t).view.emb (ix2 (0 : Fin 1) j') = ix2 (0 : Fin 1) j' := by
    intro j'; funext a; apply Fin.ext
    match a with
    | ⟨0, _⟩ => show win2_8.index t (0 : Fin 2) * 1 + 1 * 0 = 0; omega
    | ⟨1, _⟩ => show win2_8.index t (1 : Fin 2) * 128 + 1 * j'.val = j'.val; omega
  have h9 : ∀ j' : Fin 128, ((cfg2.win 9).blk t).view.emb (ix2 (0 : Fin 1) j') = ix2 (0 : Fin 1) j' := by
    intro j'; funext a; apply Fin.ext
    match a with
    | ⟨0, _⟩ => show win2_9.index t (0 : Fin 2) * 1 + 1 * 0 = 0; omega
    | ⟨1, _⟩ => show win2_9.index t (1 : Fin 2) * 128 + 1 * j'.val = j'.val; omega
  have hq : (((cfg2.win 10).blk t).view.emb j) 1 = j 1 := by
    apply Fin.ext; show win2_10.index t (1 : Fin 2) * 128 + 1 * (j 1).val = (j 1).val; omega
  simp only [h0, h1, h2, h3, h4, h5, h6, h7, h8, h9, hq]
  rfl

/-- An index of the result array is in point `t`'s block iff each coordinate is in the block's range on its axis. -/
theorem mem_blk (t : Fin cfg2.N) (i : S100000x128.Idx) :
    i ∈ ((cfg2.win 10).blk t).view.set ↔ ∀ a : Fin 2, win2_10.index t a * S10000x128.size a ≤ (i a).val ∧ (i a).val < win2_10.index t a * S10000x128.size a + S10000x128.size a := by
  show i ∈ ((View.whole main_v42).slice (win2_10.rect t)).set ↔ _
  rw [View.set_slice_whole, Rect.mem_set_unit]
  exact Iff.rfl

/-- Every index of the result array lies in some flushing point's block: row r in block r / 10000. -/
theorem cover (i : S100000x128.Idx) : ∃ t : Fin cfg2.N, (cfg2.win 10).flush t = true ∧ i ∈ ((cfg2.win 10).blk t).view.set := by
  have hi0 : (i 0).val < 100000 := (i 0).isLt
  have hi1 : (i 1).val < 128 := (i 1).isLt
  obtain ⟨t, ht⟩ := onto ⟨(i 0).val / 10000, by omega⟩
  have q0 : win2_10.index t (0 : Fin 2) = (i 0).val / 10000 := congrFun ht 0
  have q1 : win2_10.index t (1 : Fin 2) = 0 := congrFun ht 1
  refine ⟨t, flush2_10 t, ?_⟩
  rw [mem_blk]
  intro a
  match a with
  | ⟨0, _⟩ => show win2_10.index t (0 : Fin 2) * 10000 ≤ (i 0).val ∧ (i 0).val < win2_10.index t (0 : Fin 2) * 10000 + 10000; omega
  | ⟨1, _⟩ => show win2_10.index t (1 : Fin 2) * 128 ≤ (i 1).val ∧ (i 1).val < win2_10.index t (1 : Fin 2) * 128 + 128; omega

/-- After the region the result array is the stage's function of the arrays the region found. -/
theorem final
    (hpay : ∀ (x0 : Vec Ideal S10000x128 .f32) (x1 : Vec Ideal S10000x128 .f32) (x2 : Vec Ideal S1x128 .f32) (x3 : Vec Ideal S1x128 .f32) (x4 : Vec Ideal S128x128 .f32) (x5 : Vec Ideal S1x128 .f32) (x6 : Vec Ideal S1x128 .f32) (x7 : Vec Ideal S128x128 .f32) (x8 : Vec Ideal S1x128 .f32) (x9 : Vec Ideal S1x128 .f32) (p : Fin 10000) (q : Fin 128),
      out2_10 (F := Ideal) x0 x1 x2 x3 x4 x5 x6 x7 x8 x9 (ix2 p q) = nodeRow (fun k => x0 (ix2 p k)) (fun k => x1 (ix2 p k)) (fun j => x2 (ix2 (0 : Fin 1) j)) (fun j => x3 (ix2 (0 : Fin 1) j)) (fun k j => x4 (ix2 k j)) (fun j => x5 (ix2 (0 : Fin 1) j)) (fun j => x6 (ix2 (0 : Fin 1) j)) (fun k j => x7 (ix2 k j)) (fun j => x8 (ix2 (0 : Fin 1) j)) (fun j => x9 (ix2 (0 : Fin 1) j)) q)
    (c : Dev nD) :
    (dat2 V c).arrAt 10 cfg2.N = (fun i => nodeRow (fun k => V c main_v35 (ix2 (i 0) k)) (fun k => V c main_arg1 (ix2 (i 0) k)) (fun j => V c main_v36 (ix2 (0 : Fin 1) j)) (fun j => V c main_v37 (ix2 (0 : Fin 1) j)) (fun k j => V c main_arg15 (ix2 k j)) (fun j => V c main_v38 (ix2 (0 : Fin 1) j)) (fun j => V c main_v39 (ix2 (0 : Fin 1) j)) (fun k j => V c main_arg18 (ix2 k j)) (fun j => V c main_v40 (ix2 (0 : Fin 1) j)) (fun j => V c main_v41 (ix2 (0 : Fin 1) j)) (i 1)) :=
  (dat2 V c).arrAt_eq_of_cover 10 _ (fun t _ => flushed_eq V hpay c t) cover

end Cert.KernelIdeal.Cover2

end
-- ==== Proof.PayEdge.lean ====
/-
  The edge stage's and the projection's blocks, entry by entry.

  A block of 10000 rows goes through each of these two tiled programs in one piece: the program loads the whole
  block and the weights, computes, and stores the whole result. Every operation in it is either entrywise, or
  acts within a row (a product with a weight matrix, a sum over the 128 entries of a row), or copies a row
  vector or a column vector across the block. So entry (p, q) of the result depends only on row p of the input
  blocks, and is the row function of RowSpec applied to that row:

  * the projection block at (p, q) is (row p of the input) · W at q;
  * the edge block at (p, q) is edgeRow of (row p of the gathered features, row p of the pose differences) at q.

  The constants 128, ε and 0 stay the printed words on both sides; only the zero a matrix product or a row sum
  starts from is used as the number 0 (0 + x = x).
-/
import proofs.«119794_j32323923870244_1_alg».proof.Proof.Gen.KernelIdeal.Frame
import proofs.«119794_j32323923870244_1_alg».proof.Proof.RowSpec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayEdge

open Cert.KernelIdeal Cert.KernelIdeal.Gen Cert.RowSpec Idealize.ShloMosaic Idealize.ShloMosaic.ValueIdx Idealize.ShloMosaic.TcCoe Idealize.SL.Sem

/-- The zero offsets of a whole-block access, however spelt. -/
theorem zero_offsets : (![0, 0] : Fin 2 → Nat) = fun _ => 0 := funext fun a => by fin_cases a <;> rfl

/-- The dimension numbers of a [10000,128] × [128,128] product contracting the left operand's columns with the
    right operand's rows. -/
abbrev D128 := dot_S10000x128_S128x128_S10000x128_1_0_0_1_n_n

/-- Where the product reads its operands: output entry (i₀, i₁) and contraction coordinate c read the left
    operand at (i₀, c) and the right operand at (c, i₁). -/
theorem D128_lhs0 (i : S10000x128.Idx) (c : D128.contr.Idx) : (D128.lhsIdx i c 0).val = (i 0).val := by
  unfold DotDims.lhsIdx
  rw [dif_neg (show ¬(0 : Fin S10000x128.rank) ∈ D128.lhsBatch by decide), dif_pos (show (0 : Fin S10000x128.rank) ∈ D128.lhsNonContracting by decide)]
  rfl
theorem D128_lhs1 (i : S10000x128.Idx) (c : D128.contr.Idx) : (D128.lhsIdx i c 1).val = (c ⟨0, by decide⟩).val :=
  D128.lhsIdx_val_of_single rfl i c
theorem D128_rhs0 (i : S10000x128.Idx) (c : D128.contr.Idx) : (D128.rhsIdx i c 0).val = (c ⟨0, by decide⟩).val :=
  D128.rhsIdx_val_of_single rfl i c
theorem D128_rhs1 (i : S10000x128.Idx) (c : D128.contr.Idx) : (D128.rhsIdx i c 1).val = (i 1).val := by
  unfold DotDims.rhsIdx
  rw [dif_neg (show ¬(1 : Fin S128x128.rank) ∈ D128.rhsBatch by decide), dif_pos (show (1 : Fin S128x128.rank) ∈ D128.rhsNonContracting by decide)]
  rfl

/-- A [10000,128] × [128,128] product accumulated into zero, at entry (p, q): the sum over k of the left operand's
    (p, k) times the right operand's (k, q). -/
theorem matmul128_at (a : FVec Ideal S10000x128 .f32) (w : FVec Ideal S128x128 .f32) (p : Fin 10000) (q : Fin 128) :
    matmul (F := Ideal) D128 none a w (constant (F := Ideal) S10000x128 .f32 0x00000000#32) (ix2 p q)
      = ∑ k : Fin 128, a (ix2 p k) * w (ix2 k q) := by
  simp only [matmul]
  rw [Ideal.matmul_constant_zero_apply, ← Equiv.sum_comp (contrEquiv1 D128 128 rfl rfl).symm]
  refine Finset.sum_congr rfl fun k _ => ?_
  have hk := contrEquiv1_symm_val D128 128 rfl rfl k
  have el : D128.lhsIdx (ix2 p q) ((contrEquiv1 D128 128 rfl rfl).symm k) = ix2 p k := funext fun a => Fin.ext (by
    match a with
    | ⟨0, _⟩ => exact D128_lhs0 _ _
    | ⟨1, _⟩ => exact (D128_lhs1 _ _).trans hk)
  have er : D128.rhsIdx (ix2 p q) ((contrEquiv1 D128 128 rfl rfl).symm k) = ix2 k q := funext fun a => Fin.ext (by
    match a with
    | ⟨0, _⟩ => exact (D128_rhs0 _ _).trans hk
    | ⟨1, _⟩ => exact D128_rhs1 _ _)
  rw [el, er]

/-- The projection block at (p, q) is row p of the input block times the matrix, at q. -/
theorem proj_at (x0 : Vec Ideal S10000x128 .f32) (x1 : Vec Ideal S128x128 .f32) (p : Fin 10000) (q : Fin 128) :
    Gen.out1_2 (F := Ideal) x0 x1 (ix2 p q) = mm (fun k => x0 (ix2 p k)) (fun k j => x1 (ix2 k j)) q := by
  unfold Gen.out1_2
  rw [View.canon_unit_zero zero_offsets]
  simp only [View.ld_unit_zero (S := S10000x128) zero_offsets, View.ld_unit_zero (S := S128x128) zero_offsets]
  unfold Gen.k1_pay1
  exact matmul128_at x0 x1 p q

/-- The dimension numbers of a [10000,4] × [4,128] product. -/
abbrev D4 := dot_S10000x4_S4x128_S10000x128_1_0_0_1_n_n

/-- The same reading of the operands for the [10000,4] × [4,128] product. -/
theorem D4_lhs0 (i : S10000x128.Idx) (c : D4.contr.Idx) : (D4.lhsIdx i c 0).val = (i 0).val := by
  unfold DotDims.lhsIdx
  rw [dif_neg (show ¬(0 : Fin S10000x4.rank) ∈ D4.lhsBatch by decide), dif_pos (show (0 : Fin S10000x4.rank) ∈ D4.lhsNonContracting by decide)]
  rfl
theorem D4_lhs1 (i : S10000x128.Idx) (c : D4.contr.Idx) : (D4.lhsIdx i c 1).val = (c ⟨0, by decide⟩).val :=
  D4.lhsIdx_val_of_single rfl i c
theorem D4_rhs0 (i : S10000x128.Idx) (c : D4.contr.Idx) : (D4.rhsIdx i c 0).val = (c ⟨0, by decide⟩).val :=
  D4.rhsIdx_val_of_single rfl i c
theorem D4_rhs1 (i : S10000x128.Idx) (c : D4.contr.Idx) : (D4.rhsIdx i c 1).val = (i 1).val := by
  unfold DotDims.rhsIdx
  rw [dif_neg (show ¬(1 : Fin S4x128.rank) ∈ D4.rhsBatch by decide), dif_pos (show (1 : Fin S4x128.rank) ∈ D4.rhsNonContracting by decide)]
  rfl

/-- A [10000,4] × [4,128] product accumulated into zero, at entry (p, q). -/
theorem matmul4_at (a : FVec Ideal S10000x4 .f32) (w : FVec Ideal S4x128 .f32) (p : Fin 10000) (q : Fin 128) :
    matmul (F := Ideal) D4 none a w (constant (F := Ideal) S10000x128 .f32 0x00000000#32) (ix2 p q)
      = ∑ k : Fin 4, a (ix2 p k) * w (ix2 k q) := by
  simp only [matmul]
  rw [Ideal.matmul_constant_zero_apply, ← Equiv.sum_comp (contrEquiv1 D4 4 rfl rfl).symm]
  refine Finset.sum_congr rfl fun k _ => ?_
  have hk := contrEquiv1_symm_val D4 4 rfl rfl k
  have el : D4.lhsIdx (ix2 p q) ((contrEquiv1 D4 4 rfl rfl).symm k) = ix2 p k := funext fun a => Fin.ext (by
    match a with
    | ⟨0, _⟩ => exact D4_lhs0 _ _
    | ⟨1, _⟩ => exact (D4_lhs1 _ _).trans hk)
  have er : D4.rhsIdx (ix2 p q) ((contrEquiv1 D4 4 rfl rfl).symm k) = ix2 k q := funext fun a => Fin.ext (by
    match a with
    | ⟨0, _⟩ => exact (D4_rhs0 _ _).trans hk
    | ⟨1, _⟩ => exact D4_rhs1 _ _)
  rw [el, er]

/-- The sum over the 128 entries of each row, at row p. -/
theorem rowsum_at (src : FVec Ideal S10000x128 .f32) (h : S10000x128.Reduces [1] S10000) (hφ : FKind.Formats .f32)
    (hacc : (0x00000000#32 : BitVec 32) = 0x00000000#32) (p : Fin 10000) :
    multiReduction (F := Ideal) .add [1] S10000 src 0x00000000#32 h hφ hacc (ix1 p) = ∑ k : Fin 128, src (ix2 p k) := by
  refine (Ideal.multiReduction_add_single src 0x00000000#32 h hφ hacc (ix1 p)).trans ?_
  refine Finset.sum_congr rfl fun k _ => congrArg src ?_
  funext a
  refine Fin.ext ?_
  match a with
  | ⟨0, _⟩ => rfl
  | ⟨1, _⟩ => rfl

/-- A vector of 10000 row values viewed as a column [10000,1], at (p, 0): the value of row p. -/
theorem column_at {α : Type} (v : S10000.Idx → α) (h : S10000.ShapeCasts S10000x1) (p : Fin 10000) (u : Fin 1) :
    shapeCast S10000x1 v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- A column [10000,1] copied across the 128 entries of each row, at (p, q): the column's value at row p. -/
theorem spread_at {α : Type} (v : S10000x1.Idx → α) (h : S10000x1.Broadcasts S10000x128) (p : Fin 10000) (q : Fin 128) :
    broadcastTo S10000x128 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- The features of the edge block before normalisation, at (p, j): the gathered row through the upper half of
    the first context matrix, plus the pose-difference row through its linear layer, bias and relu and then the
    lower half. -/
theorem pay2_at (v0 : Vec Ideal S10000x4 .f32) (v2 : Vec Ideal S4x128 .f32) (v4 : Vec Ideal S1x128 .f32)
    (v10 : Vec Ideal S10000x128 .f32) (v12 v15 : Vec Ideal S128x128 .f32) (p : Fin 10000) (j : Fin 128) :
    k0_pay2 (F := Ideal) v0 v2 v4 v10 v12 v15 (ix2 p j)
      = mm (fun k => v10 (ix2 p k)) (fun k c => v12 (ix2 k c)) j
        + mm (fun k' => relu (mm (fun k => v0 (ix2 p k)) (fun k c => v2 (ix2 k c)) k' + v4 (ix2 (0 : Fin 1) k')))
            (fun k c => v15 (ix2 k c)) j := by
  unfold k0_pay2
  simp only [shapeCast_self]
  rw [addf_apply, matmul128_at, matmul128_at]
  unfold mm relu
  refine congrArg (_ + ·) (Finset.sum_congr rfl fun k _ => ?_)
  rw [maximumf_apply, addf_apply, matmul4_at, broadcastTo_1b_ab_apply, broadcast_apply]
  rfl

/-- The mean of each row of a block, as the column the program computes, at (p, 0). -/
theorem meancol_at (h : FVec Ideal S10000x128 .f32) (R : S10000x128.Reduces [1] S10000) (hφ : FKind.Formats .f32)
    (hacc : (0x00000000#32 : BitVec 32) = 0x00000000#32) (C : S10000.ShapeCasts S10000x1) (p : Fin 10000) (u : Fin 1) :
    divf (shapeCast S10000x1 (multiReduction (F := Ideal) .add [1] S10000 h 0x00000000#32 R hφ hacc) C)
        (broadcast S10000x1 (Scalar.ofBits (F := Ideal) .f32 0x43000000#32)) (ix2 p u)
      = mean (fun k => h (ix2 p k)) := by
  rw [divf_apply, column_at, rowsum_at, broadcast_apply]
  rfl

/-- The program's mean column, at (p, 0): the mean of row p of the features before normalisation. -/
theorem pay5_at (v0 : Vec Ideal S10000x4 .f32) (v2 : Vec Ideal S4x128 .f32) (v4 : Vec Ideal S1x128 .f32)
    (v10 : Vec Ideal S10000x128 .f32) (v12 v15 : Vec Ideal S128x128 .f32) (p : Fin 10000) (u : Fin 1) :
    k0_pay5 (F := Ideal) v0 v2 v4 v10 v12 v15 (ix2 p u)
      = mean (fun k => k0_pay2 (F := Ideal) v0 v2 v4 v10 v12 v15 (ix2 p k)) := by
  unfold k0_pay5
  generalize k0_pay2 (F := Ideal) v0 v2 v4 v10 v12 v15 = h
  exact meancol_at h _ _ _ _ p u

/-- The mean column copied across each row, at (p, q): again the mean of row p. -/
theorem pay7_at (v0 : Vec Ideal S10000x4 .f32) (v2 : Vec Ideal S4x128 .f32) (v4 : Vec Ideal S1x128 .f32)
    (v10 : Vec Ideal S10000x128 .f32) (v12 v15 : Vec Ideal S128x128 .f32) (p : Fin 10000) (q : Fin 128) :
    k0_pay7 (F := Ideal) v0 v2 v4 v10 v12 v15 (ix2 p q)
      = mean (fun k => k0_pay2 (F := Ideal) v0 v2 v4 v10 v12 v15 (ix2 p k)) := by
  unfold k0_pay7
  exact (spread_at _ _ p q).trans (pay5_at v0 v2 v4 v10 v12 v15 p 0)

/-- The program's variance column, at (p, 0): the mean over row p of the squared deviations from the row's mean,
    which is the variance of row p. -/
theorem pay6_at (v0 : Vec Ideal S10000x4 .f32) (v2 : Vec Ideal S4x128 .f32) (v4 : Vec Ideal S1x128 .f32)
    (v10 : Vec Ideal S10000x128 .f32) (v12 v15 : Vec Ideal S128x128 .f32) (p : Fin 10000) (u : Fin 1) :
    k0_pay6 (F := Ideal) v0 v2 v4 v10 v12 v15 (ix2 p u)
      = var (fun k => k0_pay2 (F := Ideal) v0 v2 v4 v10 v12 v15 (ix2 p k)) := by
  unfold k0_pay6
  have hm : ∀ k : Fin 128, broadcastTo S10000x128 (k0_pay5 (F := Ideal) v0 v2 v4 v10 v12 v15) broadcasts_S10000x1_S10000x128 (ix2 p k)
      = mean (fun k => k0_pay2 (F := Ideal) v0 v2 v4 v10 v12 v15 (ix2 p k)) := fun k =>
    (spread_at _ _ p k).trans (pay5_at v0 v2 v4 v10 v12 v15 p 0)
  generalize k0_pay2 (F := Ideal) v0 v2 v4 v10 v12 v15 = h at hm ⊢
  generalize broadcastTo S10000x128 (k0_pay5 (F := Ideal) v0 v2 v4 v10 v12 v15) broadcasts_S10000x1_S10000x128 = m at hm ⊢
  refine (meancol_at _ _ _ _ _ p u).trans ?_
  unfold var
  refine congrArg mean (funext fun k => ?_)
  rw [mulf_apply, subf_apply, hm k]

/-- Normalisation, relu and the second context matrix at (p, q), for a block whose mean entries and variance
    column are, on row p, the mean and the variance of that row. -/
theorem pay1_at (v18 : FVec Ideal S10000x128 .f32) (v20 v22 : FVec Ideal S1x128 .f32) (v33 : FVec Ideal S10000x1 .f32)
    (v34 : FVec Ideal S10000x128 .f32) (v47 : Vec Ideal S128x128 .f32) (p : Fin 10000) (q : Fin 128)
    (hmean : ∀ k : Fin 128, v34 (ix2 p k) = mean (fun j => v18 (ix2 p j)))
    (hvar : v33 (ix2 p (0 : Fin 1)) = var (fun j => v18 (ix2 p j))) :
    k0_pay1 (F := Ideal) v18 v20 v22 v33 v34 v47 (ix2 p q)
      = mm (fun k => relu (gn (fun j => v18 (ix2 p j)) (fun j => v20 (ix2 (0 : Fin 1) j))
            (fun j => v22 (ix2 (0 : Fin 1) j)) k)) (fun k j => v47 (ix2 k j)) q := by
  have hr : rsqrt (addf v33 (broadcast S10000x1 (Scalar.ofBits (F := Ideal) .f32 0x3727C5AC#32))) (ix2 p (0 : Fin 1))
      = Ideal.rsqrt (var (fun j => v18 (ix2 p j)) + ceps) := by
    rw [← hvar]; rfl
  unfold k0_pay1
  rw [matmul128_at]
  unfold mm relu gn
  refine Finset.sum_congr rfl fun k _ => ?_
  rw [maximumf_apply, addf_apply, mulf_apply, mulf_apply, subf_apply, spread_at, broadcastTo_1b_ab_apply,
    broadcastTo_1b_ab_apply, broadcast_apply, hmean k, hr]
  rfl

/-- The edge block at (p, q) is the edge row function of row p of the gathered features and of the pose
    differences, at q. -/
theorem edge_at (x0 : Vec Ideal S10000x128 .f32) (x1 : Vec Ideal S10000x4 .f32) (x2 : Vec Ideal S4x128 .f32) (x3 : Vec Ideal S1x128 .f32)
    (x4 x5 : Vec Ideal S128x128 .f32) (x6 x7 : Vec Ideal S1x128 .f32) (x8 : Vec Ideal S128x128 .f32) (p : Fin 10000) (q : Fin 128) :
    Gen.out0_9 (F := Ideal) x0 x1 x2 x3 x4 x5 x6 x7 x8 (ix2 p q)
      = edgeRow (fun k => x0 (ix2 p k)) (fun k => x1 (ix2 p k)) (fun k j => x2 (ix2 k j)) (fun j => x3 (ix2 (0 : Fin 1) j))
          (fun k j => x4 (ix2 k j)) (fun k j => x5 (ix2 k j)) (fun j => x6 (ix2 (0 : Fin 1) j)) (fun j => x7 (ix2 (0 : Fin 1) j)) (fun k j => x8 (ix2 k j)) q := by
  unfold Gen.out0_9
  rw [View.canon_unit_zero zero_offsets]
  simp only [View.ld_unit_zero (S := S10000x128) zero_offsets, View.ld_unit_zero (S := S128x128) zero_offsets,
    View.ld_unit_zero (S := S10000x4) zero_offsets, View.ld_unit_zero (S := S4x128) zero_offsets,
    View.ld_unit_zero (S := S1x128) zero_offsets]
  unfold k0_pay3 k0_pay4
  simp only [shapeCast_self]
  rw [pay1_at _ _ _ _ _ _ p q (fun k => pay7_at x1 x2 x3 x0 x4 x5 p k) (pay6_at x1 x2 x3 x0 x4 x5 p 0)]
  unfold edgeRow
  simp only [pay2_at]

end Cert.KernelIdeal.PayEdge

end
-- ==== Proof.PayNode.lean ====
/-
  The node-update region, read one entry at a time.

  The region's block result is one whole-block store of a value built from the ten input blocks by elementwise
  arithmetic, three lane sums per normalisation, and two matrix products. This module reads that value at a local
  index (p, q) of the [10000,128] block and finds the row function `nodeRow` of row p of the two row-wise inputs:

  * a lane sum over axis 1, at row p, is the sum over the 128 entries of row p;
  * a [10000] column viewed as [10000,1] and then repeated along 128 lanes reads, at (p, q), its entry p; a [1,128]
    row repeated along 10000 rows reads, at (p, q), its entry q;
  * a matrix product into a zero accumulator reads, at (p, q), Σ_k a(p,k) · w(k,q): the zero is absorbed;
  * hence "subtract the row mean, multiply by (row variance + ε)^(−1/2), scale, shift" at (p, q) is the
    normalisation `gn` of row p at entry q. The row mean is subtracted twice in the program (inside the variance and
    outside): both are the same term.
-/
import proofs.«119794_j32323923870244_1_alg».proof.Proof.Gen.KernelIdeal.Frame
import proofs.«119794_j32323923870244_1_alg».proof.Proof.RowSpec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayNode

open Cert.KernelIdeal Cert.KernelIdeal.Gen Cert.RowSpec Idealize.ShloMosaic Idealize.ShloMosaic.ValueIdx
open Idealize.ShloMosaic.TcCoe

/-! ## Layout operations and sums at an index -/

/-- A [10000] column viewed as [10000,1] reads, at (p, u), its entry p. -/
theorem colCast_apply (x : FVec Ideal S10000 .f32) (h : S10000.ShapeCasts S10000x1) (p : Fin 10000) (u : Fin 1) :
    shapeCast S10000x1 x h (ix2 p u) = x (ix1 p) :=
  shapeCast_apply x h _ _ (by
    have hu : u.val = 0 := by omega
    rw [Shape.rowMajor_val_two, Shape.rowMajor_val_one]
    show p.val = p.val * 1 + u.val
    omega)

/-- A [10000,1] column repeated along 128 lanes reads, at (p, q), its entry (p, 0). -/
theorem colBcast_apply (x : FVec Ideal S10000x1 .f32) (h : S10000x1.Broadcasts S10000x128) (p : Fin 10000) (q : Fin 128) :
    broadcastTo S10000x128 x h (ix2 p q) = x (ix2 p (0 : Fin 1)) := by
  refine broadcastTo_apply x h (ix2 p q) (ix2 p (0 : Fin 1)) fun ax => ?_
  match ax with
  | ⟨0, _⟩ =>
    show p.val = if (10000 : Nat) = 1 then 0 else p.val
    rw [if_neg (by omega)]
  | ⟨1, _⟩ => rfl

/-- A [1,128] row repeated along 10000 rows reads, at (p, q), its entry (0, q). -/
theorem rowBcast_apply (x : FVec Ideal S1x128 .f32) (h : S1x128.Broadcasts S10000x128) (p : Fin 10000) (q : Fin 128) :
    broadcastTo S10000x128 x h (ix2 p q) = x (ix2 (0 : Fin 1) q) :=
  broadcastTo_1b_ab_apply x h p q

/-- The lane sum of a [10000,128] block, at row p, is the sum of the 128 entries of row p. -/
theorem laneSum_apply (v : FVec Ideal S10000x128 .f32) (h : S10000x128.Reduces [1] S10000) (hφ : FKind.Formats .f32)
    (hacc : (0x00000000#32 : BitVec FTy.f32.bits) = 0x00000000#32) (p : Fin 10000) :
    multiReduction (F := Ideal) .add [1] S10000 v 0x00000000#32 h hφ hacc (ix1 p) = ∑ k : Fin 128, v (ix2 p k) := by
  refine (Ideal.multiReduction_add_single v 0x00000000#32 h hφ hacc (ix1 p)).trans ?_
  refine Finset.sum_congr rfl fun k _ => congrArg v ?_
  funext a
  match a with
  | ⟨0, _⟩ => rfl
  | ⟨1, _⟩ => rfl

/-- The row sums of a block, as a column: entry p is the sum of the 128 entries of row p. -/
def rowSum (v : FVec Ideal S10000x128 .f32) : FVec Ideal S10000 .f32 :=
  fun i => ∑ k : Fin 128, v (ix2 (⟨(i 0).val, (i 0).isLt⟩ : Fin 10000) k)

/-- It reads, at p, the sum over row p. -/
theorem rowSum_apply (v : FVec Ideal S10000x128 .f32) (p : Fin 10000) : rowSum v (ix1 p) = ∑ k : Fin 128, v (ix2 p k) := rfl

/-- The lane sum is the column of row sums. -/
theorem laneSum_eq (v : FVec Ideal S10000x128 .f32) (h : S10000x128.Reduces [1] S10000) (hφ : FKind.Formats .f32)
    (hacc : (0x00000000#32 : BitVec FTy.f32.bits) = 0x00000000#32) :
    multiReduction (F := Ideal) .add [1] S10000 v 0x00000000#32 h hφ hacc = rowSum v := by
  funext i
  rw [eq_ix1 i]
  exact laneSum_apply v h hφ hacc (i 0)

/-- A reciprocal square root of a vector reads, at an index, that of the entry. -/
theorem rsqrt_apply {s : Shape} (a : FVec Ideal s .f32) (i : s.Idx) : rsqrt a i = Ideal.rsqrt (a i) := rfl

/-! ## The matrix product at an index -/

/-- The left operand is read on the output's row … -/
theorem lhs_row (i : S10000x128.Idx) (c : dot_S10000x128_S128x128_S10000x128_1_0_0_1_n_n.contr.Idx) :
    (dot_S10000x128_S128x128_S10000x128_1_0_0_1_n_n.lhsIdx i c 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl

/-- … and the right operand on the output's column. -/
theorem rhs_col (i : S10000x128.Idx) (c : dot_S10000x128_S128x128_S10000x128_1_0_0_1_n_n.contr.Idx) :
    (dot_S10000x128_S128x128_S10000x128_1_0_0_1_n_n.rhsIdx i c 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- A [10000,128] × [128,128] product accumulated into zero reads, at (p, q), Σ_k a(p,k) · w(k,q): the contraction
    index is its one coordinate k, the left operand is read at (p, k), the right at (k, q), and the zero accumulator
    is absorbed. -/
theorem matmul_zero_apply (a : FVec Ideal S10000x128 .f32) (w : FVec Ideal S128x128 .f32) (p : Fin 10000) (q : Fin 128) :
    matmul dot_S10000x128_S128x128_S10000x128_1_0_0_1_n_n none a w (constant (F := Ideal) S10000x128 .f32 0x00000000#32) (ix2 p q)
      = ∑ k : Fin 128, a (ix2 p k) * w (ix2 k q) := by
  simp only [matmul]
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k :=
    funext fun a => Fin.ext (by
      match a with
      | ⟨0, _⟩ => exact lhs_row _ _
      | ⟨1, _⟩ => exact (dot_S10000x128_S128x128_S10000x128_1_0_0_1_n_n.lhsIdx_val_of_single rfl _ _).trans hk)
  have er : dot_S10000x128_S128x128_S10000x128_1_0_0_1_n_n.rhsIdx (ix2 p q) ((contrEquiv1 dot_S10000x128_S128x128_S10000x128_1_0_0_1_n_n 128 rfl rfl).symm k) = ix2 k q :=
    funext fun a => Fin.ext (by
      match a with
      | ⟨0, _⟩ => exact (dot_S10000x128_S128x128_S10000x128_1_0_0_1_n_n.rhsIdx_val_of_single rfl _ _).trans hk
      | ⟨1, _⟩ => exact rhs_col _ _)
  rw [el, er]

/-! ## The payloads at an index -/

/-- First stage: normalise the accumulated row, relu, first matrix. -/
theorem pay2_at (v0 : Vec Ideal S10000x128 .f32) (v2 v4 : Vec Ideal S1x128 .f32) (v30 : Vec Ideal S128x128 .f32)
    (p : Fin 10000) (q : Fin 128) :
    k2_pay2 (F := Ideal) v0 v2 v4 v30 (ix2 p q)
      = mm (fun k => relu (gn (fun k' => v0 (ix2 p k')) (fun j => v2 (ix2 (0 : Fin 1) j)) (fun j => v4 (ix2 (0 : Fin 1) j)) k))
          (fun k j => v30 (ix2 k j)) q := by
  unfold k2_pay2
  dsimp only
  repeat rw [laneSum_eq]
  simp only [matmul_zero_apply, maximumf_apply, addf_apply, mulf_apply, subf_apply, divf_apply, broadcast_apply,
    rowBcast_apply, colBcast_apply, colCast_apply, rowSum_apply, shapeCast_self, rsqrt_apply]
  rfl

/-- The four [1,128] parameter rows pass through a cast to their own shape: unchanged. -/
theorem pay3_eq (v : Vec Ideal S1x128 .f32) : k2_pay3 (F := Ideal) v = v := by
  unfold k2_pay3; exact shapeCast_self _ _
theorem pay4_eq (v : Vec Ideal S1x128 .f32) : k2_pay4 (F := Ideal) v = v := by
  unfold k2_pay4; exact shapeCast_self _ _
theorem pay7_eq (v : Vec Ideal S1x128 .f32) : k2_pay7 (F := Ideal) v = v := by
  unfold k2_pay7; exact shapeCast_self _ _
theorem pay8_eq (v : Vec Ideal S1x128 .f32) : k2_pay8 (F := Ideal) v = v := by
  unfold k2_pay8; exact shapeCast_self _ _

/-- The row sums of the first stage's result, carried as a column into the second stage. -/
theorem pay5_at (v0 : Vec Ideal S10000x128 .f32) (v2 v4 : Vec Ideal S1x128 .f32) (v30 : Vec Ideal S128x128 .f32)
    (p : Fin 10000) (u : Fin 1) :
    k2_pay5 (F := Ideal) v0 v2 v4 v30 (ix2 p u) = ∑ k : Fin 128, k2_pay2 (F := Ideal) v0 v2 v4 v30 (ix2 p k) := by
  unfold k2_pay5
  dsimp only
  rw [laneSum_eq, colCast_apply, rowSum_apply]

/-- Second stage: normalise a row (its sum is handed in as the column `v37`), relu, second matrix. -/
theorem pay6_at (v31 : FVec Ideal S10000x128 .f32) (v33 v35 : FVec Ideal S1x128 .f32) (v37 : FVec Ideal S10000x1 .f32)
    (v60 : Vec Ideal S128x128 .f32)
    (h37 : ∀ (p : Fin 10000) (u : Fin 1), v37 (ix2 p u) = ∑ k : Fin 128, v31 (ix2 p k)) (p : Fin 10000) (q : Fin 128) :
    k2_pay6 (F := Ideal) v31 v33 v35 v37 (Scalar.ofBits (F := Ideal) .f32 0x43000000#32) v60 (ix2 p q)
      = mm (fun k => relu (gn (fun k' => v31 (ix2 p k')) (fun j => v33 (ix2 (0 : Fin 1) j)) (fun j => v35 (ix2 (0 : Fin 1) j)) k))
          (fun k j => v60 (ix2 k j)) q := by
  unfold k2_pay6
  dsimp only
  repeat rw [laneSum_eq]
  simp only [matmul_zero_apply, maximumf_apply, addf_apply, mulf_apply, subf_apply, divf_apply, broadcast_apply,
    rowBcast_apply, colBcast_apply, colCast_apply, rowSum_apply, shapeCast_self, rsqrt_apply, h37]
  rfl

/-- Third stage, the row mean of the second stage's result, as a column … -/
theorem pay9_at (v31 : FVec Ideal S10000x128 .f32) (v33 v35 : FVec Ideal S1x128 .f32) (v37 : FVec Ideal S10000x1 .f32)
    (v60 : Vec Ideal S128x128 .f32) (p : Fin 10000) (u : Fin 1) :
    k2_pay9 (F := Ideal) v31 v33 v35 v37 (Scalar.ofBits (F := Ideal) .f32 0x43000000#32) v60 (ix2 p u)
      = mean (fun k => k2_pay6 (F := Ideal) v31 v33 v35 v37 (Scalar.ofBits (F := Ideal) .f32 0x43000000#32) v60 (ix2 p k)) := by
  unfold k2_pay9
  dsimp only
  rw [laneSum_eq]
  simp only [divf_apply, broadcast_apply, colCast_apply, rowSum_apply]
  rfl

/-- … the deviation from it … -/
theorem pay10_at (v31 : FVec Ideal S10000x128 .f32) (v33 v35 : FVec Ideal S1x128 .f32) (v37 : FVec Ideal S10000x1 .f32)
    (v60 : Vec Ideal S128x128 .f32) (p : Fin 10000) (q : Fin 128) :
    k2_pay10 (F := Ideal) v31 v33 v35 v37 (Scalar.ofBits (F := Ideal) .f32 0x43000000#32) v60 (ix2 p q)
      = k2_pay6 (F := Ideal) v31 v33 v35 v37 (Scalar.ofBits (F := Ideal) .f32 0x43000000#32) v60 (ix2 p q) - mean (fun k => k2_pay6 (F := Ideal) v31 v33 v35 v37 (Scalar.ofBits (F := Ideal) .f32 0x43000000#32) v60 (ix2 p k)) := by
  unfold k2_pay10
  simp only [subf_apply, colBcast_apply, pay9_at]

/-- … and (row variance + ε)^(−1/2), as a column. -/
theorem pay11_at (v31 : FVec Ideal S10000x128 .f32) (v33 v35 : FVec Ideal S1x128 .f32) (v37 : FVec Ideal S10000x1 .f32)
    (v60 : Vec Ideal S128x128 .f32) (p : Fin 10000) (u : Fin 1) :
    k2_pay11 (F := Ideal) v31 v33 v35 v37 (Scalar.ofBits (F := Ideal) .f32 0x43000000#32) v60 (ix2 p u)
      = Ideal.rsqrt (var (fun k => k2_pay6 (F := Ideal) v31 v33 v35 v37 (Scalar.ofBits (F := Ideal) .f32 0x43000000#32) v60 (ix2 p k)) + ceps) := by
  unfold k2_pay11
  dsimp only
  rw [laneSum_eq]
  simp only [rsqrt_apply, addf_apply, divf_apply, mulf_apply, subf_apply, broadcast_apply, colCast_apply, colBcast_apply,
    rowSum_apply, pay9_at]
  rfl

/-- The last step: deviation × inverse deviation scale × scale + shift, plus the node's own row, relu. -/
theorem pay1_at (v63 v65 : FVec Ideal S1x128 .f32) (v78 : FVec Ideal S10000x128 .f32) (v81 : FVec Ideal S10000x1 .f32)
    (v88 : Vec Ideal S10000x128 .f32) (p : Fin 10000) (q : Fin 128) :
    k2_pay1 (F := Ideal) v63 v65 v78 v81 v88 (ix2 p q)
      = relu (v78 (ix2 p q) * v81 (ix2 p (0 : Fin 1)) * v63 (ix2 (0 : Fin 1) q) + v65 (ix2 (0 : Fin 1) q) + v88 (ix2 p q)) := by
  unfold k2_pay1
  simp only [matmul_zero_apply, maximumf_apply, addf_apply, mulf_apply, subf_apply, divf_apply, broadcast_apply,
    rowBcast_apply, colBcast_apply, colCast_apply, rowSum_apply, shapeCast_self, rsqrt_apply]
  rfl

/-! ## The block result at an index -/

/-- The region's block result at local index (p, q) is `nodeRow` of row p of the accumulated-features block and of
    the node's own input block, with the six parameter rows and the two matrices read whole. The one store covers
    the whole block, so the result is its payload; the payload's pieces are the stages above, composed. -/
theorem node_at (x0 x1 : Vec Ideal S10000x128 .f32) (x2 x3 : Vec Ideal S1x128 .f32) (x4 : Vec Ideal S128x128 .f32) (x5 x6 : Vec Ideal S1x128 .f32)
    (x7 : Vec Ideal S128x128 .f32) (x8 x9 : Vec Ideal S1x128 .f32) (p : Fin 10000) (q : Fin 128) :
    Gen.out2_10 (F := Ideal) x0 x1 x2 x3 x4 x5 x6 x7 x8 x9 (ix2 p q)
      = nodeRow (fun k => x0 (ix2 p k)) (fun k => x1 (ix2 p k)) (fun j => x2 (ix2 (0 : Fin 1) j)) (fun j => x3 (ix2 (0 : Fin 1) j)) (fun k j => x4 (ix2 k j))
          (fun j => x5 (ix2 (0 : Fin 1) j)) (fun j => x6 (ix2 (0 : Fin 1) j)) (fun k j => x7 (ix2 k j)) (fun j => x8 (ix2 (0 : Fin 1) j)) (fun j => x9 (ix2 (0 : Fin 1) j)) q := by
  have hz : (![0, 0] : Fin 2 → Nat) = fun _ => 0 := funext fun a => by fin_cases a <;> rfl
  have h5 : ∀ (p : Fin 10000) (u : Fin 1), k2_pay5 (F := Ideal) x0 x2 x3 x4 (ix2 p u)
      = ∑ k : Fin 128, k2_pay2 (F := Ideal) x0 x2 x3 x4 (ix2 p k) := pay5_at x0 x2 x3 x4
  unfold Gen.out2_10
  rw [View.canon_unit_zero hz]
  simp only [View.ld_unit_zero (S := S10000x128) hz, View.ld_unit_zero (S := S1x128) hz, View.ld_unit_zero (S := S128x128) hz]
  rw [pay1_at, pay10_at, pay11_at]
  simp only [pay6_at _ _ _ _ _ h5, pay2_at, pay3_eq, pay4_eq, pay7_eq, pay8_eq]
  rfl

end Cert.KernelIdeal.PayNode

end
-- ==== Proof.HostStretch.lean ====
/-
  What the tiled regions find in their input arrays.

  Between the launch and the first tiled region, and again before the third, the program prepares arrays with
  whole-array operations: rows of the node arrays are picked by the edges' source and destination numbers (a
  negative number counts from the end, so 100000 is added to it), the two picked pose arrays are subtracted,
  the [256,128] first context matrix is cut into its upper and lower [128,128] halves, each [128] scale or
  shift vector is viewed as one row [1,128]; before the third region the edge results are added into the rows
  of the projected node array that the destination numbers name, and six more [128] vectors are viewed as rows.

  Each statement below says what one such array holds when its region is entered, in terms of the contents the
  stretch of whole-array operations started from: the picking and the adding-into are kept as the operations
  they are (both programs apply the same ones); a half of the matrix, or a vector viewed as a row, is read entry
  by entry; an array that no operation of the stretch writes holds what it held.
-/
import proofs.«119794_j32323923870244_1_alg».proof.Proof.Gen.KernelIdeal.Frame
import Idealize.ShloMosaic.Lib.ValueIdx
import Idealize.ShloMosaic.Lib.Pipeline.Value
import Idealize.ShloMosaic.Lib.ValueLayout
import Idealize.ShloMosaic.Lib.StableHlo.Run

noncomputable section

namespace Cert.KernelIdeal.HostStretch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ) (ρ : Dev nD → PrngReg) (c : Dev nD)

/-- A column of signed row numbers with the negative ones counted from the end (100000 added), as a [500000,1] array. -/
abbrev normIdx (a : (⟨S500000, .i32⟩ : BufTy).Contents (Elt Ideal)) : (⟨S500000x1, .i32⟩ : BufTy).Contents (Elt Ideal) :=
  broadcastInDim S500000x1 ![0] bcast_S500000_S500000x1_0
    (select (cmpi .slt a (broadcastInDim S500000 ![] bcast_S_S500000 (constantI S_ 32 0#32)))
      (addi a (broadcastInDim S500000 ![] bcast_S_S500000 (constantI S_ 32 100000#32))) a)

/-- The first region's gathered context features: the rows of the node features picked by the sources. -/
theorem v6_eq :
    (V1 m ρ c main_v6 : S500000x128.Idx → EReal)
      = Host.gather gather_S100000x128_S500000x1_S500000x128_1_0_n_n_0_1_1128 (m ((c : Thread nD τ).loc main_arg0))
          (normIdx (m ((c : Thread nD τ).loc main_arg4))) := by
  dsimp only [Gen.V1, Gen.W1]
  after_results_simp <;> rfl

/-- The first region's pose differences: the positions picked by the sources minus those picked by the destinations. -/
theorem v21_eq :
    @Eq (FVec Ideal S500000x4 .f32) (V1 m ρ c main_v21)
      (subf (Host.gather gather_S100000x4_S500000x1_S500000x4_1_0_n_n_0_1_14 (m ((c : Thread nD τ).loc main_arg2))
            (normIdx (m ((c : Thread nD τ).loc main_arg4))))
          (Host.gather gather_S100000x4_S500000x1_S500000x4_1_0_n_n_0_1_14 (m ((c : Thread nD τ).loc main_arg3))
            (normIdx (m ((c : Thread nD τ).loc main_arg5))))) := by
  dsimp only [Gen.V1, Gen.W1]
  after_results_simp <;> rfl

/-- The upper half of the first context matrix: entry (k, j) is the matrix's (k, j). -/
theorem v22_at (k j : Fin 128) :
    (V1 m ρ c main_v22 : S128x128.Idx → EReal) (ix2 k j)
      = (m ((c : Thread nD τ).loc main_arg9) : S256x128.Idx → EReal) (ix2 (⟨k.val, by omega⟩ : Fin 256) j) := by
  have e : (V1 m ρ c main_v22 : S128x128.Idx → EReal)
      = extractStridedSlice S128x128 ![0, 0] (m ((c : Thread nD τ).loc main_arg9) : S256x128.Idx → EReal) slices_S256x128_S128x128_0_0 := by
    dsimp only [Gen.V1, Gen.W1]
    after_results_simp <;> rfl
  rw [e]
  exact slice2_axis0_apply 0 _ _ k j _ (by simp)

/-- The lower half of the first context matrix: entry (k, j) is the matrix's (128 + k, j). -/
theorem v23_at (k j : Fin 128) :
    (V1 m ρ c main_v23 : S128x128.Idx → EReal) (ix2 k j)
      = (m ((c : Thread nD τ).loc main_arg9) : S256x128.Idx → EReal) (ix2 (⟨128 + k.val, by omega⟩ : Fin 256) j) := by
  have e : (V1 m ρ c main_v23 : S128x128.Idx → EReal)
      = extractStridedSlice S128x128 ![128, 0] (m ((c : Thread nD τ).loc main_arg9) : S256x128.Idx → EReal) slices_S256x128_S128x128_128_0 := by
    dsimp only [Gen.V1, Gen.W1]
    after_results_simp <;> rfl
  rw [e]
  exact slice2_axis0_apply 128 _ _ k j _ rfl

/-- A [128] vector viewed as one row: entry (0, j) is the vector's j. -/
theorem v24_at (j : Fin 128) :
    (V1 m ρ c main_v24 : S1x128.Idx → EReal) (ix2 (0 : Fin 1) j) = (m ((c : Thread nD τ).loc main_arg8) : S128.Idx → EReal) (ix1 j) := by
  have e : (V1 m ρ c main_v24 : S1x128.Idx → EReal)
      = shapeCast S1x128 (m ((c : Thread nD τ).loc main_arg8) : S128.Idx → EReal) shapeCasts_S128_S1x128 := by
    dsimp only [Gen.V1, Gen.W1]
    after_results_simp <;> rfl
  rw [e]
  exact shapeCast_a_1a_apply _ _ 0 j

/-- The same for the normalisation's scale. -/
theorem v25_at (j : Fin 128) :
    (V1 m ρ c main_v25 : S1x128.Idx → EReal) (ix2 (0 : Fin 1) j) = (m ((c : Thread nD τ).loc main_arg10) : S128.Idx → EReal) (ix1 j) := by
  have e : (V1 m ρ c main_v25 : S1x128.Idx → EReal)
      = shapeCast S1x128 (m ((c : Thread nD τ).loc main_arg10) : S128.Idx → EReal) shapeCasts_S128_S1x128 := by
    dsimp only [Gen.V1, Gen.W1]
    after_results_simp <;> rfl
  rw [e]
  exact shapeCast_a_1a_apply _ _ 0 j

/-- The same for the normalisation's shift. -/
theorem v26_at (j : Fin 128) :
    (V1 m ρ c main_v26 : S1x128.Idx → EReal) (ix2 (0 : Fin 1) j) = (m ((c : Thread nD τ).loc main_arg11) : S128.Idx → EReal) (ix1 j) := by
  have e : (V1 m ρ c main_v26 : S1x128.Idx → EReal)
      = shapeCast S1x128 (m ((c : Thread nD τ).loc main_arg11) : S128.Idx → EReal) shapeCasts_S128_S1x128 := by
    dsimp only [Gen.V1, Gen.W1]
    after_results_simp <;> rfl
  rw [e]
  exact shapeCast_a_1a_apply _ _ 0 j

/-- No operation before the first region writes the pose layer's matrix … -/
theorem arg7_entry0 : V1 m ρ c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- … nor the second context matrix. -/
theorem arg12_entry0 : V1 m ρ c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The third region's accumulated features: the edge results added into the rows of the projected node array
    that the destinations name. -/
theorem v35_eq :
    @Eq (FVec Ideal S100000x128 .f32) (V4 m ρ c main_v35)
      (Host.scatterAdd scatter_S100000x128_S500000x1_S500000x128_1_0_0_1 (W3 m ρ c (Proc.devRef .tc main_v28))
          (normIdx (W3 m ρ c (Proc.devRef .tc main_arg5))) (W3 m ρ c (Proc.devRef .tc main_v27))) := by
  dsimp only [Gen.V4, Gen.W4]
  after_results_simp <;> rfl

/-- The six scale and shift vectors of the node update, each viewed as one row: entry (0, j) is the vector's j. -/
theorem v36_at (j : Fin 128) :
    (V4 m ρ c main_v36 : S1x128.Idx → EReal) (ix2 (0 : Fin 1) j) = (W3 m ρ c (Proc.devRef .tc main_arg13) : S128.Idx → EReal) (ix1 j) := by
  have e : (V4 m ρ c main_v36 : S1x128.Idx → EReal)
      = shapeCast S1x128 (W3 m ρ c (Proc.devRef .tc main_arg13) : S128.Idx → EReal) shapeCasts_S128_S1x128 := by
    dsimp only [Gen.V4, Gen.W4]
    after_results_simp <;> rfl
  rw [e]
  exact shapeCast_a_1a_apply _ _ 0 j

theorem v37_at (j : Fin 128) :
    (V4 m ρ c main_v37 : S1x128.Idx → EReal) (ix2 (0 : Fin 1) j) = (W3 m ρ c (Proc.devRef .tc main_arg14) : S128.Idx → EReal) (ix1 j) := by
  have e : (V4 m ρ c main_v37 : S1x128.Idx → EReal)
      = shapeCast S1x128 (W3 m ρ c (Proc.devRef .tc main_arg14) : S128.Idx → EReal) shapeCasts_S128_S1x128 := by
    dsimp only [Gen.V4, Gen.W4]
    after_results_simp <;> rfl
  rw [e]
  exact shapeCast_a_1a_apply _ _ 0 j

theorem v38_at (j : Fin 128) :
    (V4 m ρ c main_v38 : S1x128.Idx → EReal) (ix2 (0 : Fin 1) j) = (W3 m ρ c (Proc.devRef .tc main_arg16) : S128.Idx → EReal) (ix1 j) := by
  have e : (V4 m ρ c main_v38 : S1x128.Idx → EReal)
      = shapeCast S1x128 (W3 m ρ c (Proc.devRef .tc main_arg16) : S128.Idx → EReal) shapeCasts_S128_S1x128 := by
    dsimp only [Gen.V4, Gen.W4]
    after_results_simp <;> rfl
  rw [e]
  exact shapeCast_a_1a_apply _ _ 0 j

theorem v39_at (j : Fin 128) :
    (V4 m ρ c main_v39 : S1x128.Idx → EReal) (ix2 (0 : Fin 1) j) = (W3 m ρ c (Proc.devRef .tc main_arg17) : S128.Idx → EReal) (ix1 j) := by
  have e : (V4 m ρ c main_v39 : S1x128.Idx → EReal)
      = shapeCast S1x128 (W3 m ρ c (Proc.devRef .tc main_arg17) : S128.Idx → EReal) shapeCasts_S128_S1x128 := by
    dsimp only [Gen.V4, Gen.W4]
    after_results_simp <;> rfl
  rw [e]
  exact shapeCast_a_1a_apply _ _ 0 j

theorem v40_at (j : Fin 128) :
    (V4 m ρ c main_v40 : S1x128.Idx → EReal) (ix2 (0 : Fin 1) j) = (W3 m ρ c (Proc.devRef .tc main_arg19) : S128.Idx → EReal) (ix1 j) := by
  have e : (V4 m ρ c main_v40 : S1x128.Idx → EReal)
      = shapeCast S1x128 (W3 m ρ c (Proc.devRef .tc main_arg19) : S128.Idx → EReal) shapeCasts_S128_S1x128 := by
    dsimp only [Gen.V4, Gen.W4]
    after_results_simp <;> rfl
  rw [e]
  exact shapeCast_a_1a_apply _ _ 0 j

theorem v41_at (j : Fin 128) :
    (V4 m ρ c main_v41 : S1x128.Idx → EReal) (ix2 (0 : Fin 1) j) = (W3 m ρ c (Proc.devRef .tc main_arg20) : S128.Idx → EReal) (ix1 j) := by
  have e : (V4 m ρ c main_v41 : S1x128.Idx → EReal)
      = shapeCast S1x128 (W3 m ρ c (Proc.devRef .tc main_arg20) : S128.Idx → EReal) shapeCasts_S128_S1x128 := by
    dsimp only [Gen.V4, Gen.W4]
    after_results_simp <;> rfl
  rw [e]
  exact shapeCast_a_1a_apply _ _ 0 j

/-- No operation before the third region writes the nodes' own input rows, nor the node update's two matrices. -/
theorem arg1_entry2 : V4 m ρ c main_arg1 = W3 m ρ c (Proc.devRef .tc main_arg1) :=
  StableHlo.after_of_forall_not_mem (b := Proc.devRef .tc main_arg1) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem arg15_entry2 : V4 m ρ c main_arg15 = W3 m ρ c (Proc.devRef .tc main_arg15) :=
  StableHlo.after_of_forall_not_mem (b := Proc.devRef .tc main_arg15) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem arg18_entry2 : V4 m ρ c main_arg18 = W3 m ρ c (Proc.devRef .tc main_arg18) :=
  StableHlo.after_of_forall_not_mem (b := Proc.devRef .tc main_arg18) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Cert.KernelIdeal.HostStretch

end
-- ==== Proof.Whole.lean ====
/-
  From rows to arrays.

  The three stages of the network as functions of whole arrays, index by index: entry (r, j) of a stage's
  result is entry j of the stage's row function (RowSpec) applied to row r of the stage's row-wise inputs, the
  weights being read whole. A tiled program and an untiled one both compute these: a block of rows is a
  restriction of the same function.

  * `edgeWhole` : 500000 edges; inputs the gathered context features [500000,128] and the pose differences
                    [500000,4]; the first context matrix [256,128] is read as its upper and lower halves.
  * `projWhole` : the projection of the 100000 node rows by a [128,128] matrix.
  * `nodeWhole` : the node update of the 100000 accumulated rows, each with its own input row added back.
-/
import proofs.«119794_j32323923870244_1_alg».proof.Proof.RowSpec

noncomputable section

namespace Cert.Whole

open Idealize.ShloMosaic Idealize.ShloMosaic.ValueIdx Cert.RowSpec

/-- A [n,128] array's row `r`. -/
abbrev row {n K : Nat} (a : (⟨2, ![n, K]⟩ : Shape).Idx → EReal) (r : Fin n) : Fin K → EReal := fun k => a (ix2 r k)
/-- A [K,128] matrix as a function of its two coordinates. -/
abbrev mat {K : Nat} (a : (⟨2, ![K, 128]⟩ : Shape).Idx → EReal) : Fin K → Fin 128 → EReal := fun k j => a (ix2 k j)
/-- A [128] vector as a function of its coordinate. -/
abbrev vec (a : (⟨1, ![128]⟩ : Shape).Idx → EReal) : Fin 128 → EReal := fun j => a (ix1 j)
/-- The upper half (rows 0 … 127) of a [256,128] matrix. -/
abbrev upper (a : (⟨2, ![256, 128]⟩ : Shape).Idx → EReal) : Fin 128 → Fin 128 → EReal := fun k j => a (ix2 (⟨k.val, by omega⟩ : Fin 256) j)
/-- The lower half (rows 128 … 255) of a [256,128] matrix. -/
abbrev lower (a : (⟨2, ![256, 128]⟩ : Shape).Idx → EReal) : Fin 128 → Fin 128 → EReal := fun k j => a (ix2 (⟨128 + k.val, by omega⟩ : Fin 256) j)

/-- The edge stage on all 500000 edges. -/
def edgeWhole (cfg : (⟨2, ![500000, 128]⟩ : Shape).Idx → EReal) (pd : (⟨2, ![500000, 4]⟩ : Shape).Idx → EReal)
    (wrp : (⟨2, ![4, 128]⟩ : Shape).Idx → EReal) (brp : (⟨1, ![128]⟩ : Shape).Idx → EReal)
    (w1 : (⟨2, ![256, 128]⟩ : Shape).Idx → EReal) (g b : (⟨1, ![128]⟩ : Shape).Idx → EReal)
    (w2 : (⟨2, ![128, 128]⟩ : Shape).Idx → EReal) : (⟨2, ![500000, 128]⟩ : Shape).Idx → EReal :=
  fun i => edgeRow (row cfg (i 0)) (row pd (i 0)) (mat wrp) (vec brp) (upper w1) (lower w1) (vec g) (vec b) (mat w2) (i 1)

/-- The projection of all 100000 node rows. -/
def projWhole (x : (⟨2, ![100000, 128]⟩ : Shape).Idx → EReal) (w : (⟨2, ![128, 128]⟩ : Shape).Idx → EReal) :
    (⟨2, ![100000, 128]⟩ : Shape).Idx → EReal :=
  fun i => mm (row x (i 0)) (mat w) (i 1)

/-- The node update on all 100000 nodes. -/
def nodeWhole (tf idn : (⟨2, ![100000, 128]⟩ : Shape).Idx → EReal) (g0 b0 : (⟨1, ![128]⟩ : Shape).Idx → EReal)
    (w1 : (⟨2, ![128, 128]⟩ : Shape).Idx → EReal) (g1 b1 : (⟨1, ![128]⟩ : Shape).Idx → EReal)
    (w2 : (⟨2, ![128, 128]⟩ : Shape).Idx → EReal) (g2 b2 : (⟨1, ![128]⟩ : Shape).Idx → EReal) :
    (⟨2, ![100000, 128]⟩ : Shape).Idx → EReal :=
  fun i => nodeRow (row tf (i 0)) (row idn (i 0)) (vec g0) (vec b0) (mat w1) (vec g1) (vec b1) (mat w2) (vec g2) (vec b2) (i 1)

end Cert.Whole

end
-- ==== Proof.KernelValue.lean ====
/-
  The kernel program as one function of its arguments.

  Its result buffer ends at what the node-update region's write-backs left. Unwinding the boundaries:
  that region found, as its accumulated-features operand, the scatter-add (second host stretch) of the edge
  region's result array onto the projection region's result array at the normalised target indices; the edge
  region found the gathered context rows, the difference of the gathered pose rows, the two halves of the first
  context matrix and the bias and affine vectors as single rows (first host stretch); every weight and every
  index vector is the launch memory's. Each region's array is its stage's function of what it found (the
  covers), so the result is the composition below — the same composition of the same host operations the
  reference applies.
-/
import proofs.«119794_j32323923870244_1_alg».proof.Proof.KernelRun
import proofs.«119794_j32323923870244_1_alg».proof.Proof.Walk
import proofs.«119794_j32323923870244_1_alg».proof.Proof.Cover0
import proofs.«119794_j32323923870244_1_alg».proof.Proof.Cover1
import proofs.«119794_j32323923870244_1_alg».proof.Proof.Cover2
import proofs.«119794_j32323923870244_1_alg».proof.Proof.PayEdge
import proofs.«119794_j32323923870244_1_alg».proof.Proof.PayNode
import proofs.«119794_j32323923870244_1_alg».proof.Proof.HostStretch
import proofs.«119794_j32323923870244_1_alg».proof.Proof.Whole

set_option maxRecDepth 16384

noncomputable section

namespace Cert.KernelIdeal.KVal

open Cert.KernelIdeal Cert.KernelIdeal.Gen Cert.KernelIdeal.HostStretch Cert.RowSpec Cert.Whole
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- The edge region's array: the edge stage of the gathered rows. -/
theorem edge_arr (c : Dev nD) :
    (dat0 (V1 m ρ) c).arrAt 9 cfg0.N
      = edgeWhole (Host.gather gather_S100000x128_S500000x1_S500000x128_1_0_n_n_0_1_1128 (m ((c : Thread nD τ).loc main_arg0)) (normIdx (m ((c : Thread nD τ).loc main_arg4))))
          (subf (F := Ideal) (s := S500000x4) (φ := .f32) (Host.gather gather_S100000x4_S500000x1_S500000x4_1_0_n_n_0_1_14 (m ((c : Thread nD τ).loc main_arg2)) (normIdx (m ((c : Thread nD τ).loc main_arg4))))
            (Host.gather gather_S100000x4_S500000x1_S500000x4_1_0_n_n_0_1_14 (m ((c : Thread nD τ).loc main_arg3)) (normIdx (m ((c : Thread nD τ).loc main_arg5)))))
          (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [Cover0.final (V1 m ρ) PayEdge.edge_at c]
  funext i
  simp only [v6_eq m ρ c, v21_eq m ρ c, v22_at m ρ c, v23_at m ρ c, v24_at m ρ c, v25_at m ρ c, v26_at m ρ c,
    arg7_entry0 m ρ c, arg12_entry0 m ρ c]
  rfl

/-- The projection region's array: the projection of the node rows. -/
theorem proj_arr (c : Dev nD) :
    (dat1 (V2 m ρ) c).arrAt 2 cfg1.N = projWhole (m ((c : Thread nD τ).loc main_arg1)) (m ((c : Thread nD τ).loc main_arg6)) := by
  rw [Cover1.final (V2 m ρ) PayEdge.proj_at c]
  funext i
  simp only [show V2 m ρ c main_arg1 = (m ((c : Thread nD τ).loc main_arg1)) from Walk.W2_main_arg1 m ρ c,
    show V2 m ρ c main_arg6 = (m ((c : Thread nD τ).loc main_arg6)) from Walk.W2_main_arg6 m ρ c]
  rfl

/-- The result buffer at the last boundary: the node update of the scatter-added rows. -/
theorem value (c : Dev nD) :
    W5 m ρ c (Proc.devRef .tc main_v42) = nodeWhole
      (Host.scatterAdd (F := Ideal) (φ := .f32) scatter_S100000x128_S500000x1_S500000x128_1_0_0_1 (projWhole (m ((c : Thread nD τ).loc main_arg1)) (m ((c : Thread nD τ).loc main_arg6))) (normIdx (m ((c : Thread nD τ).loc main_arg5)))
        (edgeWhole (Host.gather gather_S100000x128_S500000x1_S500000x128_1_0_n_n_0_1_1128 (m ((c : Thread nD τ).loc main_arg0)) (normIdx (m ((c : Thread nD τ).loc main_arg4))))
          (subf (F := Ideal) (s := S500000x4) (φ := .f32) (Host.gather gather_S100000x4_S500000x1_S500000x4_1_0_n_n_0_1_14 (m ((c : Thread nD τ).loc main_arg2)) (normIdx (m ((c : Thread nD τ).loc main_arg4))))
            (Host.gather gather_S100000x4_S500000x1_S500000x4_1_0_n_n_0_1_14 (m ((c : Thread nD τ).loc main_arg3)) (normIdx (m ((c : Thread nD τ).loc main_arg5)))))
          (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))))
      (m ((c : Thread nD τ).loc main_arg1)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  rw [Walk.W5_main_v42 m ρ c, Cover2.final (V4 m ρ) PayNode.node_at c]
  funext i
  simp only [v35_eq m ρ c, v36_at m ρ c, v37_at m ρ c, v38_at m ρ c, v39_at m ρ c, v40_at m ρ c, v41_at m ρ c,
    arg1_entry2 m ρ c, arg15_entry2 m ρ c, arg18_entry2 m ρ c,
    Walk.W3_main_v28 m ρ c, Walk.W3_main_v27 m ρ c, proj_arr m ρ c, edge_arr m ρ c,
    Walk.W3_main_arg1 m ρ c, Walk.W3_main_arg5 m ρ c, Walk.W3_main_arg13 m ρ c, Walk.W3_main_arg14 m ρ c, Walk.W3_main_arg15 m ρ c,
    Walk.W3_main_arg16 m ρ c, Walk.W3_main_arg17 m ρ c, Walk.W3_main_arg18 m ρ c, Walk.W3_main_arg19 m ρ c, Walk.W3_main_arg20 m ρ c]
  rfl

/-- The kernel program runs; its result array ends at that function of the arguments, the arguments as launched. -/
theorem run : θ_run defs (onTc (τ := τ) (main (F := Ideal))) ⟨m, fun _ => 0, ρ⟩ (fun r => ∀ c : Dev nD,
      r.2.mem ((c.tc : Thread nD τ).loc main_v42) = nodeWhole
      (Host.scatterAdd (F := Ideal) (φ := .f32) scatter_S100000x128_S500000x1_S500000x128_1_0_0_1 (projWhole (m ((c : Thread nD τ).loc main_arg1)) (m ((c : Thread nD τ).loc main_arg6))) (normIdx (m ((c : Thread nD τ).loc main_arg5)))
        (edgeWhole (Host.gather gather_S100000x128_S500000x1_S500000x128_1_0_n_n_0_1_1128 (m ((c : Thread nD τ).loc main_arg0)) (normIdx (m ((c : Thread nD τ).loc main_arg4))))
          (subf (F := Ideal) (s := S500000x4) (φ := .f32) (Host.gather gather_S100000x4_S500000x1_S500000x4_1_0_n_n_0_1_14 (m ((c : Thread nD τ).loc main_arg2)) (normIdx (m ((c : Thread nD τ).loc main_arg4))))
            (Host.gather gather_S100000x4_S500000x1_S500000x4_1_0_n_n_0_1_14 (m ((c : Thread nD τ).loc main_arg3)) (normIdx (m ((c : Thread nD τ).loc main_arg5)))))
          (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))))
      (m ((c : Thread nD τ).loc main_arg1)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => ⟨(h c).1.trans (value m ρ c), (h c).2⟩) (RunNamed.run m ρ)

end Cert.KernelIdeal.KVal

end
-- ==== Proof.RefEdge.lean ====
/-
  The reference's edge stage, read entry by entry.

  The reference computes the edge stage with whole-array operations: a matrix product of the pose differences,
  a bias, a clip at zero; the result joined to the gathered features along the columns and multiplied by the
  first context matrix; a normalisation of every row to mean 0 and variance 1 with a scale and a shift; a clip at
  zero; the second context matrix. Every one of these acts on each row by itself, so entry (r, q) of the result is
  entry q of the row function `edgeRow` of row r of the two row-wise inputs. The gathered features and the pose
  differences are taken as given arrays and never opened.

  The one rearrangement: the reference multiplies the joined 256 columns by the whole 256 × 128 matrix, the row
  function multiplies the two halves separately and adds; a sum over 256 terms is the sum of its halves.
-/
import proofs.«119794_j32323923870244_1_alg».proof.Proof.RefReadP
import proofs.«119794_j32323923870244_1_alg».proof.Proof.Whole
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RefEdge

open Cert.ReferenceIdeal Cert.ReferenceIdeal.ReadP Cert.RowSpec Cert.Whole Idealize.ShloMosaic Idealize.ShloMosaic.ValueIdx

/-! ## Where each stage reads its operands

Every layout operation of the edge stage (a broadcast of a vector along the rows, of a per-row scalar along the
columns, the operand indices of a matrix product, the terms of a row sum) reads its operand at an index that is
again a pair (row, column) or a single coordinate. At the index (r, q) these are the following. -/

theorem lidx15 (r : Fin 500000) (q : Fin 128) (k : Fin 4) : lidx_main_v15 (ix2 r q) k = ix2 r k :=
  funext fun a => Fin.ext (by match a with | ⟨0, _⟩ => rfl | ⟨1, _⟩ => rfl)
theorem ridx15 (r : Fin 500000) (q : Fin 128) (k : Fin 4) : ridx_main_v15 (ix2 r q) k = ix2 k q :=
  funext fun a => Fin.ext (by match a with | ⟨0, _⟩ => rfl | ⟨1, _⟩ => rfl)
theorem idx17 (r : Fin 500000) (q : Fin 128) : idx_main_v16 (idx_main_v17 (ix2 r q)) = ix1 q :=
  funext fun a => Fin.ext (by match a with | ⟨0, _⟩ => rfl)
theorem lidx28 (r : Fin 500000) (q : Fin 128) (k : Fin 256) : lidx_main_v28 (ix2 r q) k = ix2 r k :=
  funext fun a => Fin.ext (by match a with | ⟨0, _⟩ => rfl | ⟨1, _⟩ => rfl)
theorem ridx28 (r : Fin 500000) (q : Fin 128) (k : Fin 256) : ridx_main_v28 (ix2 r q) k = ix2 k q :=
  funext fun a => Fin.ext (by match a with | ⟨0, _⟩ => rfl | ⟨1, _⟩ => rfl)
theorem idx29 (r : Fin 500000) (k : Fin 128) : idx_main_v29 (ix1 r) k = ix2 r k :=
  funext fun a => Fin.ext (by match a with | ⟨0, _⟩ => rfl | ⟨1, _⟩ => rfl)
theorem idx30 (r : Fin 500000) (z : Fin 1) : idx_main_v30 (ix2 r z) = ix1 r :=
  funext fun a => Fin.ext (by match a with | ⟨0, _⟩ => rfl)
theorem idx33 (r : Fin 500000) (q : Fin 128) : idx_main_v33 (ix2 r q) = ix2 r (0 : Fin 1) :=
  funext fun a => Fin.ext (by match a with | ⟨0, _⟩ => rfl | ⟨1, _⟩ => rfl)
theorem idx36 (r : Fin 500000) (k : Fin 128) : idx_main_v36 (ix1 r) k = ix2 r k :=
  funext fun a => Fin.ext (by match a with | ⟨0, _⟩ => rfl | ⟨1, _⟩ => rfl)
theorem idx37 (r : Fin 500000) (z : Fin 1) : idx_main_v37 (ix2 r z) = ix1 r :=
  funext fun a => Fin.ext (by match a with | ⟨0, _⟩ => rfl)
theorem idx40 (r : Fin 500000) (q : Fin 128) : idx_main_v40 (ix2 r q) = ix2 r (0 : Fin 1) :=
  funext fun a => Fin.ext (by match a with | ⟨0, _⟩ => rfl | ⟨1, _⟩ => rfl)
theorem idx45 (r : Fin 500000) (q : Fin 128) : idx_main_v45 (ix2 r q) = ix2 r (0 : Fin 1) :=
  funext fun a => Fin.ext (by match a with | ⟨0, _⟩ => rfl | ⟨1, _⟩ => rfl)
theorem idx48 (r : Fin 500000) (q : Fin 128) : idx_main_v47 (idx_main_v48 (ix2 r q)) = ix1 q :=
  funext fun a => Fin.ext (by match a with | ⟨0, _⟩ => rfl)
theorem idx51 (r : Fin 500000) (q : Fin 128) : idx_main_v50 (idx_main_v51 (ix2 r q)) = ix1 q :=
  funext fun a => Fin.ext (by match a with | ⟨0, _⟩ => rfl)
theorem lidx54 (r : Fin 500000) (q : Fin 128) (k : Fin 128) : lidx_main_v54 (ix2 r q) k = ix2 r k :=
  funext fun a => Fin.ext (by match a with | ⟨0, _⟩ => rfl | ⟨1, _⟩ => rfl)
theorem ridx54 (r : Fin 500000) (q : Fin 128) (k : Fin 128) : ridx_main_v54 (ix2 r q) k = ix2 k q :=
  funext fun a => Fin.ext (by match a with | ⟨0, _⟩ => rfl | ⟨1, _⟩ => rfl)

variable (x0 : (⟨S100000x128, .f32⟩ : BufTy).Contents (Elt Ideal))
  (x2 x3 : (⟨S100000x4, .f32⟩ : BufTy).Contents (Elt Ideal))
  (x4 x5 : (⟨S500000, .i32⟩ : BufTy).Contents (Elt Ideal))
  (x7 : (⟨S4x128, .f32⟩ : BufTy).Contents (Elt Ideal)) (x8 : (⟨S128, .f32⟩ : BufTy).Contents (Elt Ideal))
  (x9 : (⟨S256x128, .f32⟩ : BufTy).Contents (Elt Ideal))
  (x10 x11 : (⟨S128, .f32⟩ : BufTy).Contents (Elt Ideal)) (x12 : (⟨S128x128, .f32⟩ : BufTy).Contents (Elt Ideal))

/-! ## The pose-difference layer -/

/-- Entry (r, k) of the pose-difference layer: row r of the pose differences times the 4 × 128 matrix, plus the
    bias, clipped below at zero. -/
theorem dist_at (r : Fin 500000) (k : Fin 128) :
    val_main_v19 (F := Ideal) x2 x3 x4 x5 x7 x8 (ix2 r k)
      = relu (mm (row (val_main_v14 (F := Ideal) x2 x3 x4 x5) r) (mat x7) k + vec x8 k) := by
  rw [val_main_v19_apply, val_main_v18_apply, val_main_v15_apply, val_main_v17_apply, val_main_v16_apply,
    val_main_call0_v0_apply, val_main_call0_cst_apply]
  simp only [lidx15, ridx15, idx17]
  rfl

/-! ## The joined array and the first context matrix

The reference joins the gathered features and the pose-difference layer side by side into 256 columns and
multiplies by the whole 256 × 128 matrix. Columns 0 … 127 of the joined array are the gathered features, columns
128 … 255 the layer; so the sum over the 256 columns is the sum over the first 128 against the upper half of the
matrix plus the sum over the last 128 against the lower half. -/

/-- A column below 128 of the joined array is that column of the gathered features. -/
theorem cat_left (r : Fin 500000) (k : Fin 128) (h : k.val < 256) :
    val_main_v27 (F := Ideal) x0 x2 x3 x4 x5 x7 x8 (ix2 r (⟨k.val, h⟩ : Fin 256))
      = val_main_v26 (F := Ideal) x0 x4 (ix2 r k) := by
  unfold val_main_v27
  generalize val_main_v26 (F := Ideal) x0 x4 = y1
  generalize val_main_v19 (F := Ideal) x2 x3 x4 x5 x7 x8 = y2
  exact concatenate_pair_apply_left 1 y1 y2 Gen.concatenates_S500000x128_S500000x128_S500000x256_d1 _ rfl (ix2 r k)
    (fun b => by match b with | ⟨0, _⟩ => rfl | ⟨1, _⟩ => rfl)

/-- Column 128 + k of the joined array is column k of the pose-difference layer. -/
theorem cat_right (r : Fin 500000) (k : Fin 128) (h : 128 + k.val < 256) :
    val_main_v27 (F := Ideal) x0 x2 x3 x4 x5 x7 x8 (ix2 r (⟨128 + k.val, h⟩ : Fin 256))
      = val_main_v19 (F := Ideal) x2 x3 x4 x5 x7 x8 (ix2 r k) := by
  unfold val_main_v27
  generalize val_main_v26 (F := Ideal) x0 x4 = y1
  generalize val_main_v19 (F := Ideal) x2 x3 x4 x5 x7 x8 = y2
  exact concatenate_pair_apply_right 1 y1 y2 Gen.concatenates_S500000x128_S500000x128_S500000x256_d1 _ rfl rfl (ix2 r k)
    (fun b hb => by match b with | ⟨0, _⟩ => rfl | ⟨1, _⟩ => exact absurd rfl hb)
    (by show k.val + 128 = 128 + k.val; omega)

/-- Entry (r, j) of the first context product: the gathered row against the upper half of the matrix plus the
    pose-difference layer's row against the lower half. -/
theorem ctx1_at (r : Fin 500000) (j : Fin 128) :
    val_main_v28 (F := Ideal) x0 x2 x3 x4 x5 x7 x8 x9 (ix2 r j)
      = mm (row (val_main_v26 (F := Ideal) x0 x4) r) (upper x9) j
        + mm (fun k => val_main_v19 (F := Ideal) x2 x3 x4 x5 x7 x8 (ix2 r k)) (lower x9) j := by
  rw [val_main_v28_apply]
  refine (sum_halves _).trans ?_
  simp only [lidx28, ridx28, cat_left, cat_right]
  rfl

/-! ## The normalisation of a row

With v the row r of the first context product: the row sum divided by 128 is the mean; the sum of the squared
deviations divided by 128 is the variance; and the stage's entry (r, q) is the normalised entry scaled and
shifted. The zero that starts each row sum is absorbed. -/

/-- The per-row mean. -/
theorem mean_at (r : Fin 500000) (z : Fin 1) :
    val_main_v32 (F := Ideal) x0 x2 x3 x4 x5 x7 x8 x9 (ix2 r z)
      = mean (fun k => val_main_v28 (F := Ideal) x0 x2 x3 x4 x5 x7 x8 x9 (ix2 r k)) := by
  rw [val_main_v32_apply, val_main_v30_apply, val_main_v31_apply, val_main_cst_5_apply, idx30, val_main_v29_apply,
    val_main_cst_apply]
  simp only [idx29, Ideal.hostDivf_def, Ideal.ofBits_def, Ideal.ofBits_zero_f32, zero_add]
  rfl

/-- The deviation from the mean that is squared for the variance. -/
theorem dev_at (r : Fin 500000) (k : Fin 128) :
    val_main_v34 (F := Ideal) x0 x2 x3 x4 x5 x7 x8 x9 (ix2 r k)
      = val_main_v28 (F := Ideal) x0 x2 x3 x4 x5 x7 x8 x9 (ix2 r k)
        - mean (fun k' => val_main_v28 (F := Ideal) x0 x2 x3 x4 x5 x7 x8 x9 (ix2 r k')) := by
  rw [val_main_v34_apply, val_main_v33_apply, idx33, mean_at]
  rfl

/-- The deviation from the mean that is normalised. -/
theorem dev'_at (r : Fin 500000) (k : Fin 128) :
    val_main_v41 (F := Ideal) x0 x2 x3 x4 x5 x7 x8 x9 (ix2 r k)
      = val_main_v28 (F := Ideal) x0 x2 x3 x4 x5 x7 x8 x9 (ix2 r k)
        - mean (fun k' => val_main_v28 (F := Ideal) x0 x2 x3 x4 x5 x7 x8 x9 (ix2 r k')) := by
  rw [val_main_v41_apply, val_main_v40_apply, idx40, mean_at]
  rfl

/-- The per-row variance. -/
theorem var_at (r : Fin 500000) (z : Fin 1) :
    val_main_v39 (F := Ideal) x0 x2 x3 x4 x5 x7 x8 x9 (ix2 r z)
      = var (fun k => val_main_v28 (F := Ideal) x0 x2 x3 x4 x5 x7 x8 x9 (ix2 r k)) := by
  rw [val_main_v39_apply, val_main_v37_apply, val_main_v38_apply, val_main_cst_7_apply, idx37, val_main_v36_apply,
    val_main_cst_6_apply]
  simp only [idx36, val_main_v35_apply, dev_at, Ideal.hostDivf_def, Ideal.mulf_def, Ideal.ofBits_def,
    Ideal.ofBits_zero_f32, zero_add]
  rfl

/-- Entry (r, q) of the normalised, scaled and shifted array. -/
theorem gn_at (r : Fin 500000) (q : Fin 128) :
    val_main_v52 (F := Ideal) x0 x2 x3 x4 x5 x7 x8 x9 x10 x11 (ix2 r q)
      = gn (fun j => val_main_v28 (F := Ideal) x0 x2 x3 x4 x5 x7 x8 x9 (ix2 r j)) (vec x10) (vec x11) q := by
  rw [val_main_v52_apply, val_main_v51_apply, val_main_v50_apply, val_main_v49_apply, val_main_v48_apply,
    val_main_v47_apply, val_main_v46_apply, val_main_v45_apply, val_main_v44_apply, val_main_v43_apply,
    val_main_v42_apply, val_main_cst_8_apply, dev'_at, idx45, var_at, idx48, idx51]
  rfl

/-! ## The edge stage -/

theorem edge_eq (x0 : (⟨S100000x128, .f32⟩ : BufTy).Contents (Elt Ideal)) (x2 x3 : (⟨S100000x4, .f32⟩ : BufTy).Contents (Elt Ideal)) (x4 x5 : (⟨S500000, .i32⟩ : BufTy).Contents (Elt Ideal))
    (x7 : (⟨S4x128, .f32⟩ : BufTy).Contents (Elt Ideal)) (x8 : (⟨S128, .f32⟩ : BufTy).Contents (Elt Ideal)) (x9 : (⟨S256x128, .f32⟩ : BufTy).Contents (Elt Ideal))
    (x10 x11 : (⟨S128, .f32⟩ : BufTy).Contents (Elt Ideal)) (x12 : (⟨S128x128, .f32⟩ : BufTy).Contents (Elt Ideal)) :
    val_main_v54 (F := Ideal) x0 x2 x3 x4 x5 x7 x8 x9 x10 x11 x12
      = edgeWhole (val_main_v26 (F := Ideal) x0 x4) (val_main_v14 (F := Ideal) x2 x3 x4 x5) x7 x8 x9 x10 x11 x12 := by
  funext i
  obtain ⟨r, q, rfl⟩ : ∃ (r : Fin 500000) (q : Fin 128), i = ix2 r q := ⟨i 0, i 1, eq_ix2 i⟩
  rw [val_main_v54_apply]
  simp only [lidx54, ridx54, val_main_v53_apply, val_main_call1_v0_apply, val_main_call1_cst_apply, gn_at, ctx1_at,
    dist_at]
  generalize val_main_v26 (F := Ideal) x0 x4 = cf
  generalize val_main_v14 (F := Ideal) x2 x3 x4 x5 = pd
  rfl

end Cert.ReferenceIdeal.RefEdge

end
-- ==== Proof.RefNode.lean ====
/-
  The reference's projection and node stage, read row by row.

  The reference computes with whole arrays. A row sum is a reduction along the 128 lanes; a row's mean is that sum, set as a
  column [100000,1], divided by a column of 128s, and it is subtracted after being repeated along the lanes; the scale and shift
  vectors are repeated along the rows. Read at an entry (r, q), each of these layout steps keeps exactly the coordinates it
  should, so the normalisation of an array is the normalisation (RowSpec.gn) of each of its rows. A product with a [128,128]
  matrix is, at (r, q), row r times column q (RowSpec.mm), and relu acts entry by entry. Composing these readings, the reference's
  last stage at (r, q) is RowSpec.nodeRow of row r of the accumulated array and row r of the nodes' own input, which is
  Whole.nodeWhole; its projection is Whole.projWhole. The accumulated array (edge results added onto the projected node
  features) is carried through as an arbitrary array: nothing below depends on how it was made.
-/
import proofs.«119794_j32323923870244_1_alg».proof.Proof.RefReadP
import proofs.«119794_j32323923870244_1_alg».proof.Proof.Whole
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RefNode

open Cert.ReferenceIdeal Cert.ReferenceIdeal.Gen Cert.ReferenceIdeal.ReadP Cert.RowSpec Cert.Whole Idealize.ShloMosaic Idealize.ShloMosaic.ValueIdx

/-! ## Entrywise operations of the host, read at an index -/

/-- The host's division of two arrays, read at an index: the extended-real quotient of the entries. -/
theorem hostDivf_apply {s : Shape} {φ : FTy} (a b : FVec Ideal s φ) (i : s.Idx) : Host.divf a b i = Ideal.div (a i) (b i) := rfl
/-- The host's reciprocal square root of an array, read at an index. -/
theorem hostRsqrt_apply {s : Shape} {φ : FTy} (a : FVec Ideal s φ) (i : s.Idx) : Host.rsqrt a i = Ideal.rsqrt (a i) := rfl

/-! ## The layout operations of the reference, read at an index

Each is a broadcast: the result at an index is the operand at the coordinates the broadcast keeps. -/

/-- A vector of 100000 entries as a column [100000,1]: entry (r, 0) is entry r. -/
theorem col_apply (y : S100000.Idx → EReal) (r : Fin 100000) :
    broadcastInDim S100000x1 ![0] bcast_S100000_S100000x1_0 y (ix2 r (0 : Fin 1)) = y (ix1 r) :=
  broadcastInDim_apply _ bcast_S100000_S100000x1_0 y (ix2 r (0 : Fin 1)) (ix1 r) (fun a => match a with
    | ⟨0, _⟩ => by show r.val = if (100000 : Nat) = 1 then 0 else r.val; rw [if_neg (by decide)])

/-- A column [100000,1] repeated along 128 lanes: entry (r, q) is the column's entry (r, 0). -/
theorem lanes_apply (y : S100000x1.Idx → EReal) (r : Fin 100000) (q : Fin 128) :
    broadcastInDim S100000x128 ![0, 1] bcast_S100000x1_S100000x128_0_1 y (ix2 r q) = y (ix2 r (0 : Fin 1)) :=
  broadcastInDim_apply _ bcast_S100000x1_S100000x128_0_1 y (ix2 r q) (ix2 r (0 : Fin 1)) (fun a => match a with
    | ⟨0, _⟩ => by show r.val = if (100000 : Nat) = 1 then 0 else r.val; rw [if_neg (by decide)]
    | ⟨1, _⟩ => by show 0 = if (1 : Nat) = 1 then 0 else q.val; rw [if_pos rfl])

/-- A scalar spread over a column [100000,1]. -/
theorem scalarCol_apply (y : S_.Idx → EReal) (i : S100000x1.Idx) :
    broadcastInDim S100000x1 ![] bcast_S_S100000x1 y i = y ix0 :=
  broadcastInDim_apply _ bcast_S_S100000x1 y i ix0 (fun a => a.elim0)

/-- A scalar spread over an array [100000,128]. -/
theorem scalarArr_apply (y : S_.Idx → EReal) (i : S100000x128.Idx) :
    broadcastInDim S100000x128 ![] bcast_S_S100000x128 y i = y ix0 :=
  broadcastInDim_apply _ bcast_S_S100000x128 y i ix0 (fun a => a.elim0)

/-- A vector of 128 entries repeated along 100000 rows (through a [1,128] row): entry (r, q) is entry q. -/
theorem rows_apply (g : S128.Idx → EReal) (r : Fin 100000) (q : Fin 128) :
    broadcastInDim S100000x128 ![0, 1] bcast_S1x128_S100000x128_0_1 (broadcastInDim S1x128 ![1] bcast_S128_S1x128_1 g) (ix2 r q) = g (ix1 q) := by
  rw [broadcastInDim_apply _ bcast_S1x128_S100000x128_0_1 _ (ix2 r q) (ix2 (0 : Fin 1) q) (fun a => match a with
    | ⟨0, _⟩ => by show 0 = if (1 : Nat) = 1 then 0 else r.val; rw [if_pos rfl]
    | ⟨1, _⟩ => by show q.val = if (128 : Nat) = 1 then 0 else q.val; rw [if_neg (by decide)])]
  exact broadcastInDim_apply _ bcast_S128_S1x128_1 g (ix2 (0 : Fin 1) q) (ix1 q) (fun a => match a with
    | ⟨0, _⟩ => by show q.val = if (128 : Nat) = 1 then 0 else q.val; rw [if_neg (by decide)])

/-- The sum along the 128 lanes of a [100000,128] array, from a zero initial value: entry r is the sum of row r. -/
theorem laneSum_apply (y : FVec Ideal S100000x128 .f32) (r : Fin 100000) :
    Host.reduceAdd (F := Ideal) y (constant (F := Ideal) S_ .f32 0x00000000#32) reducesTo_S100000x128_S100000_d1 h_S_ (ix1 r)
      = ∑ k : Fin 128, y (ix2 r k) := by
  simp only [Host.reduceAdd, Ideal.hostReduceAdd_def]
  rw [Ideal.hostReduceAdd_single reducesTo_S100000x128_S100000_d1 (by decide)]
  rw [constant_apply, Ideal.ofBits_zero_f32, zero_add]
  refine Finset.sum_congr rfl fun k _ => ?_
  exact congrArg y (funext fun a => Fin.ext (by match a with | ⟨0, _⟩ => rfl | ⟨1, _⟩ => rfl))

/-! ## The normalisation as the reference spells it, over an arbitrary array -/

/-- The column of row means: lane sum, as a column, divided by 128. -/
def meanArr (v : FVec Ideal S100000x128 .f32) : FVec Ideal S100000x1 .f32 :=
  Host.divf (broadcastInDim S100000x1 ![0] bcast_S100000_S100000x1_0
      (Host.reduceAdd (F := Ideal) v (constant (F := Ideal) S_ .f32 0x00000000#32) reducesTo_S100000x128_S100000_d1 h_S_))
    (broadcastInDim S100000x1 ![] bcast_S_S100000x1 (constant (F := Ideal) S_ .f32 0x43000000#32))

/-- Each entry minus its row's mean. -/
def cenArr (v : FVec Ideal S100000x128 .f32) : FVec Ideal S100000x128 .f32 :=
  subf (F := Ideal) v (broadcastInDim S100000x128 ![0, 1] bcast_S100000x1_S100000x128_0_1 (meanArr v))

/-- The column of row variances: the row means of the squared deviations. -/
def varArr (v : FVec Ideal S100000x128 .f32) : FVec Ideal S100000x1 .f32 :=
  Host.divf (broadcastInDim S100000x1 ![0] bcast_S100000_S100000x1_0
      (Host.reduceAdd (F := Ideal) (mulf (F := Ideal) (cenArr v) (cenArr v)) (constant (F := Ideal) S_ .f32 0x00000000#32) reducesTo_S100000x128_S100000_d1 h_S_))
    (broadcastInDim S100000x1 ![] bcast_S_S100000x1 (constant (F := Ideal) S_ .f32 0x43000000#32))

/-- The normalised array: deviations times (variance + ε)^(−1/2), times g, plus b. -/
def gnArr (v : FVec Ideal S100000x128 .f32) (g b : FVec Ideal S128 .f32) :
    FVec Ideal S100000x128 .f32 :=
  addf (F := Ideal) (mulf (F := Ideal) (mulf (F := Ideal) (cenArr v)
        (broadcastInDim S100000x128 ![0, 1] bcast_S100000x1_S100000x128_0_1
          (Host.rsqrt (F := Ideal) (addf (F := Ideal) (varArr v) (broadcastInDim S100000x1 ![] bcast_S_S100000x1 (constant (F := Ideal) S_ .f32 0x3727C5AC#32))))))
      (broadcastInDim S100000x128 ![0, 1] bcast_S1x128_S100000x128_0_1 (broadcastInDim S1x128 ![1] bcast_S128_S1x128_1 g)))
    (broadcastInDim S100000x128 ![0, 1] bcast_S1x128_S100000x128_0_1 (broadcastInDim S1x128 ![1] bcast_S128_S1x128_1 b))

/-- The mean column at row r is the mean of row r. -/
theorem meanArr_apply (v : FVec Ideal S100000x128 .f32) (r : Fin 100000) :
    meanArr v (ix2 r (0 : Fin 1)) = mean (fun k => v (ix2 r k)) := by
  unfold meanArr
  rw [hostDivf_apply, col_apply, laneSum_apply, scalarCol_apply, constant_apply]
  rfl

/-- A deviation at (r, q) is the entry minus the mean of row r. -/
theorem cenArr_apply (v : FVec Ideal S100000x128 .f32) (r : Fin 100000) (q : Fin 128) :
    cenArr v (ix2 r q) = v (ix2 r q) - mean (fun k => v (ix2 r k)) := by
  unfold cenArr
  rw [subf_apply, lanes_apply, meanArr_apply]

/-- The variance column at row r is the variance of row r. -/
theorem varArr_apply (v : FVec Ideal S100000x128 .f32) (r : Fin 100000) :
    varArr v (ix2 r (0 : Fin 1)) = var (fun k => v (ix2 r k)) := by
  unfold varArr
  rw [hostDivf_apply, col_apply, laneSum_apply, scalarCol_apply, constant_apply]
  simp only [mulf_apply, cenArr_apply]
  rfl

/-- The normalised array at (r, q) is the normalisation of row r at q. -/
theorem gnArr_apply (v : FVec Ideal S100000x128 .f32) (g b : FVec Ideal S128 .f32)
    (r : Fin 100000) (q : Fin 128) :
    gnArr v g b (ix2 r q) = gn (fun k => v (ix2 r k)) (vec g) (vec b) q := by
  unfold gnArr
  rw [addf_apply, mulf_apply, mulf_apply, cenArr_apply, lanes_apply, hostRsqrt_apply, addf_apply, varArr_apply, scalarCol_apply,
    constant_apply, rows_apply, rows_apply]
  rfl

/-! ## Matrix product and relu as the reference spells them -/

/-- The left operand's index of a product's term keeps the output's row. -/
theorem dot_lhs_row (i : S100000x128.Idx) (c : dot_S100000x128_S128x128_S100000x128_1_0_0_1_n_n.contr.Idx) :
    (dot_S100000x128_S128x128_S100000x128_1_0_0_1_n_n.lhsIdx i c 0).val = (i 0).val := by
  unfold DotDims.lhsIdx
  rw [dif_neg (show ¬(0 : Fin S100000x128.rank) ∈ dot_S100000x128_S128x128_S100000x128_1_0_0_1_n_n.lhsBatch by decide),
    dif_pos (show (0 : Fin S100000x128.rank) ∈ dot_S100000x128_S128x128_S100000x128_1_0_0_1_n_n.lhsNonContracting by decide)]
  rfl

/-- The right operand's index of a product's term keeps the output's column. -/
theorem dot_rhs_col (i : S100000x128.Idx) (c : dot_S100000x128_S128x128_S100000x128_1_0_0_1_n_n.contr.Idx) :
    (dot_S100000x128_S128x128_S100000x128_1_0_0_1_n_n.rhsIdx i c 1).val = (i 1).val := by
  unfold DotDims.rhsIdx
  rw [dif_neg (show ¬(1 : Fin S128x128.rank) ∈ dot_S100000x128_S128x128_S100000x128_1_0_0_1_n_n.rhsBatch by decide),
    dif_pos (show (1 : Fin S128x128.rank) ∈ dot_S100000x128_S128x128_S100000x128_1_0_0_1_n_n.rhsNonContracting by decide)]
  rfl

/-- The product of a [100000,128] array with a [128,128] matrix, read at (r, q): row r times column q. -/
theorem dot_apply (y : FVec Ideal S100000x128 .f32) (w : FVec Ideal S128x128 .f32) (r : Fin 100000) (q : Fin 128) :
    Host.dotGeneral (F := Ideal) dot_S100000x128_S128x128_S100000x128_1_0_0_1_n_n none y w (ix2 r q)
      = ∑ k : Fin 128, y (ix2 r k) * w (ix2 k q) := by
  simp only [Host.dotGeneral]
  rw [Ideal.dotGeneral_apply, ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 r q)
      ((contrEquiv1 dot_S100000x128_S128x128_S100000x128_1_0_0_1_n_n 128 rfl rfl).symm k) = ix2 r k :=
    funext fun a => Fin.ext (by
      match a with
      | ⟨0, _⟩ => exact dot_lhs_row _ _
      | ⟨1, _⟩ => exact (dot_S100000x128_S128x128_S100000x128_1_0_0_1_n_n.lhsIdx_val_of_single rfl _ _).trans hk)
  have er : dot_S100000x128_S128x128_S100000x128_1_0_0_1_n_n.rhsIdx (ix2 r q)
      ((contrEquiv1 dot_S100000x128_S128x128_S100000x128_1_0_0_1_n_n 128 rfl rfl).symm k) = ix2 k q :=
    funext fun a => Fin.ext (by
      match a with
      | ⟨0, _⟩ => exact (dot_S100000x128_S128x128_S100000x128_1_0_0_1_n_n.rhsIdx_val_of_single rfl _ _).trans hk
      | ⟨1, _⟩ => exact dot_rhs_col _ _)
  rw [el, er]

/-- max(·, 0) entry by entry, the zero being a scalar spread over the array. -/
def reluArr (y : FVec Ideal S100000x128 .f32) : FVec Ideal S100000x128 .f32 :=
  maximumf (F := Ideal) y (broadcastInDim S100000x128 ![] bcast_S_S100000x128 (constant (F := Ideal) S_ .f32 0x00000000#32))

theorem reluArr_apply (y : FVec Ideal S100000x128 .f32) (i : S100000x128.Idx) : reluArr y i = relu (y i) := by
  unfold reluArr
  rw [maximumf_apply, scalarArr_apply, constant_apply]
  rfl

/-- The node stage as the reference spells it, over an arbitrary accumulated array v. -/
def nodeArr (v idn : FVec Ideal S100000x128 .f32) (g0 b0 : FVec Ideal S128 .f32) (w1 : FVec Ideal S128x128 .f32)
    (g1 b1 : FVec Ideal S128 .f32) (w2 : FVec Ideal S128x128 .f32) (g2 b2 : FVec Ideal S128 .f32) : FVec Ideal S100000x128 .f32 :=
  reluArr (addf (F := Ideal)
    (gnArr (Host.dotGeneral (F := Ideal) dot_S100000x128_S128x128_S100000x128_1_0_0_1_n_n none
      (reluArr (gnArr (Host.dotGeneral (F := Ideal) dot_S100000x128_S128x128_S100000x128_1_0_0_1_n_n none
        (reluArr (gnArr v g0 b0)) w1) g1 b1)) w2) g2 b2)
    idn)

/-- The reference's node stage is the row function of each row. -/
theorem nodeArr_eq (v idn : FVec Ideal S100000x128 .f32) (g0 b0 : FVec Ideal S128 .f32) (w1 : FVec Ideal S128x128 .f32)
    (g1 b1 : FVec Ideal S128 .f32) (w2 : FVec Ideal S128x128 .f32) (g2 b2 : FVec Ideal S128 .f32) :
    nodeArr v idn g0 b0 w1 g1 b1 w2 g2 b2 = nodeWhole v idn g0 b0 w1 g1 b1 w2 g2 b2 := by
  funext i
  obtain ⟨r, q, rfl⟩ : ∃ (r : Fin 100000) (q : Fin 128), i = ix2 r q := ⟨i 0, i 1, eq_ix2 i⟩
  unfold nodeArr
  rw [reluArr_apply, addf_apply, gnArr_apply]
  simp only [dot_apply, reluArr_apply, gnArr_apply]
  rfl

/-! ## The reference's stages are these spellings

Each equation only unfolds definitions: the reference's stage and the spelling above are the same composition of the same
operations applied to the accumulated array, whatever that array is. -/

/-- The first normalisation (of the accumulated array, scale x13, shift x14). -/
theorem gn0_eq (x0 x1 : (⟨S100000x128, .f32⟩ : BufTy).Contents (Elt Ideal)) (x2 x3 : (⟨S100000x4, .f32⟩ : BufTy).Contents (Elt Ideal)) (x4 x5 : (⟨S500000, .i32⟩ : BufTy).Contents (Elt Ideal)) (x6 : (⟨S128x128, .f32⟩ : BufTy).Contents (Elt Ideal)) (x7 : (⟨S4x128, .f32⟩ : BufTy).Contents (Elt Ideal)) (x8 : (⟨S128, .f32⟩ : BufTy).Contents (Elt Ideal)) (x9 : (⟨S256x128, .f32⟩ : BufTy).Contents (Elt Ideal)) (x10 x11 : (⟨S128, .f32⟩ : BufTy).Contents (Elt Ideal)) (x12 : (⟨S128x128, .f32⟩ : BufTy).Contents (Elt Ideal)) (x13 x14 : (⟨S128, .f32⟩ : BufTy).Contents (Elt Ideal)) :
    val_main_v86 (F := Ideal) x0 x1 x2 x3 x4 x5 x6 x7 x8 x9 x10 x11 x12 x13 x14 = gnArr (val_main_v62 (F := Ideal) x0 x1 x2 x3 x4 x5 x6 x7 x8 x9 x10 x11 x12) x13 x14 := rfl

/-- The second normalisation (of the first product, scale x16, shift x17). -/
theorem gn1_eq (x0 x1 : (⟨S100000x128, .f32⟩ : BufTy).Contents (Elt Ideal)) (x2 x3 : (⟨S100000x4, .f32⟩ : BufTy).Contents (Elt Ideal)) (x4 x5 : (⟨S500000, .i32⟩ : BufTy).Contents (Elt Ideal)) (x6 : (⟨S128x128, .f32⟩ : BufTy).Contents (Elt Ideal)) (x7 : (⟨S4x128, .f32⟩ : BufTy).Contents (Elt Ideal)) (x8 : (⟨S128, .f32⟩ : BufTy).Contents (Elt Ideal)) (x9 : (⟨S256x128, .f32⟩ : BufTy).Contents (Elt Ideal)) (x10 x11 : (⟨S128, .f32⟩ : BufTy).Contents (Elt Ideal)) (x12 : (⟨S128x128, .f32⟩ : BufTy).Contents (Elt Ideal)) (x13 x14 : (⟨S128, .f32⟩ : BufTy).Contents (Elt Ideal)) (x15 : (⟨S128x128, .f32⟩ : BufTy).Contents (Elt Ideal)) (x16 x17 : (⟨S128, .f32⟩ : BufTy).Contents (Elt Ideal)) :
    val_main_v112 (F := Ideal) x0 x1 x2 x3 x4 x5 x6 x7 x8 x9 x10 x11 x12 x13 x14 x15 x16 x17 = gnArr (val_main_v88 (F := Ideal) x0 x1 x2 x3 x4 x5 x6 x7 x8 x9 x10 x11 x12 x13 x14 x15) x16 x17 := rfl

/-- The third normalisation (of the second product, scale x19, shift x20). -/
theorem gn2_eq (x0 x1 : (⟨S100000x128, .f32⟩ : BufTy).Contents (Elt Ideal)) (x2 x3 : (⟨S100000x4, .f32⟩ : BufTy).Contents (Elt Ideal)) (x4 x5 : (⟨S500000, .i32⟩ : BufTy).Contents (Elt Ideal)) (x6 : (⟨S128x128, .f32⟩ : BufTy).Contents (Elt Ideal)) (x7 : (⟨S4x128, .f32⟩ : BufTy).Contents (Elt Ideal)) (x8 : (⟨S128, .f32⟩ : BufTy).Contents (Elt Ideal)) (x9 : (⟨S256x128, .f32⟩ : BufTy).Contents (Elt Ideal)) (x10 x11 : (⟨S128, .f32⟩ : BufTy).Contents (Elt Ideal)) (x12 : (⟨S128x128, .f32⟩ : BufTy).Contents (Elt Ideal)) (x13 x14 : (⟨S128, .f32⟩ : BufTy).Contents (Elt Ideal)) (x15 : (⟨S128x128, .f32⟩ : BufTy).Contents (Elt Ideal)) (x16 x17 : (⟨S128, .f32⟩ : BufTy).Contents (Elt Ideal)) (x18 : (⟨S128x128, .f32⟩ : BufTy).Contents (Elt Ideal)) (x19 x20 : (⟨S128, .f32⟩ : BufTy).Contents (Elt Ideal)) :
    val_main_v138 (F := Ideal) x0 x1 x2 x3 x4 x5 x6 x7 x8 x9 x10 x11 x12 x13 x14 x15 x16 x17 x18 x19 x20
      = gnArr (val_main_v114 (F := Ideal) x0 x1 x2 x3 x4 x5 x6 x7 x8 x9 x10 x11 x12 x13 x14 x15 x16 x17 x18) x19 x20 := rfl

/-- The reference's last stage is the node stage's spelling over the accumulated array. -/
theorem node_spelling (x0 x1 : (⟨S100000x128, .f32⟩ : BufTy).Contents (Elt Ideal)) (x2 x3 : (⟨S100000x4, .f32⟩ : BufTy).Contents (Elt Ideal)) (x4 x5 : (⟨S500000, .i32⟩ : BufTy).Contents (Elt Ideal)) (x6 : (⟨S128x128, .f32⟩ : BufTy).Contents (Elt Ideal)) (x7 : (⟨S4x128, .f32⟩ : BufTy).Contents (Elt Ideal)) (x8 : (⟨S128, .f32⟩ : BufTy).Contents (Elt Ideal)) (x9 : (⟨S256x128, .f32⟩ : BufTy).Contents (Elt Ideal)) (x10 x11 : (⟨S128, .f32⟩ : BufTy).Contents (Elt Ideal)) (x12 : (⟨S128x128, .f32⟩ : BufTy).Contents (Elt Ideal)) (x13 x14 : (⟨S128, .f32⟩ : BufTy).Contents (Elt Ideal)) (x15 : (⟨S128x128, .f32⟩ : BufTy).Contents (Elt Ideal)) (x16 x17 : (⟨S128, .f32⟩ : BufTy).Contents (Elt Ideal)) (x18 : (⟨S128x128, .f32⟩ : BufTy).Contents (Elt Ideal)) (x19 x20 : (⟨S128, .f32⟩ : BufTy).Contents (Elt Ideal)) :
    val_main_v140 (F := Ideal) x0 x1 x2 x3 x4 x5 x6 x7 x8 x9 x10 x11 x12 x13 x14 x15 x16 x17 x18 x19 x20
      = nodeArr (val_main_v62 (F := Ideal) x0 x1 x2 x3 x4 x5 x6 x7 x8 x9 x10 x11 x12) x1 x13 x14 x15 x16 x17 x18 x19 x20 := by
  unfold val_main_v140 val_main_v139 val_main_call4_v0 val_main_call4_cst
  rw [gn2_eq]
  unfold val_main_v114 val_main_v113 val_main_call3_v0 val_main_call3_cst
  rw [gn1_eq]
  unfold val_main_v88 val_main_v87 val_main_call2_v0 val_main_call2_cst
  rw [gn0_eq]
  rfl

/-- The projection: entry (r, q) of the reference's product of the node features with the projection matrix is row r of the
    features times column q of the matrix. -/
theorem proj_eq (x1 : (⟨S100000x128, .f32⟩ : BufTy).Contents (Elt Ideal)) (x6 : (⟨S128x128, .f32⟩ : BufTy).Contents (Elt Ideal)) :
    val_main_v55 (F := Ideal) x1 x6 = projWhole x1 x6 := by
  funext i
  obtain ⟨r, q, rfl⟩ : ∃ (r : Fin 100000) (q : Fin 128), i = ix2 r q := ⟨i 0, i 1, eq_ix2 i⟩
  unfold val_main_v55
  rw [dot_apply]
  rfl

/-- The node stage: the reference's result is, row by row, the node row function of the accumulated array's row and the node's
    own input row. -/
theorem node_eq (x0 x1 : (⟨S100000x128, .f32⟩ : BufTy).Contents (Elt Ideal)) (x2 x3 : (⟨S100000x4, .f32⟩ : BufTy).Contents (Elt Ideal)) (x4 x5 : (⟨S500000, .i32⟩ : BufTy).Contents (Elt Ideal))
    (x6 : (⟨S128x128, .f32⟩ : BufTy).Contents (Elt Ideal)) (x7 : (⟨S4x128, .f32⟩ : BufTy).Contents (Elt Ideal)) (x8 : (⟨S128, .f32⟩ : BufTy).Contents (Elt Ideal)) (x9 : (⟨S256x128, .f32⟩ : BufTy).Contents (Elt Ideal))
    (x10 x11 : (⟨S128, .f32⟩ : BufTy).Contents (Elt Ideal)) (x12 : (⟨S128x128, .f32⟩ : BufTy).Contents (Elt Ideal)) (x13 x14 : (⟨S128, .f32⟩ : BufTy).Contents (Elt Ideal)) (x15 : (⟨S128x128, .f32⟩ : BufTy).Contents (Elt Ideal))
    (x16 x17 : (⟨S128, .f32⟩ : BufTy).Contents (Elt Ideal)) (x18 : (⟨S128x128, .f32⟩ : BufTy).Contents (Elt Ideal)) (x19 x20 : (⟨S128, .f32⟩ : BufTy).Contents (Elt Ideal)) :
    val_main_v140 (F := Ideal) x0 x1 x2 x3 x4 x5 x6 x7 x8 x9 x10 x11 x12 x13 x14 x15 x16 x17 x18 x19 x20
      = nodeWhole (val_main_v62 (F := Ideal) x0 x1 x2 x3 x4 x5 x6 x7 x8 x9 x10 x11 x12) x1 x13 x14 x15 x16 x17 x18 x19 x20 :=
  (node_spelling x0 x1 x2 x3 x4 x5 x6 x7 x8 x9 x10 x11 x12 x13 x14 x15 x16 x17 x18 x19 x20).trans
    (nodeArr_eq (val_main_v62 (F := Ideal) x0 x1 x2 x3 x4 x5 x6 x7 x8 x9 x10 x11 x12) x1 x13 x14 x15 x16 x17 x18 x19 x20)

end Cert.ReferenceIdeal.RefNode

end
-- ==== Proof.RefValue.lean ====
/-
  The reference as one function of its arguments.

  Gather the context rows and the two pose rows at the (normalised) edge indices, run the edge stage on every
  edge, scatter-add the edge results onto the projected node rows, and run the node update with each node's own
  input row as the residual. The gathers, the scatter-add and the index normalisation (a negative index has the
  number of rows added) are left as the host operations they are: the other program applies the very same ones.
-/
import proofs.«119794_j32323923870244_1_alg».proof.Proof.RefReadP
import proofs.«119794_j32323923870244_1_alg».proof.Proof.RefEdge
import proofs.«119794_j32323923870244_1_alg».proof.Proof.RefNode
import proofs.«119794_j32323923870244_1_alg».proof.Proof.Whole

set_option maxRecDepth 16384

noncomputable section

namespace Cert.ReferenceIdeal.RefValue

open Cert.ReferenceIdeal Cert.ReferenceIdeal.Gen Cert.ReferenceIdeal.ReadP Cert.RowSpec Cert.Whole
open Idealize.ShloMosaic Idealize.ShloMosaic.ValueIdx

/-- An index vector made a column, a negative entry first shifted up by the number of rows, 100000. -/
abbrev normIdx (a : (⟨S500000, .i32⟩ : BufTy).Contents (Elt Ideal)) : (⟨S500000x1, .i32⟩ : BufTy).Contents (Elt Ideal) :=
  broadcastInDim S500000x1 ![0] bcast_S500000_S500000x1_0
    (select (cmpi .slt a (broadcastInDim S500000 ![] bcast_S_S500000 (constantI S_ 32 0#32)))
      (addi a (broadcastInDim S500000 ![] bcast_S_S500000 (constantI S_ 32 100000#32))) a)

/-- The reference's result, stage by stage. -/
theorem result_eq (x0 x1 : (⟨S100000x128, .f32⟩ : BufTy).Contents (Elt Ideal)) (x2 x3 : (⟨S100000x4, .f32⟩ : BufTy).Contents (Elt Ideal)) (x4 x5 : (⟨S500000, .i32⟩ : BufTy).Contents (Elt Ideal))
    (x6 : (⟨S128x128, .f32⟩ : BufTy).Contents (Elt Ideal)) (x7 : (⟨S4x128, .f32⟩ : BufTy).Contents (Elt Ideal)) (x8 : (⟨S128, .f32⟩ : BufTy).Contents (Elt Ideal)) (x9 : (⟨S256x128, .f32⟩ : BufTy).Contents (Elt Ideal))
    (x10 x11 : (⟨S128, .f32⟩ : BufTy).Contents (Elt Ideal)) (x12 : (⟨S128x128, .f32⟩ : BufTy).Contents (Elt Ideal)) (x13 x14 : (⟨S128, .f32⟩ : BufTy).Contents (Elt Ideal)) (x15 : (⟨S128x128, .f32⟩ : BufTy).Contents (Elt Ideal))
    (x16 x17 : (⟨S128, .f32⟩ : BufTy).Contents (Elt Ideal)) (x18 : (⟨S128x128, .f32⟩ : BufTy).Contents (Elt Ideal)) (x19 x20 : (⟨S128, .f32⟩ : BufTy).Contents (Elt Ideal)) :
    val_main_v140 (F := Ideal) x0 x1 x2 x3 x4 x5 x6 x7 x8 x9 x10 x11 x12 x13 x14 x15 x16 x17 x18 x19 x20
      = nodeWhole
          (Host.scatterAdd (F := Ideal) (φ := .f32) scatter_S100000x128_S500000x1_S500000x128_1_0_0_1 (projWhole x1 x6) (normIdx x5)
            (edgeWhole (Host.gather gather_S100000x128_S500000x1_S500000x128_1_0_n_n_0_1_1128 x0 (normIdx x4))
              (subf (F := Ideal) (s := S500000x4) (φ := .f32) (Host.gather gather_S100000x4_S500000x1_S500000x4_1_0_n_n_0_1_14 x2 (normIdx x4))
                (Host.gather gather_S100000x4_S500000x1_S500000x4_1_0_n_n_0_1_14 x3 (normIdx x5)))
              x7 x8 x9 x10 x11 x12))
          x1 x13 x14 x15 x16 x17 x18 x19 x20 := by
  rw [Cert.ReferenceIdeal.RefNode.node_eq]
  unfold val_main_v62
  rw [Cert.ReferenceIdeal.RefNode.proj_eq, Cert.ReferenceIdeal.RefEdge.edge_eq]
  rfl

end Cert.ReferenceIdeal.RefValue

end
-- ==== Proof.lean ====
/-
  A message-passing layer on a graph of 100000 context nodes, 100000 target nodes and 500000 edges, with 128
  features per node: the tiled program against its plain reference, at the ideal instance (a float is an
  extended real, every operation exact).

  Both programs gather, for every edge, the context node's features and the difference of the two nodes' poses;
  pass each edge through the edge stage (a linear layer with bias and relu on the pose difference; the first
  context matrix applied to the concatenation of features and that; row normalisation with an affine map, relu;
  the second context matrix); scatter-add the edge results onto the target nodes' projected features; and pass
  each node through the node update (normalise-relu, matrix, normalise-relu, matrix, normalise, add the node's
  input row, relu). They differ in two ways only. The reference works on whole arrays, the tiled program on
  blocks of 10000 rows: every stage acts on rows independently, so a block's result is the restriction of the
  whole array's (Cover0, Cover1, Cover2 over PayEdge, PayNode). And the reference multiplies the concatenated
  256 features by the whole first context matrix, where the tiled program multiplies the two halves separately
  and adds: a sum over 256 terms is the sum of its two halves (RowSpec.sum_halves), by commutativity and
  associativity alone, so no finiteness of the inputs is used. The gathers, the scatter-add and the index
  normalisation are the same host operations in both programs and are never opened.

  The three frames: the two tiled programs' are their generated frame certificates; the reference's is its
  run with the result dropped. The idealization rewrote nothing, so `preserves` is trivial.
-/
import proofs.«119794_j32323923870244_1_alg».proof.Defs
import proofs.«119794_j32323923870244_1_alg».proof.Proof.Gen.Kernel
import proofs.«119794_j32323923870244_1_alg».proof.Proof.Gen.Kernel.Skeleton
import proofs.«119794_j32323923870244_1_alg».proof.Proof.Gen.Kernel.Launch
import proofs.«119794_j32323923870244_1_alg».proof.Proof.Gen.Kernel.Points
import proofs.«119794_j32323923870244_1_alg».proof.Proof.Gen.Kernel.Frame
import proofs.«119794_j32323923870244_1_alg».proof.Proof.Gen.KernelIdeal
import proofs.«119794_j32323923870244_1_alg».proof.Proof.Gen.KernelIdeal.Skeleton
import proofs.«119794_j32323923870244_1_alg».proof.Proof.Gen.KernelIdeal.Launch
import proofs.«119794_j32323923870244_1_alg».proof.Proof.Gen.KernelIdeal.Points
import proofs.«119794_j32323923870244_1_alg».proof.Proof.Gen.KernelIdeal.Frame
import proofs.«119794_j32323923870244_1_alg».proof.Proof.Gen.ReferenceIdeal
import proofs.«119794_j32323923870244_1_alg».proof.Proof.Gen.Pre_finite_inputs
import proofs.«119794_j32323923870244_1_alg».proof.Proof.KernelValue
import proofs.«119794_j32323923870244_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- From memories agreeing on the arguments both programs end with the same result array: each ends at the
    composition gather, edge stage, scatter-add onto the projection, node update, of its own arguments. -/
theorem algebraic : Cert.algebraic_KernelIdeal_ReferenceIdeal := by
  intro m ρ m' ρ' _ hagree
  refine ⟨_, Cert.KernelIdeal.KVal.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10, h11, h12, h13, h14, h15, h16, h17, h18, h19, h20⟩ := hagree c
  rw [Cert.ReferenceIdeal.ReadP.val_main_v140_eq, Cert.ReferenceIdeal.RefValue.result_eq,
    h0, h1, h2, h3, h4, h5, h6, h7, h8, h9, h10, h11, h12, h13, h14, h15, h16, h17, h18, h19, h20]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
